-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x1024 : Shape := ⟨2, ![4096, 1024]⟩
abbrev S50257x300 : Shape := ⟨2, ![50257, 300]⟩
abbrev S300x1024 : Shape := ⟨2, ![300, 1024]⟩
abbrev S1024 : Shape := ⟨1, ![1024]⟩
abbrev S1024x1024 : Shape := ⟨2, ![1024, 1024]⟩
abbrev S1024x50257 : Shape := ⟨2, ![1024, 50257]⟩
abbrev S50257 : Shape := ⟨1, ![50257]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S50257x300 : S_.BroadcastsInDim S50257x300 (![] : Fin 0 → Fin S50257x300.rank)
  reducesTo_S50257x300_S_d0_1 : S50257x300.ReducesTo [0, 1] S_
  bcast_S_S300x1024 : S_.BroadcastsInDim S300x1024 (![] : Fin 0 → Fin S300x1024.rank)
  reducesTo_S300x1024_S_d0_1 : S300x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x50257 : S_.BroadcastsInDim S1024x50257 (![] : Fin 0 → Fin S1024x50257.rank)
  reducesTo_S1024x50257_S_d0_1 : S1024x50257.ReducesTo [0, 1] S_
  bcast_S_S50257 : S_.BroadcastsInDim S50257 (![] : Fin 0 → Fin S50257.rank)
  reducesTo_S50257_S_d0 : S50257.ReducesTo [0] S_

variable [Facts]

def fn_part6 {F : FTy → Type} [FloatOps F] (main_v98 : IVec S_ 1) (main_v101 : IVec S50257 1) (main_c_39 : IVec S_ 1) : IVec S_ 1 :=
  let main_v102 : IVec S_ 1 := (fun x v => Host.reduce IntOp.andi x v reducesTo_S50257_S_d0 h_S_) main_v101 main_c_39
  let main_v103 : IVec S_ 1 := andi main_v98 main_v102
  main_v103

def fn_part5 {F : FTy → Type} [FloatOps F] (main_arg19 : FVec F S1024 .f32) (main_arg20 : FVec F S1024x50257 .f32) (main_arg21 : FVec F S50257 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg19
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x50257 .f32 := Host.absf main_arg20
  let main_cst_36 : FVec F S_ .f32 := constant S_ .f32 0x7F800000#32
  let main_v95 : FVec F S1024x50257 .f32 := broadcastInDim S1024x50257 ![] bcast_S_S1024x50257 main_cst_36
  let main_v96 : IVec S1024x50257 1 := cmpf .olt main_v94 main_v95
  let main_c_37 : IVec S_ 1 := constantI S_ 1 1#1
  let main_v97 : IVec S_ 1 := (fun x v => Host.reduce IntOp.andi x v reducesTo_S1024x50257_S_d0_1 h_S_) main_v96 main_c_37
  let main_v98 : IVec S_ 1 := andi main_v93 main_v97
  let main_v99 : FVec F S50257 .f32 := Host.absf main_arg21
  let main_cst_38 : FVec F S_ .f32 := constant S_ .f32 0x7F800000#32
  let main_v100 : FVec F S50257 .f32 := broadcastInDim S50257 ![] bcast_S_S50257 main_cst_38
  let main_v101 : IVec S50257 1 := cmpf .olt main_v99 main_v100
  let main_c_39 : IVec S_ 1 := constantI S_ 1 1#1
  fn_part6 (F := F) main_v98 main_v101 main_c_39

def fn_part4 {F : FTy → Type} [FloatOps F] (main_arg15 : FVec F S1024 .f32) (main_arg16 : FVec F S300x1024 .f32) (main_arg17 : FVec F S1024 .f32) (main_arg18 : FVec F S1024x1024 .f32) (main_arg19 : FVec F S1024 .f32) (main_arg20 : FVec F S1024x50257 .f32) (main_arg21 : FVec F S50257 .f32) (main_v63 : IVec S_ 1) (main_v67 : IVec S_ 1) : IVec S_ 1 :=
  let main_v68 : IVec S_ 1 := andi main_v63 main_v67
  let main_v69 : FVec F S1024 .f32 := Host.absf main_arg15
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S300x1024 .f32 := Host.absf main_arg16
  let main_cst_28 : FVec F S_ .f32 := constant S_ .f32 0x7F800000#32
  let main_v75 : FVec F S300x1024 .f32 := broadcastInDim S300x1024 ![] bcast_S_S300x1024 main_cst_28
  let main_v76 : IVec S300x1024 1 := cmpf .olt main_v74 main_v75
  let main_c_29 : IVec S_ 1 := constantI S_ 1 1#1
  let main_v77 : IVec S_ 1 := (fun x v => Host.reduce IntOp.andi x v reducesTo_S300x1024_S_d0_1 h_S_) main_v76 main_c_29
  let main_v78 : IVec S_ 1 := andi main_v73 main_v77
  let main_v79 : FVec F S1024 .f32 := Host.absf main_arg17
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S300x1024 .f32) (main_arg13 : FVec F S1024 .f32) (main_arg14 : FVec F S1024x1024 .f32) (main_arg15 : FVec F S1024 .f32) (main_arg16 : FVec F S300x1024 .f32) (main_arg17 : FVec F S1024 .f32) (main_arg18 : FVec F S1024x1024 .f32) (main_arg19 : FVec F S1024 .f32) (main_arg20 : FVec F S1024x50257 .f32) (main_arg21 : FVec F S50257 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S300x1024 .f32 := Host.absf main_arg12
  let main_cst_20 : FVec F S_ .f32 := constant S_ .f32 0x7F800000#32
  let main_v55 : FVec F S300x1024 .f32 := broadcastInDim S300x1024 ![] bcast_S_S300x1024 main_cst_20
  let main_v56 : IVec S300x1024 1 := cmpf .olt main_v54 main_v55
  let main_c_21 : IVec S_ 1 := constantI S_ 1 1#1
  let main_v57 : IVec S_ 1 := (fun x v => Host.reduce IntOp.andi x v reducesTo_S300x1024_S_d0_1 h_S_) main_v56 main_c_21
  let main_v58 : IVec S_ 1 := andi main_v53 main_v57
  let main_v59 : FVec F S1024 .f32 := Host.absf main_arg13
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg14
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S300x1024 .f32) (main_arg9 : FVec F S1024 .f32) (main_arg10 : FVec F S1024x1024 .f32) (main_arg11 : FVec F S1024 .f32) (main_arg12 : FVec F S300x1024 .f32) (main_arg13 : FVec F S1024 .f32) (main_arg14 : FVec F S1024x1024 .f32) (main_arg15 : FVec F S1024 .f32) (main_arg16 : FVec F S300x1024 .f32) (main_arg17 : FVec F S1024 .f32) (main_arg18 : FVec F S1024x1024 .f32) (main_arg19 : FVec F S1024 .f32) (main_arg20 : FVec F S1024x50257 .f32) (main_arg21 : FVec F S50257 .f32) (main_v33 : IVec S_ 1) : IVec S_ 1 :=
  let main_v34 : FVec F S300x1024 .f32 := Host.absf main_arg8
  let main_cst_12 : FVec F S_ .f32 := constant S_ .f32 0x7F800000#32
  let main_v35 : FVec F S300x1024 .f32 := broadcastInDim S300x1024 ![] bcast_S_S300x1024 main_cst_12
  let main_v36 : IVec S300x1024 1 := cmpf .olt main_v34 main_v35
  let main_c_13 : IVec S_ 1 := constantI S_ 1 1#1
  let main_v37 : IVec S_ 1 := (fun x v => Host.reduce IntOp.andi x v reducesTo_S300x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg10
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S1024 .f32) (main_arg6 : FVec F S1024x1024 .f32) (main_arg7 : FVec F S1024 .f32) (main_arg8 : FVec F S300x1024 .f32) (main_arg9 : FVec F S1024 .f32) (main_arg10 : FVec F S1024x1024 .f32) (main_arg11 : FVec F S1024 .f32) (main_arg12 : FVec F S300x1024 .f32) (main_arg13 : FVec F S1024 .f32) (main_arg14 : FVec F S1024x1024 .f32) (main_arg15 : FVec F S1024 .f32) (main_arg16 : FVec F S300x1024 .f32) (main_arg17 : FVec F S1024 .f32) (main_arg18 : FVec F S1024x1024 .f32) (main_arg19 : FVec F S1024 .f32) (main_arg20 : FVec F S1024x50257 .f32) (main_arg21 : FVec F S50257 .f32) (main_v13 : IVec S_ 1) (main_v16 : IVec S300x1024 1) : IVec S_ 1 :=
  let main_c_5 : IVec S_ 1 := constantI S_ 1 1#1
  let main_v17 : IVec S_ 1 := (fun x v => Host.reduce IntOp.andi x v reducesTo_S300x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : IVec S4096 32) (main_arg1 : FVec F S4096x1024 .f32) (main_arg2 : FVec F S4096x1024 .f32) (main_arg3 : FVec F S50257x300 .f32) (main_arg4 : FVec F S300x1024 .f32) (main_arg5 : FVec F S1024 .f32) (main_arg6 : FVec F S1024x1024 .f32) (main_arg7 : FVec F S1024 .f32) (main_arg8 : FVec F S300x1024 .f32) (main_arg9 : FVec F S1024 .f32) (main_arg10 : FVec F S1024x1024 .f32) (main_arg11 : FVec F S1024 .f32) (main_arg12 : FVec F S300x1024 .f32) (main_arg13 : FVec F S1024 .f32) (main_arg14 : FVec F S1024x1024 .f32) (main_arg15 : FVec F S1024 .f32) (main_arg16 : FVec F S300x1024 .f32) (main_arg17 : FVec F S1024 .f32) (main_arg18 : FVec F S1024x1024 .f32) (main_arg19 : FVec F S1024 .f32) (main_arg20 : FVec F S1024x50257 .f32) (main_arg21 : FVec F S50257 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S50257x300 .f32 := Host.absf main_arg3
  let main_cst_2 : FVec F S_ .f32 := constant S_ .f32 0x7F800000#32
  let main_v10 : FVec F S50257x300 .f32 := broadcastInDim S50257x300 ![] bcast_S_S50257x300 main_cst_2
  let main_v11 : IVec S50257x300 1 := cmpf .olt main_v9 main_v10
  let main_c_3 : IVec S_ 1 := constantI S_ 1 1#1
  let main_v12 : IVec S_ 1 := (fun x v => Host.reduce IntOp.andi x v reducesTo_S50257x300_S_d0_1 h_S_) main_v11 main_c_3
  let main_v13 : IVec S_ 1 := andi main_v8 main_v12
  let main_v14 : FVec F S300x1024 .f32 := Host.absf main_arg4
  let main_cst_4 : FVec F S_ .f32 := constant S_ .f32 0x7F800000#32
  let main_v15 : FVec F S300x1024 .f32 := broadcastInDim S300x1024 ![] bcast_S_S300x1024 main_cst_4
  let main_v16 : IVec S300x1024 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S4096 : Shape := ⟨1, ![4096]⟩
abbrev S4096x1024 : Shape := ⟨2, ![4096, 1024]⟩
abbrev S50257x300 : Shape := ⟨2, ![50257, 300]⟩
abbrev S300x1024 : Shape := ⟨2, ![300, 1024]⟩
abbrev S1024 : Shape := ⟨1, ![1024]⟩
abbrev S1024x1024 : Shape := ⟨2, ![1024, 1024]⟩
abbrev S1024x50257 : Shape := ⟨2, ![1024, 50257]⟩
abbrev S50257 : Shape := ⟨1, ![50257]⟩
abbrev S_ : Shape := ⟨0, ![]⟩
abbrev S4096x1 : Shape := ⟨2, ![4096, 1]⟩
abbrev S4096x300 : Shape := ⟨2, ![4096, 300]⟩
abbrev S300x4096 : Shape := ⟨2, ![300, 4096]⟩
abbrev S1024x4096 : Shape := ⟨2, ![1024, 4096]⟩
abbrev S1x4096 : Shape := ⟨2, ![1, 4096]⟩
abbrev S256x300 : Shape := ⟨2, ![256, 300]⟩
abbrev S256x1024 : Shape := ⟨2, ![256, 1024]⟩
abbrev S256x4096 : Shape := ⟨2, ![256, 4096]⟩
abbrev S1x50257 : Shape := ⟨2, ![1, 50257]⟩
abbrev S4096x50257 : Shape := ⟨2, ![4096, 50257]⟩
abbrev S2048x1024 : Shape := ⟨2, ![2048, 1024]⟩
abbrev S1x1024 : Shape := ⟨2, ![1, 1024]⟩

abbrev nBuf : Space → Nat
  | .hbm => 45
  | .vmem => 20
  | .smem => 0
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S4096x1024, .f32⟩
  | .hbm, ⟨3, _⟩ => ⟨S50257x300, .f32⟩
  | .hbm, ⟨4, _⟩ => ⟨S300x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S300x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S300x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S300x1024, .f32⟩
  | .hbm, ⟨17, _⟩ => ⟨S1024, .f32⟩
  | .hbm, ⟨18, _⟩ => ⟨S1024x1024, .f32⟩
  | .hbm, ⟨19, _⟩ => ⟨S1024, .f32⟩
  | .hbm, ⟨20, _⟩ => ⟨S1024x50257, .f32⟩
  | .hbm, ⟨21, _⟩ => ⟨S50257, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x300, .f32⟩
  | .hbm, ⟨31, _⟩ => ⟨S4096x300, .bf16⟩
  | .hbm, ⟨32, _⟩ => ⟨S4096x1024, .bf16⟩
  | .hbm, ⟨33, _⟩ => ⟨S300x4096, .f32⟩
  | .hbm, ⟨34, _⟩ => ⟨S300x4096, .bf16⟩
  | .hbm, ⟨35, _⟩ => ⟨S1024x4096, .f32⟩
  | .hbm, ⟨36, _⟩ => ⟨S1024x4096, .bf16⟩
  | .hbm, ⟨37, _⟩ => ⟨S4096, .f32⟩
  | .hbm, ⟨38, _⟩ => ⟨S1x4096, .f32⟩
  | .hbm, ⟨39, _⟩ => ⟨S4096, .f32⟩
  | .hbm, ⟨40, _⟩ => ⟨S1x4096, .f32⟩
  | .hbm, ⟨41, _⟩ => ⟨S4096x1024, .bf16⟩
  | .hbm, ⟨42, _⟩ => ⟨S1024x50257, .bf16⟩
  | .hbm, ⟨43, _⟩ => ⟨S1x50257, .f32⟩
  | .hbm, ⟨44, _⟩ => ⟨S4096x50257, .f32⟩
  | .local _ .vmem, ⟨0, _⟩ => ⟨S256x300, .bf16⟩
  | .local _ .vmem, ⟨1, _⟩ => ⟨S256x300, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S300x4096, .bf16⟩
  | .local _ .vmem, ⟨7, _⟩ => ⟨S1x4096, .f32⟩
  | .local _ .vmem, ⟨8, _⟩ => ⟨S1024x4096, .bf16⟩
  | .local _ .vmem, ⟨9, _⟩ => ⟨S1x4096, .f32⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S2048x1024, .f32⟩
  | .local _ .vmem, ⟨19, _⟩ => ⟨S2048x1024, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S300x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 50], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  concatenates_S300x1024_S300x1024_S300x1024_S300x1024_S300x4096_d1 : Shape.Concatenates [S300x1024, S300x1024, S300x1024, S300x1024] S300x4096 1
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  shapeCasts_S4096_S1x4096 : S4096.ShapeCasts S1x4096
  inb_S256x300_S256x300_0_0 : ∀ a, (![0, 0] : Fin 2 → Nat) a + S256x300.size a ≤ S256x300.size a
  h_S256x300 : 0 < S256x300.numel
  shapeCasts_S256x300_S256x300 : S256x300.ShapeCasts S256x300
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S300x4096_S300x4096_0_0 : ∀ a, (![0, 0] : Fin 2 → Nat) a + S300x4096.size a ≤ S300x4096.size a
  h_S300x4096 : 0 < S300x4096.numel
  shapeCasts_S300x4096_S300x4096 : S300x4096.ShapeCasts S300x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  packedbf16_S256x1024_S256x1024_0_0 : (Rect.unit (s := S256x1024) ![0, 0] S256x1024.size inb_S256x1024_S256x1024_0_0).PackedRows (EltTy.packing .bf16)
  shapeCasts_S50257_S1x50257 : S50257.ShapeCasts S1x50257
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  gather_S50257x300_S4096x1_S4096x300_1_0_n_n_0_1_1300_wf : GatherDims.WF S50257x300 S4096x1 S4096x300 [1] [0] [] [0] [] 1 ![1, 300]
  dot_S256x300_S300x4096_S256x4096_1_0_0_1_n_n_wf : DotDims.WF S256x300 S300x4096 S256x4096 [1] [0] [0] [1] [] []
  dot_S256x1024_S1024x4096_S256x4096_1_0_0_1_n_n_wf : DotDims.WF S256x1024 S1024x4096 S256x4096 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x300.size a ≤ S4096x300.size a
  hwx0_0 : ∀ i : grid0.Coords, EltTy.bits .bf16 = 32 ∨ (Rect.block (s := S4096x300) S256x300.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x4096.size a ≤ S300x4096.size a
  hwx0_3 : ∀ i : grid0.Coords, EltTy.bits .bf16 = 32 ∨ (Rect.block (s := S300x4096) S300x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .bf16 = 32 ∨ (Rect.block (s := S4096x1024) S256x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x1024.size a
  hwx1_0 : ∀ i : grid1.Coords, EltTy.bits .bf16 = 32 ∨ (Rect.block (s := S4096x1024) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x1024.size a < S1024x50257.size a
  hwx1_1 : ∀ i : grid1.Coords, EltTy.bits .bf16 = 32 ∨ (Rect.unit (s := S1024x50257) (fun a => cc1_transform_1 i a * S1024x1024.size a) (fun a => (Pipeline.Clip.of (cc1_transform_1 i a) (S1024x1024.size a) (S1024x50257.size a)).extent (S1024x1024.size a)) fun a => Pipeline.Clip.inb (Pipeline.Clip.ok_of (hstart1_1 i a))).WholeWords (EltTy.packing .bf16)
  hwxs1_1 : ∀ i : grid1.Coords, EltTy.bits .bf16 = 32 ∨ (Rect.unit (s := S1024x1024) (fun _ => 0) (fun a => (Pipeline.Clip.of (cc1_transform_1 i a) (S1024x1024.size a) (S1024x50257.size a)).extent (S1024x1024.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x1024.size a < S1x50257.size a
  hwx1_2 : ∀ i : grid1.Coords, EltTy.bits .f32 = 32 ∨ (Rect.unit (s := S1x50257) (fun a => cc1_transform_2 i a * S1x1024.size a) (fun a => (Pipeline.Clip.of (cc1_transform_2 i a) (S1x1024.size a) (S1x50257.size a)).extent (S1x1024.size a)) fun a => Pipeline.Clip.inb (Pipeline.Clip.ok_of (hstart1_2 i a))).WholeWords (EltTy.packing .f32)
  hwxs1_2 : ∀ i : grid1.Coords, EltTy.bits .f32 = 32 ∨ (Rect.unit (s := S1x1024) (fun _ => 0) (fun a => (Pipeline.Clip.of (cc1_transform_2 i a) (S1x1024.size a) (S1x50257.size a)).extent (S1x1024.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S2048x1024.size a < S4096x50257.size a
  hwx1_3 : ∀ i : grid1.Coords, EltTy.bits .f32 = 32 ∨ (Rect.unit (s := S4096x50257) (fun a => cc1_transform_3 i a * S2048x1024.size a) (fun a => (Pipeline.Clip.of (cc1_transform_3 i a) (S2048x1024.size a) (S4096x50257.size a)).extent (S2048x1024.size a)) fun a => Pipeline.Clip.inb (Pipeline.Clip.ok_of (hstart1_3 i a))).WholeWords (EltTy.packing .f32)
  hwxs1_3 : ∀ i : grid1.Coords, EltTy.bits .f32 = 32 ∨ (Rect.unit (s := S2048x1024) (fun _ => 0) (fun a => (Pipeline.Clip.of (cc1_transform_3 i a) (S2048x1024.size a) (S4096x50257.size a)).extent (S2048x1024.size a)) fun a => (Nat.zero_add _).trans_le (Pipeline.Clip.extent_le (Pipeline.Clip.ok_of (hstart1_3 i a)))).WholeWords (EltTy.packing .f32)

variable [Facts₀]

def gather_S50257x300_S4096x1_S4096x300_1_0_n_n_0_1_1300 : GatherDims S50257x300 S4096x1 S4096x300 where
  offsetDims := [1]
  collapsedSliceDims := [0]
  operandBatchingDims := []
  startIndicesBatchingDims := []
  startIndexMap := [0]
  indexVectorDim := 1
  sliceSizes := ![1, 300]
  wf := gather_S50257x300_S4096x1_S4096x300_1_0_n_n_0_1_1300_wf
def dot_S256x300_S300x4096_S256x4096_1_0_0_1_n_n : DotDims S256x300 S300x4096 S256x4096 where
  lhsContracting := [1]
  rhsContracting := [0]
  lhsNonContracting := [0]
  rhsNonContracting := [1]
  lhsBatch := []
  rhsBatch := []
  wf := dot_S256x300_S300x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v7) S256x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S300x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v18) S1024x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v19) S1x1024.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v20) S2048x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096 : Shape := ⟨1, ![4096]⟩
abbrev S4096x1024 : Shape := ⟨2, ![4096, 1024]⟩
abbrev S50257x300 : Shape := ⟨2, ![50257, 300]⟩
abbrev S300x1024 : Shape := ⟨2, ![300, 1024]⟩
abbrev S1024 : Shape := ⟨1, ![1024]⟩
abbrev S1024x1024 : Shape := ⟨2, ![1024, 1024]⟩
abbrev S1024x50257 : Shape := ⟨2, ![1024, 50257]⟩
abbrev S50257 : Shape := ⟨1, ![50257]⟩
abbrev S_ : Shape := ⟨0, ![]⟩
abbrev S4096x1 : Shape := ⟨2, ![4096, 1]⟩
abbrev S4096x300 : Shape := ⟨2, ![4096, 300]⟩
abbrev S1x1024 : Shape := ⟨2, ![1, 1024]⟩
abbrev S4096x50257 : Shape := ⟨2, ![4096, 50257]⟩
abbrev S1x50257 : Shape := ⟨2, ![1, 50257]⟩

abbrev nBuf : Space → Nat
  | .hbm => 101
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S4096x1024, .f32⟩
  | .hbm, ⟨3, _⟩ => ⟨S50257x300, .f32⟩
  | .hbm, ⟨4, _⟩ => ⟨S300x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S300x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S300x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S300x1024, .f32⟩
  | .hbm, ⟨17, _⟩ => ⟨S1024, .f32⟩
  | .hbm, ⟨18, _⟩ => ⟨S1024x1024, .f32⟩
  | .hbm, ⟨19, _⟩ => ⟨S1024, .f32⟩
  | .hbm, ⟨20, _⟩ => ⟨S1024x50257, .f32⟩
  | .hbm, ⟨21, _⟩ => ⟨S50257, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x300, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x50257, .f32⟩
  | .hbm, ⟨98, _⟩ => ⟨S1x50257, .f32⟩
  | .hbm, ⟨99, _⟩ => ⟨S4096x50257, .f32⟩
  | .hbm, ⟨100, _⟩ => ⟨S4096x50257, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_4 : Ref sig .tc := ⟨.hbm, 86, rfl⟩
abbrev main_v58 : Ref sig .tc := ⟨.hbm, 87, rfl⟩
abbrev main_v59 : Ref sig .tc := ⟨.hbm, 88, rfl⟩
abbrev main_cst_5 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S50257_S1x50257_1 : S50257.BroadcastsInDim S1x50257 (![1] : Fin 1 → Fin S1x50257.rank)
  bcast_S1x50257_S4096x50257_0_1 : S1x50257.BroadcastsInDim S4096x50257 (![0, 1] : Fin 2 → Fin S4096x50257.rank)
  gather_S50257x300_S4096x1_S4096x300_1_0_n_n_0_1_1300_wf : GatherDims.WF S50257x300 S4096x1 S4096x300 [1] [0] [] [0] [] 1 ![1, 300]
  dot_S4096x300_S300x1024_S4096x1024_1_0_0_1_n_n_wf : DotDims.WF S4096x300 S300x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x50257_S4096x50257_1_0_0_1_n_n_wf : DotDims.WF S4096x1024 S1024x50257 S4096x50257 [1] [0] [0] [1] [] []

variable [Facts₀]

def gather_S50257x300_S4096x1_S4096x300_1_0_n_n_0_1_1300 : GatherDims S50257x300 S4096x1 S4096x300 where
  offsetDims := [1]
  collapsedSliceDims := [0]
  operandBatchingDims := []
  startIndicesBatchingDims := []
  startIndexMap := [0]
  indexVectorDim := 1
  sliceSizes := ![1, 300]
  wf := gather_S50257x300_S4096x1_S4096x300_1_0_n_n_0_1_1300_wf
def dot_S4096x300_S300x1024_S4096x1024_1_0_0_1_n_n : DotDims S4096x300 S300x1024 S4096x1024 where
  lhsContracting := [1]
  rhsContracting := [0]
  lhsNonContracting := [0]
  rhsNonContracting := [1]
  lhsBatch := []
  rhsBatch := []
  wf := dot_S4096x300_S300x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x50257_S4096x50257_1_0_0_1_n_n : DotDims S4096x1024 S1024x50257 S4096x50257 where
  lhsContracting := [1]
  rhsContracting := [0]
  lhsNonContracting := [0]
  rhsNonContracting := [1]
  lhsBatch := []
  rhsBatch := []
  wf := dot_S4096x1024_S1024x50257_S4096x50257_1_0_0_1_n_n_wf

class Facts : Prop extends Facts₀ where

variable [Facts]
-- ==== Proof.GateRegionW.lean ====
/-
  The gate kernel's region: one grid axis of 16 points; at point t the body reads rows 256·t … 256·t+255 of the
  embedded tokens, of the hidden state and of the cell state, the four whole concatenated weight and bias arrays
  (fetched once, at the first point), and writes rows 256·t … of the new hidden state. Stated here: each window's
  block at a point, what the body's one store leaves in the output's staging buffer (the payload of the loaded
  blocks), the body's triple, and the per-point obligation of the pipeline rule.
-/
import proofs.«156406_j52596169507493_2_alg».proof.Proof.Gen.Kernel.Launch
import proofs.«156406_j52596169507493_2_alg».proof.Proof.Gen.Kernel.Skeleton
import proofs.«156406_j52596169507493_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region0

-- the contents of the TensorCore's buffers when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or not
    (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether fetched there or not
    (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether fetched there or not
    (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether fetched there or not
    (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether fetched there or not
    (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether fetched there or not
    (an unfetched window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether fetched there or not
    (an unfetched window's block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: every load and the store take the whole staging buffer. -/
abbrev rA : Rect S256x300 := Rect.unit (s := S256x300) ![0, 0] S256x300.size inb_S256x300_S256x300_0_0
abbrev rB : Rect S256x1024 := Rect.unit (s := S256x1024) ![0, 0] S256x1024.size inb_S256x1024_S256x1024_0_0
abbrev rC : Rect S300x4096 := Rect.unit (s := S300x4096) ![0, 0] S300x4096.size inb_S300x4096_S300x4096_0_0
abbrev rD : Rect S1x4096 := Rect.unit (s := S1x4096) ![0, 0] S1x4096.size inb_S1x4096_S1x4096_0_0
abbrev rE : Rect S1024x4096 := Rect.unit (s := S1024x4096) ![0, 0] S1024x4096.size inb_S1024x4096_S1024x4096_0_0

/-- The output's staging buffer after the body: its one whole-buffer store of the payload of the seven loads. -/
def out0_7 (x0 : Vec F S256x300 .bf16) (x1 : Vec F S256x1024 .bf16) (x2 : Vec F S256x1024 .f32) (x3 : Vec F S300x4096 .bf16)
    (x4 : Vec F S1x4096 .f32) (x5 : Vec F S1024x4096 .bf16) (x6 : Vec F S1x4096 .f32) : Vec F S256x1024 .bf16 :=
  View.canon [⟨rB, k0_pay1 (View.ld x0 rA) (View.ld x1 rB) (View.ld x2 rB) (View.ld x3 rC) (View.ld x4 rD) (View.ld x5 rE) (View.ld x6 rD)⟩]

/-- The one store covers the buffer. -/
theorem cover0_7 (p0 : Vec F S256x1024 .bf16) (y : S256x1024.Idx) :
    ∃ pc ∈ ([⟨rB, p0⟩] : List (View.Piece (Elt F) S256x1024 .bf16)), y ∈ pc.1.set :=
  View.cover_of_tiled [⟨rB, p0⟩] S256x1024.size (by rfl) y

set_option maxHeartbeats 4000000 in
/-- The body on whole staging memrefs, the inputs' at contents x0 … x6 and the output's at anything, runs to the
    continuation with the inputs' as they were and the output's at `out0_7` of them. -/
theorem sound_kernel0 (c : Dev nD) (E : Set ℕ) (i : grid0.Coords)
    (arg1 : Memref sig .tc .vmem S256x300 .bf16) (harg1 : arg1.IsWhole) (arg2 : Memref sig .tc .vmem S256x1024 .bf16) (harg2 : arg2.IsWhole)
    (arg3 : Memref sig .tc .vmem S256x1024 .f32) (harg3 : arg3.IsWhole) (arg4 : Memref sig .tc .vmem S300x4096 .bf16) (harg4 : arg4.IsWhole)
    (arg5 : Memref sig .tc .vmem S1x4096 .f32) (harg5 : arg5.IsWhole) (arg6 : Memref sig .tc .vmem S1024x4096 .bf16) (harg6 : arg6.IsWhole)
    (arg7 : Memref sig .tc .vmem S1x4096 .f32) (harg7 : arg7.IsWhole) (arg8 : Memref sig .tc .vmem S256x1024 .bf16) (harg8 : arg8.IsWhole)
    (x0 : Vec F S256x300 .bf16) (x1 : Vec F S256x1024 .bf16) (x2 : Vec F S256x1024 .f32) (x3 : Vec F S300x4096 .bf16)
    (x4 : Vec F S1x4096 .f32) (x5 : Vec F S1024x4096 .bf16) (x6 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__gate_kernel i arg1 harg1 arg2 harg2 arg3 harg3 arg4 harg4 arg5 harg5 arg6 harg6 arg7 harg7 arg8 harg8) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The region's proof data on core c: the arrays as the region finds them; after the body at point t each input's
    buffer at its block and the output's at `out0_7` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frm

end
-- ==== Proof.LogitsRegionW.lean ====
/-
  The logits kernel's region: a 2 × 50 grid; at point (a, b) the body reads rows 2048·a … of the new hidden state,
  columns 1024·b … of the projection matrix and of the bias row, and writes the 2048 × 1024 block (a, b) of the
  logits. 50257 = 49·1024 + 81, so at b = 49 the three blocks that move with b overhang their arrays: only their
  first 81 columns are transferred, and the rest of a staging buffer holds words nothing names. Stated here: each
  window's block at a point (its part inside the array), the body's triple, the proof data — the clipped inputs'
  buffers at their blocks filled out with a chosen word, the output's at the payload of those — and the per-point
  obligation, which for the clipped windows speaks of the transferred part only. An entry (r, q) of a product
  reads row r of the left factor and column q of the right one; that the transferred columns of the payload do not
  depend on the filler is taken here as the hypothesis `ColLocal`.
-/
import proofs.«156406_j52596169507493_2_alg».proof.Proof.Gen.Kernel.Launch
import proofs.«156406_j52596169507493_2_alg».proof.Proof.Gen.Kernel.Skeleton
import proofs.«156406_j52596169507493_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1

-- the contents of the TensorCore's buffers when the region is entered
variable (V : (c : Dev nD) → (b : Ref sig .tc) → Buf (Elt F) ((c : Thread nD τ).loc b))

/-- Window w's block at point t, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state window (never clipped) holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev rP : Rect S2048x1024 := Rect.unit (s := S2048x1024) ![0, 0] S2048x1024.size inb_S2048x1024_S2048x1024_0_0
abbrev rQ : Rect S1024x1024 := Rect.unit (s := S1024x1024) ![0, 0] S1024x1024.size inb_S1024x1024_S1024x1024_0_0
abbrev rR : Rect S1x1024 := Rect.unit (s := S1x1024) ![0, 0] S1x1024.size inb_S1x1024_S1x1024_0_0

/-- The output's staging buffer after the body: its one whole-buffer store of the payload of the three loads. -/
def out1_3 (x0 : Vec F S2048x1024 .bf16) (x1 : Vec F S1024x1024 .bf16) (x2 : Vec F S1x1024 .f32) : Vec F S2048x1024 .f32 :=
  View.canon [⟨rP, k1_pay1 (View.ld x0 rP) (View.ld x1 rQ) (View.ld x2 rR)⟩]

theorem cover1_3 (p0 : Vec F S2048x1024 .f32) (y : S2048x1024.Idx) :
    ∃ pc ∈ ([⟨rP, p0⟩] : List (View.Piece (Elt F) S2048x1024 .f32)), y ∈ pc.1.set :=
  View.cover_of_tiled [⟨rP, p0⟩] S2048x1024.size (by rfl) y

set_option maxHeartbeats 4000000 in
/-- The body on whole staging memrefs, the inputs' at contents x0, x1, x2 and the output's at anything, runs to the
    continuation with the inputs' as they were and the output's at `out1_3` of them. -/
theorem sound_kernel1 (c : Dev nD) (E : Set ℕ) (i : grid1.Coords)
    (arg2 : Memref sig .tc .vmem S2048x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S2048x1024 .f32) (harg5 : arg5.IsWhole)
    (x0 : Vec F S2048x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E
          (cc1__logits_kernel i arg2 harg2 arg3 harg3 arg4 harg4 arg5 harg5) K := by
  simp only [cc1__logits_kernel_eq_skeleton]; unfold cc1__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The word the proof data put in a clipped input's buffer past the array's end (nothing reads it). -/
def z1 : S1024x1024.Idx → Elt F .bf16 := fun _ => Scalar.ofBits .bf16 0#16
def z2 : S1x1024.Idx → Elt F .f32 := fun _ => Scalar.ofBits .f32 0#32

/-- The projection matrix's and the bias row's blocks at point t, filled out to the buffer's size. -/
def wblk (c : Dev nD) (t : Fin cfg1.N) : S1024x1024.Idx → Elt F .bf16 := win1_1.fill (grid1.coords t) z1 (iblk1 V c 1 t)
def bblk (c : Dev nD) (t : Fin cfg1.N) : S1x1024.Idx → Elt F .f32 := win1_2.fill (grid1.coords t) z2 (iblk1 V c 2 t)

/-- The region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => out1_3 (iblk1 V c 0 t) (wblk V c t) (bblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) : (dat1 V c).after 3 t = out1_3 (iblk1 V c 0 t) (wblk V c t) (bblk V c t) := by dsimp only [dat1]

theorem before1_0 (c : Dev nD) (t : Fin cfg1.N) (d) : (dat1 V c).before 0 t d = iblk1 V c 0 t :=
  before1_0_of V (dat1 V c) (A_eq1 V c 0) (after1_0 V c) t d
/-- The two clipped inputs are fetched at every point: the block inside the array, `d` past its end. -/
theorem before1_1 (c : Dev nD) (t : Fin cfg1.N) (d) : (dat1 V c).before 1 t d = win1_1.fill (grid1.coords t) d (iblk1 V c 1 t) := by
  unfold Dat.before; rw [if_pos (fetch1_1 t)]; rfl
theorem before1_2 (c : Dev nD) (t : Fin cfg1.N) (d) : (dat1 V c).before 2 t d = win1_2.fill (grid1.coords t) d (iblk1 V c 2 t) := by
  unfold Dat.before; rw [if_pos (fetch1_2 t)]; rfl

/-- The transferred columns of the payload do not depend on what fills the clipped inputs past the array's end. -/
def ColLocal (F : FTy → Type) [FloatOps F] : Prop :=
  ∀ (i : grid1.Coords) (x0 : Vec F S2048x1024 .bf16) (b1 : (win1_1.xblock i).Idx → Elt F .bf16) (b2 : (win1_2.xblock i).Idx → Elt F .f32)
    (d1 d1' : S1024x1024.Idx → Elt F .bf16) (d2 d2' : S1x1024.Idx → Elt F .f32),
    win1_3.cut i (out1_3 x0 (win1_1.fill i d1 b1) (win1_2.fill i d2 b2)) = win1_3.cut i (out1_3 x0 (win1_1.fill i d1' b1) (win1_2.fill i d2' b2))

end Region1

end Cert.Kernel.Frm

end
-- ==== Proof.LogitsBodyW.lean ====
/-
  The logits kernel's per-point obligation. The body finds the hidden-state block, the projection block and the bias
  block — the last two filled out past the array's end with words `d1`, `d2` nothing names — and leaves them as found,
  the output's buffer at the payload of the three. On the transferred part the clipped inputs' buffers are their
  blocks whatever the filler (`Window.cut_fill`), and the payload's transferred columns are those of the proof data's
  when the product is column-local (`ColLocal`). A second form of the obligation states nothing of the output's
  buffer: it serves a claim that does not read the logits.
-/
import proofs.«156406_j52596169507493_2_alg».proof.Proof.LogitsRegionW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

set_option maxHeartbeats 2000000 in
/-- The pipeline rule's body obligation at every point, the clipped windows' buffers stated on the transferred part. -/
theorem body_obligation1 (hloc : ColLocal F) (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (iblk1 V c 0 t) (win1_1.fill (grid1.coords t) d1 (iblk1 V c 1 t))
    (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win1_1.cut (grid1.coords t) (wblk V c t) = iblk1 V c 1 t := win1_1.cut_fill _ _ _
  have h2 : win1_2.cut (grid1.coords t) (bblk V c t) = iblk1 V c 2 t := win1_2.cut_fill _ _ _
  isplitl [H0]; · rw [after1_0]; iexact H0
  isplitl [H1]
  · iexists d1
    rw [after1_1]
    change _ ⊢ owns (c : Thread nD τ) (stage1_1 (cfg1.slots t 1)) fullShare (win1_1.fill (grid1.coords t) d1 (win1_1.cut (grid1.coords t) (wblk V c t)))
    rw [h1]; try iexact H1
  isplitl [H2]
  · iexists d2
    rw [after1_2]
    change _ ⊢ owns (c : Thread nD τ) (stage1_2 (cfg1.slots t 2)) fullShare (win1_2.fill (grid1.coords t) d2 (win1_2.cut (grid1.coords t) (bblk V c t)))
    rw [h2]; try iexact H2
  · iexists (out1_3 (iblk1 V c 0 t) (win1_1.fill (grid1.coords t) d1 (iblk1 V c 1 t)) (win1_2.fill (grid1.coords t) d2 (iblk1 V c 2 t)))
    rw [after1_3]
    change _ ⊢ owns (c : Thread nD τ) (stage1_3 (cfg1.slots t 3)) fullShare
      (win1_3.fill (grid1.coords t) (out1_3 (iblk1 V c 0 t) (win1_1.fill (grid1.coords t) d1 (iblk1 V c 1 t)) (win1_2.fill (grid1.coords t) d2 (iblk1 V c 2 t)))
        (win1_3.cut (grid1.coords t) (out1_3 (iblk1 V c 0 t) (wblk V c t) (bblk V c t))))
    rw [show win1_3.cut (grid1.coords t) (out1_3 (iblk1 V c 0 t) (wblk V c t) (bblk V c t))
        = win1_3.cut (grid1.coords t) (out1_3 (iblk1 V c 0 t) (win1_1.fill (grid1.coords t) d1 (iblk1 V c 1 t)) (win1_2.fill (grid1.coords t) d2 (iblk1 V c 2 t)))
      from hloc (grid1.coords t) (iblk1 V c 0 t) (iblk1 V c 1 t) (iblk1 V c 2 t) z1 d1 z2 d2, win1_3.fill_cut]
    try iexact H3

/-- The windows a claim that does not read the logits leaves unnamed: the output's. -/
abbrev fgt1 : Fin cfg1.W → Bool := fun | 0 => false | 1 => false | 2 => false | 3 => true | ⟨_ + 4, h⟩ => absurd h (Nat.not_lt.2 (Nat.le_add_left _ _))

set_option maxHeartbeats 2000000 in
/-- The obligation with the output's buffer handed over and taken back at contents nothing names. -/
theorem body_obligation1_unnamed (c : Dev nD) :
    BodyObligationLoose (dat1 (F := F) V c) (defs₀ (F := F)) Variants.none () Set.univ fgt1 := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (iblk1 V c 0 t) (win1_1.fill (grid1.coords t) d1 (iblk1 V c 1 t))
    (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win1_1.cut (grid1.coords t) (wblk V c t) = iblk1 V c 1 t := win1_1.cut_fill _ _ _
  have h2 : win1_2.cut (grid1.coords t) (bblk V c t) = iblk1 V c 2 t := win1_2.cut_fill _ _ _
  isplitl [H0]; · rw [after1_0]; iexact H0
  isplitl [H1]
  · iexists d1
    rw [after1_1]
    change _ ⊢ owns (c : Thread nD τ) (stage1_1 (cfg1.slots t 1)) fullShare (win1_1.fill (grid1.coords t) d1 (win1_1.cut (grid1.coords t) (wblk V c t)))
    rw [h1]; try iexact H1
  isplitl [H2]
  · iexists d2
    rw [after1_2]
    change _ ⊢ owns (c : Thread nD τ) (stage1_2 (cfg1.slots t 2)) fullShare (win1_2.fill (grid1.coords t) d2 (win1_2.cut (grid1.coords t) (bblk V c t)))
    rw [h2]; try iexact H2
  · iexists _; iexact H3

end Region1

end Cert.Kernel.Frm

end
-- ==== Proof.RunW.lean ====
/-
  The whole run of @main read for what it leaves ALONE: the host stretches and the two regions as in the value
  run, but the logits region's output buffer is handed to the body and taken back at contents nothing names — the
  product's entries are not known to depend on single columns of the projection block, and past the array's end
  that block holds unnamed words. Proved: every weakly fair execution terminates, faults nowhere, and ends with
  every buffer the logits region does not stage at its contents when that region was entered; an argument is such
  a buffer, unwritten by any host operation and by the gate region.
-/
import proofs.«156406_j52596169507493_2_alg».proof.Proof.GateRegionW
import proofs.«156406_j52596169507493_2_alg».proof.Proof.LogitsBodyW
import proofs.«156406_j52596169507493_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

abbrev U0 : Dev nD → Valuation τ sig (Elt F) := fun c b => m (c, b)
abbrev U1 : Dev nD → Valuation τ sig (Elt F) := fun c => StableHlo.after hostOps0 (U0 m c)
abbrev E1 : (c : Dev nD) → (b : Ref sig .tc) → Buf (Elt F) ((c : Thread nD τ).loc b) := fun c b => U1 m c b
def U2 (c : Dev nD) : Valuation τ sig (Elt F) :=
  Pipeline.withArrays spec0 c (U1 m c) fun w => (dat0 (E1 m) c).arrAt w cfg0.N
theorem U2_arr (c : Dev nD) (w : Fin cfg0.W) :
    U2 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev E2 : (c : Dev nD) → (b : Ref sig .tc) → Buf (Elt F) ((c : Thread nD τ).loc b) := fun c b => U2 m c b
theorem hF0 (c : Dev nD) (w : Fin cfg0.W) : (dat0 (E1 m) c).arrAt w cfg0.N = E2 m c (Pipeline.arrRef spec0 w) :=
  (U2_arr m c w).symm
theorem hrest0 (c : Dev nD) : ∀ b, b ∉ Finset.univ.image (Pipeline.arrRef spec0) → E2 m c b = E1 m c b :=
  fun b hb => U2_of_ne m c b fun w e => hb (Finset.mem_image.mpr ⟨w, Finset.mem_univ _, e⟩)
abbrev U3 : Dev nD → Valuation τ sig (Elt F) := fun c => StableHlo.after hostOps1 (U2 m c)
abbrev E3 : (c : Dev nD) → (b : Ref sig .tc) → Buf (Elt F) ((c : Thread nD τ).loc b) := fun c b => U3 m c b

/-- A buffer no host operation writes and the gate region does not stage holds its launch contents when the logits
    region is entered. -/
theorem E3_keep (c : Dev nD) (b : Ref sig .tc) (h0 : b ∉ hostOps0_W) (h1 : b ∉ hostOps1_W)
    (ha0 : ∀ w, Pipeline.arrRef spec0 w ≠ b) : E3 m c b = m ((c : Thread nD τ).loc b) :=
  (StableHlo.after_of_writes_sub hostOps1 _ hostOps1_writes h1).trans <|
    (U2_of_ne m c b ha0).trans <| (StableHlo.after_of_writes_sub hostOps0 _ hostOps0_writes h0).trans rfl
/-- The cell state is an input window of the gate region: never written back. -/
theorem E3_main_arg2 (c : Dev nD) : E3 m c main_arg2 = m ((c : Thread nD τ).loc main_arg2) :=
  (StableHlo.after_of_writes_sub hostOps1 _ hostOps1_writes (by decide)).trans <|
    (U2_arr m c 2).trans <| ((dat0 (E1 m) c).arrAt_in 2 rfl _).trans <| (A_eq0 (E1 m) c 2).trans <|
      (StableHlo.after_of_writes_sub hostOps0 _ hostOps0_writes (by decide)).trans rfl

abbrev adm : (p : Fin 2) → (pcfgs (F := F) p).Adm := fun p => (cfgs p).toPCfg_adm
/-- Each pipeline's proof data at its region's entry contents, -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
/-- read as relations between what the body finds and leaves; the logits region's output is left unnamed. -/
def rdats : (p : Fin 2) → (c : Dev nD) → Pipeline.RDat τ (Elt F) Unit ℕ (UR sig nD τ) ℕ (Pipeline.pin (pcfgs (F := F)) adm p) c
  | ⟨0, _⟩ => fun c => (dat0 (E1 m) c).toR
  | ⟨1, _⟩ => fun c => (dat1 (E3 m) c).toRForget fgt1
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The buffers the logits region does not stage. -/
abbrev restRefs1 : Finset (Ref sig .tc) := (Finset.univ.filter fun b : Ref sig .tc => ¬ b.isScoped) \ Finset.univ.image (Pipeline.arrRef spec1)
/-- The last thread state without the dues. -/
abbrev Tₙ (c : Dev nD) : sProp 𝕄 :=
  iprop((rdats m 1 c).arraysAt (Pipeline.pin (pcfgs (F := F)) adm 1).N
    ∗ Pipeline.unscopedRest (Ix := Unit) (Name := ℕ) (U := UR sig nD τ) (Lvl := ℕ) spec1 c (E3 m c) ∗ ∃ r, prngReg c r)

set_option backward.isDefEq.respectTransparency.types false in
/-- The gate region over the thread state. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose.toR
  hwaits := Pipeline.RDat.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (dat0 (E1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The logits region over the thread state: left with its arrays at whatever its write-backs made of them, beside every buffer it does not stage at its entry contents. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1_unnamed (E3 m) c).toRForget
  hwaits := Pipeline.RDat.hwaits_of_owed_zero _ _ _ _ L lv 1 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

abbrev segs : List (Pipeline.RDat.Seg (pcfgs (F := F)) adm (rdats m) () defs₀ 𝒱₀ L lv) :=
  [ .host (hseg hostOps0 hostOps0_sub hostOps0_fresh (U0 m)),
    .region (reg0 m),
    .host (hseg hostOps1 hostOps1_sub hostOps1_fresh (U2 m)),
    .region (reg1 m) ]

set_option backward.isDefEq.respectTransparency.types false in
/-- THE RUN, for what it leaves alone. -/
theorem run_rest : θ_run defs (onTc (τ := τ) (main (F := F))) ⟨m, fun _ => 0, ρ⟩ (fun r => ∀ c : Dev nD,
      ∀ b ∈ restRefs1, r.2.mem ((c : Thread nD τ).loc b) = E3 m c b) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ restRefs1, s.mem ((c : Thread nD τ).loc b) = E3 m c b)
    (hfin := fun c s' => by
      iintro ⟨⟨-, Hrest, -⟩, HSI⟩
      unfold Pipeline.unscopedRest
      imodintro
      iapply (pointsTo_read_all restRefs1 (fun b => ((c : Thread nD τ).loc b)) (E3 m c) s')
      isplitl [Hrest] <;> iassumption)
    (hQ := fun s h => h)

end Run

end Cert.Kernel.Frm

end
-- ==== Proof.ClaimsW.lean ====
/-
  The frame of the program as printed: every argument is a buffer the logits region does not stage, no host
  operation writes it, and the gate region either does not stage it or only reads it; so it ends as launched.
-/
import proofs.«156406_j52596169507493_2_alg».proof.Defs
import proofs.«156406_j52596169507493_2_alg».proof.Proof.RunW
import proofs.«156406_j52596169507493_2_alg».proof.Proof.Gen.Pre_finite_inputs

set_option maxRecDepth 16384

noncomputable section

namespace Cert.Proof.Parts

open Cert.Kernel Cert.Kernel.Gen Cert.Kernel.Frm
open Idealize.ShloMosaic Idealize.ShloMosaic.TcCoe Idealize.SL.Sem

/-- An unscoped buffer that is none of the logits region's arrays is among those the region leaves alone. -/
theorem mem_rest (b : Ref sig .tc) (h1 : ¬ b.isScoped) (h2 : ∀ w, Pipeline.arrRef spec1 w ≠ b) : b ∈ restRefs1 :=
  Finset.mem_sdiff.mpr ⟨Finset.mem_filter.mpr ⟨Finset.mem_univ _, h1⟩,
    fun h => by obtain ⟨w, -, e⟩ := Finset.mem_image.mp h; exact h2 w e⟩

theorem frame_k : @Cert.frame_Kernel Cert.Kernel.Gen.facts Cert.Pre_finite_inputs.Gen.facts := fun m ρ _ =>
  (θ_run (Cert.Kernel.defs (F := Bits)) _ _).mono (fun r h c =>
    ⟨(h c main_arg0 (mem_rest main_arg0 (by decide) (by decide))).trans (E3_keep m c main_arg0 (by decide) (by decide) (by decide)),
     (h c main_arg1 (mem_rest main_arg1 (by decide) (by decide))).trans (E3_keep m c main_arg1 (by decide) (by decide) (by decide)),
     (h c main_arg2 (mem_rest main_arg2 (by decide) (by decide))).trans (E3_main_arg2 m c),
     (h c main_arg3 (mem_rest main_arg3 (by decide) (by decide))).trans (E3_keep m c main_arg3 (by decide) (by decide) (by decide)),
     (h c main_arg4 (mem_rest main_arg4 (by decide) (by decide))).trans (E3_keep m c main_arg4 (by decide) (by decide) (by decide)),
     (h c main_arg5 (mem_rest main_arg5 (by decide) (by decide))).trans (E3_keep m c main_arg5 (by decide) (by decide) (by decide)),
     (h c main_arg6 (mem_rest main_arg6 (by decide) (by decide))).trans (E3_keep m c main_arg6 (by decide) (by decide) (by decide)),
     (h c main_arg7 (mem_rest main_arg7 (by decide) (by decide))).trans (E3_keep m c main_arg7 (by decide) (by decide) (by decide)),
     (h c main_arg8 (mem_rest main_arg8 (by decide) (by decide))).trans (E3_keep m c main_arg8 (by decide) (by decide) (by decide)),
     (h c main_arg9 (mem_rest main_arg9 (by decide) (by decide))).trans (E3_keep m c main_arg9 (by decide) (by decide) (by decide)),
     (h c main_arg10 (mem_rest main_arg10 (by decide) (by decide))).trans (E3_keep m c main_arg10 (by decide) (by decide) (by decide)),
     (h c main_arg11 (mem_rest main_arg11 (by decide) (by decide))).trans (E3_keep m c main_arg11 (by decide) (by decide) (by decide)),
     (h c main_arg12 (mem_rest main_arg12 (by decide) (by decide))).trans (E3_keep m c main_arg12 (by decide) (by decide) (by decide)),
     (h c main_arg13 (mem_rest main_arg13 (by decide) (by decide))).trans (E3_keep m c main_arg13 (by decide) (by decide) (by decide)),
     (h c main_arg14 (mem_rest main_arg14 (by decide) (by decide))).trans (E3_keep m c main_arg14 (by decide) (by decide) (by decide)),
     (h c main_arg15 (mem_rest main_arg15 (by decide) (by decide))).trans (E3_keep m c main_arg15 (by decide) (by decide) (by decide)),
     (h c main_arg16 (mem_rest main_arg16 (by decide) (by decide))).trans (E3_keep m c main_arg16 (by decide) (by decide) (by decide)),
     (h c main_arg17 (mem_rest main_arg17 (by decide) (by decide))).trans (E3_keep m c main_arg17 (by decide) (by decide) (by decide)),
     (h c main_arg18 (mem_rest main_arg18 (by decide) (by decide))).trans (E3_keep m c main_arg18 (by decide) (by decide) (by decide)),
     (h c main_arg19 (mem_rest main_arg19 (by decide) (by decide))).trans (E3_keep m c main_arg19 (by decide) (by decide) (by decide)),
     (h c main_arg20 (mem_rest main_arg20 (by decide) (by decide))).trans (E3_keep m c main_arg20 (by decide) (by decide) (by decide)),
     (h c main_arg21 (mem_rest main_arg21 (by decide) (by decide))).trans (E3_keep m c main_arg21 (by decide) (by decide) (by decide))⟩)
    (run_rest (F := Bits) m ρ)

end Cert.Proof.Parts

end
-- ==== Proof.GateRegion.lean ====
/-
  The gate kernel's region: one grid axis of 16 points; at point t the body reads rows 256·t … 256·t+255 of the
  embedded tokens, of the hidden state and of the cell state, the four whole concatenated weight and bias arrays
  (fetched once, at the first point), and writes rows 256·t … of the new hidden state. Stated here: each window's
  block at a point, what the body's one store leaves in the output's staging buffer (the payload of the loaded
  blocks), the body's triple, and the per-point obligation of the pipeline rule.
-/
import proofs.«156406_j52596169507493_2_alg».proof.Proof.Gen.KernelIdeal.Launch
import proofs.«156406_j52596169507493_2_alg».proof.Proof.Gen.KernelIdeal.Skeleton
import proofs.«156406_j52596169507493_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region0

-- the contents of the TensorCore's buffers when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or not
    (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether fetched there or not
    (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether fetched there or not
    (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether fetched there or not
    (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether fetched there or not
    (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether fetched there or not
    (an unfetched window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether fetched there or not
    (an unfetched window's block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: every load and the store take the whole staging buffer. -/
abbrev rA : Rect S256x300 := Rect.unit (s := S256x300) ![0, 0] S256x300.size inb_S256x300_S256x300_0_0
abbrev rB : Rect S256x1024 := Rect.unit (s := S256x1024) ![0, 0] S256x1024.size inb_S256x1024_S256x1024_0_0
abbrev rC : Rect S300x4096 := Rect.unit (s := S300x4096) ![0, 0] S300x4096.size inb_S300x4096_S300x4096_0_0
abbrev rD : Rect S1x4096 := Rect.unit (s := S1x4096) ![0, 0] S1x4096.size inb_S1x4096_S1x4096_0_0
abbrev rE : Rect S1024x4096 := Rect.unit (s := S1024x4096) ![0, 0] S1024x4096.size inb_S1024x4096_S1024x4096_0_0

/-- The output's staging buffer after the body: its one whole-buffer store of the payload of the seven loads. -/
def out0_7 (x0 : Vec F S256x300 .bf16) (x1 : Vec F S256x1024 .bf16) (x2 : Vec F S256x1024 .f32) (x3 : Vec F S300x4096 .bf16)
    (x4 : Vec F S1x4096 .f32) (x5 : Vec F S1024x4096 .bf16) (x6 : Vec F S1x4096 .f32) : Vec F S256x1024 .bf16 :=
  View.canon [⟨rB, k0_pay1 (View.ld x0 rA) (View.ld x1 rB) (View.ld x2 rB) (View.ld x3 rC) (View.ld x4 rD) (View.ld x5 rE) (View.ld x6 rD)⟩]

/-- The one store covers the buffer. -/
theorem cover0_7 (p0 : Vec F S256x1024 .bf16) (y : S256x1024.Idx) :
    ∃ pc ∈ ([⟨rB, p0⟩] : List (View.Piece (Elt F) S256x1024 .bf16)), y ∈ pc.1.set :=
  View.cover_of_tiled [⟨rB, p0⟩] S256x1024.size (by rfl) y

set_option maxHeartbeats 4000000 in
/-- The body on whole staging memrefs, the inputs' at contents x0 … x6 and the output's at anything, runs to the
    continuation with the inputs' as they were and the output's at `out0_7` of them. -/
theorem sound_kernel0 (c : Dev nD) (E : Set ℕ) (i : grid0.Coords)
    (arg1 : Memref sig .tc .vmem S256x300 .bf16) (harg1 : arg1.IsWhole) (arg2 : Memref sig .tc .vmem S256x1024 .bf16) (harg2 : arg2.IsWhole)
    (arg3 : Memref sig .tc .vmem S256x1024 .f32) (harg3 : arg3.IsWhole) (arg4 : Memref sig .tc .vmem S300x4096 .bf16) (harg4 : arg4.IsWhole)
    (arg5 : Memref sig .tc .vmem S1x4096 .f32) (harg5 : arg5.IsWhole) (arg6 : Memref sig .tc .vmem S1024x4096 .bf16) (harg6 : arg6.IsWhole)
    (arg7 : Memref sig .tc .vmem S1x4096 .f32) (harg7 : arg7.IsWhole) (arg8 : Memref sig .tc .vmem S256x1024 .bf16) (harg8 : arg8.IsWhole)
    (x0 : Vec F S256x300 .bf16) (x1 : Vec F S256x1024 .bf16) (x2 : Vec F S256x1024 .f32) (x3 : Vec F S300x4096 .bf16)
    (x4 : Vec F S1x4096 .f32) (x5 : Vec F S1024x4096 .bf16) (x6 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__gate_kernel i arg1 harg1 arg2 harg2 arg3 harg3 arg4 harg4 arg5 harg5 arg6 harg6 arg7 harg7 arg8 harg8) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The region's proof data on core c: the arrays as the region finds them; after the body at point t each input's
    buffer at its block and the output's at `out0_7` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frm

end
-- ==== Proof.LogitsRegion.lean ====
/-
  The logits kernel's region: a 2 × 50 grid; at point (a, b) the body reads rows 2048·a … of the new hidden state,
  columns 1024·b … of the projection matrix and of the bias row, and writes the 2048 × 1024 block (a, b) of the
  logits. 50257 = 49·1024 + 81, so at b = 49 the three blocks that move with b overhang their arrays: only their
  first 81 columns are transferred, and the rest of a staging buffer holds words nothing names. Stated here: each
  window's block at a point (its part inside the array), the body's triple, the proof data — the clipped inputs'
  buffers at their blocks filled out with a chosen word, the output's at the payload of those — and the per-point
  obligation, which for the clipped windows speaks of the transferred part only. An entry (r, q) of a product
  reads row r of the left factor and column q of the right one; that the transferred columns of the payload do not
  depend on the filler is taken here as the hypothesis `ColLocal`.
-/
import proofs.«156406_j52596169507493_2_alg».proof.Proof.Gen.KernelIdeal.Launch
import proofs.«156406_j52596169507493_2_alg».proof.Proof.Gen.KernelIdeal.Skeleton
import proofs.«156406_j52596169507493_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1

-- the contents of the TensorCore's buffers when the region is entered
variable (V : (c : Dev nD) → (b : Ref sig .tc) → Buf (Elt F) ((c : Thread nD τ).loc b))

/-- Window w's block at point t, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state window (never clipped) holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev rP : Rect S2048x1024 := Rect.unit (s := S2048x1024) ![0, 0] S2048x1024.size inb_S2048x1024_S2048x1024_0_0
abbrev rQ : Rect S1024x1024 := Rect.unit (s := S1024x1024) ![0, 0] S1024x1024.size inb_S1024x1024_S1024x1024_0_0
abbrev rR : Rect S1x1024 := Rect.unit (s := S1x1024) ![0, 0] S1x1024.size inb_S1x1024_S1x1024_0_0

/-- The output's staging buffer after the body: its one whole-buffer store of the payload of the three loads. -/
def out1_3 (x0 : Vec F S2048x1024 .bf16) (x1 : Vec F S1024x1024 .bf16) (x2 : Vec F S1x1024 .f32) : Vec F S2048x1024 .f32 :=
  View.canon [⟨rP, k1_pay1 (View.ld x0 rP) (View.ld x1 rQ) (View.ld x2 rR)⟩]

theorem cover1_3 (p0 : Vec F S2048x1024 .f32) (y : S2048x1024.Idx) :
    ∃ pc ∈ ([⟨rP, p0⟩] : List (View.Piece (Elt F) S2048x1024 .f32)), y ∈ pc.1.set :=
  View.cover_of_tiled [⟨rP, p0⟩] S2048x1024.size (by rfl) y

set_option maxHeartbeats 4000000 in
/-- The body on whole staging memrefs, the inputs' at contents x0, x1, x2 and the output's at anything, runs to the
    continuation with the inputs' as they were and the output's at `out1_3` of them. -/
theorem sound_kernel1 (c : Dev nD) (E : Set ℕ) (i : grid1.Coords)
    (arg2 : Memref sig .tc .vmem S2048x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S2048x1024 .f32) (harg5 : arg5.IsWhole)
    (x0 : Vec F S2048x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E
          (cc1__logits_kernel i arg2 harg2 arg3 harg3 arg4 harg4 arg5 harg5) K := by
  simp only [cc1__logits_kernel_eq_skeleton]; unfold cc1__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The word the proof data put in a clipped input's buffer past the array's end (nothing reads it). -/
def z1 : S1024x1024.Idx → Elt F .bf16 := fun _ => Scalar.ofBits .bf16 0#16
def z2 : S1x1024.Idx → Elt F .f32 := fun _ => Scalar.ofBits .f32 0#32

/-- The projection matrix's and the bias row's blocks at point t, filled out to the buffer's size. -/
def wblk (c : Dev nD) (t : Fin cfg1.N) : S1024x1024.Idx → Elt F .bf16 := win1_1.fill (grid1.coords t) z1 (iblk1 V c 1 t)
def bblk (c : Dev nD) (t : Fin cfg1.N) : S1x1024.Idx → Elt F .f32 := win1_2.fill (grid1.coords t) z2 (iblk1 V c 2 t)

/-- The region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => out1_3 (iblk1 V c 0 t) (wblk V c t) (bblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) : (dat1 V c).after 3 t = out1_3 (iblk1 V c 0 t) (wblk V c t) (bblk V c t) := by dsimp only [dat1]

theorem before1_0 (c : Dev nD) (t : Fin cfg1.N) (d) : (dat1 V c).before 0 t d = iblk1 V c 0 t :=
  before1_0_of V (dat1 V c) (A_eq1 V c 0) (after1_0 V c) t d
/-- The two clipped inputs are fetched at every point: the block inside the array, `d` past its end. -/
theorem before1_1 (c : Dev nD) (t : Fin cfg1.N) (d) : (dat1 V c).before 1 t d = win1_1.fill (grid1.coords t) d (iblk1 V c 1 t) := by
  unfold Dat.before; rw [if_pos (fetch1_1 t)]; rfl
theorem before1_2 (c : Dev nD) (t : Fin cfg1.N) (d) : (dat1 V c).before 2 t d = win1_2.fill (grid1.coords t) d (iblk1 V c 2 t) := by
  unfold Dat.before; rw [if_pos (fetch1_2 t)]; rfl

/-- The transferred columns of the payload do not depend on what fills the clipped inputs past the array's end. -/
def ColLocal (F : FTy → Type) [FloatOps F] : Prop :=
  ∀ (i : grid1.Coords) (x0 : Vec F S2048x1024 .bf16) (b1 : (win1_1.xblock i).Idx → Elt F .bf16) (b2 : (win1_2.xblock i).Idx → Elt F .f32)
    (d1 d1' : S1024x1024.Idx → Elt F .bf16) (d2 d2' : S1x1024.Idx → Elt F .f32),
    win1_3.cut i (out1_3 x0 (win1_1.fill i d1 b1) (win1_2.fill i d2 b2)) = win1_3.cut i (out1_3 x0 (win1_1.fill i d1' b1) (win1_2.fill i d2' b2))

end Region1

end Cert.KernelIdeal.Frm

end
-- ==== Proof.LogitsBody.lean ====
/-
  The logits kernel's per-point obligation. The body finds the hidden-state block, the projection block and the bias
  block — the last two filled out past the array's end with words `d1`, `d2` nothing names — and leaves them as found,
  the output's buffer at the payload of the three. On the transferred part the clipped inputs' buffers are their
  blocks whatever the filler (`Window.cut_fill`), and the payload's transferred columns are those of the proof data's
  when the product is column-local (`ColLocal`). A second form of the obligation states nothing of the output's
  buffer: it serves a claim that does not read the logits.
-/
import proofs.«156406_j52596169507493_2_alg».proof.Proof.LogitsRegion

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

set_option maxHeartbeats 2000000 in
/-- The pipeline rule's body obligation at every point, the clipped windows' buffers stated on the transferred part. -/
theorem body_obligation1 (hloc : ColLocal F) (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (iblk1 V c 0 t) (win1_1.fill (grid1.coords t) d1 (iblk1 V c 1 t))
    (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win1_1.cut (grid1.coords t) (wblk V c t) = iblk1 V c 1 t := win1_1.cut_fill _ _ _
  have h2 : win1_2.cut (grid1.coords t) (bblk V c t) = iblk1 V c 2 t := win1_2.cut_fill _ _ _
  isplitl [H0]; · rw [after1_0]; iexact H0
  isplitl [H1]
  · iexists d1
    rw [after1_1]
    change _ ⊢ owns (c : Thread nD τ) (stage1_1 (cfg1.slots t 1)) fullShare (win1_1.fill (grid1.coords t) d1 (win1_1.cut (grid1.coords t) (wblk V c t)))
    rw [h1]; try iexact H1
  isplitl [H2]
  · iexists d2
    rw [after1_2]
    change _ ⊢ owns (c : Thread nD τ) (stage1_2 (cfg1.slots t 2)) fullShare (win1_2.fill (grid1.coords t) d2 (win1_2.cut (grid1.coords t) (bblk V c t)))
    rw [h2]; try iexact H2
  · iexists (out1_3 (iblk1 V c 0 t) (win1_1.fill (grid1.coords t) d1 (iblk1 V c 1 t)) (win1_2.fill (grid1.coords t) d2 (iblk1 V c 2 t)))
    rw [after1_3]
    change _ ⊢ owns (c : Thread nD τ) (stage1_3 (cfg1.slots t 3)) fullShare
      (win1_3.fill (grid1.coords t) (out1_3 (iblk1 V c 0 t) (win1_1.fill (grid1.coords t) d1 (iblk1 V c 1 t)) (win1_2.fill (grid1.coords t) d2 (iblk1 V c 2 t)))
        (win1_3.cut (grid1.coords t) (out1_3 (iblk1 V c 0 t) (wblk V c t) (bblk V c t))))
    rw [show win1_3.cut (grid1.coords t) (out1_3 (iblk1 V c 0 t) (wblk V c t) (bblk V c t))
        = win1_3.cut (grid1.coords t) (out1_3 (iblk1 V c 0 t) (win1_1.fill (grid1.coords t) d1 (iblk1 V c 1 t)) (win1_2.fill (grid1.coords t) d2 (iblk1 V c 2 t)))
      from hloc (grid1.coords t) (iblk1 V c 0 t) (iblk1 V c 1 t) (iblk1 V c 2 t) z1 d1 z2 d2, win1_3.fill_cut]
    try iexact H3

/-- The windows a claim that does not read the logits leaves unnamed: the output's. -/
abbrev fgt1 : Fin cfg1.W → Bool := fun | 0 => false | 1 => false | 2 => false | 3 => true | ⟨_ + 4, h⟩ => absurd h (Nat.not_lt.2 (Nat.le_add_left _ _))

set_option maxHeartbeats 2000000 in
/-- The obligation with the output's buffer handed over and taken back at contents nothing names. -/
theorem body_obligation1_unnamed (c : Dev nD) :
    BodyObligationLoose (dat1 (F := F) V c) (defs₀ (F := F)) Variants.none () Set.univ fgt1 := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (iblk1 V c 0 t) (win1_1.fill (grid1.coords t) d1 (iblk1 V c 1 t))
    (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win1_1.cut (grid1.coords t) (wblk V c t) = iblk1 V c 1 t := win1_1.cut_fill _ _ _
  have h2 : win1_2.cut (grid1.coords t) (bblk V c t) = iblk1 V c 2 t := win1_2.cut_fill _ _ _
  isplitl [H0]; · rw [after1_0]; iexact H0
  isplitl [H1]
  · iexists d1
    rw [after1_1]
    change _ ⊢ owns (c : Thread nD τ) (stage1_1 (cfg1.slots t 1)) fullShare (win1_1.fill (grid1.coords t) d1 (win1_1.cut (grid1.coords t) (wblk V c t)))
    rw [h1]; try iexact H1
  isplitl [H2]
  · iexists d2
    rw [after1_2]
    change _ ⊢ owns (c : Thread nD τ) (stage1_2 (cfg1.slots t 2)) fullShare (win1_2.fill (grid1.coords t) d2 (win1_2.cut (grid1.coords t) (bblk V c t)))
    rw [h2]; try iexact H2
  · iexists _; iexact H3

end Region1

end Cert.KernelIdeal.Frm

end
-- ==== Proof.Run.lean ====
/-
  The whole run of @main: a stretch of host operations (the embedding lookup, the conversions, the four-piece joins of
  the gates' weights and biases), the gate kernel's region, a second stretch (the conversion of the projection
  matrix, the bias as a row), the logits kernel's region. The contents of the TensorCore's buffers at the four
  boundaries are a fold from the launch memory: a stretch applies its operations; a region leaves each of its arrays
  at what its write-backs make of it and every other buffer alone. Proved: every weakly fair execution terminates,
  faults nowhere, and ends with every buffer at the last boundary's contents — so each argument as launched, and the
  result array at what the logits region's write-backs leave.
-/
import proofs.«156406_j52596169507493_2_alg».proof.Proof.GateRegion
import proofs.«156406_j52596169507493_2_alg».proof.Proof.LogitsBody
import proofs.«156406_j52596169507493_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Run

variable (hloc : ColLocal F)
variable (m : (ℓ : Loc nD τ sig) → Buf (Elt F) ℓ) (ρ : Dev nD → PrngReg)

/-- Core c's buffers at launch, -/
abbrev U0 : Dev nD → Valuation τ sig (Elt F) := fun c b => m (c, b)
/-- after the first host stretch (the gate region's entry), -/
abbrev U1 : Dev nD → Valuation τ sig (Elt F) := fun c => StableHlo.after hostOps0 (U0 m c)
abbrev E1 : (c : Dev nD) → (b : Ref sig .tc) → Buf (Elt F) ((c : Thread nD τ).loc b) := fun c b => U1 m c b
/-- at the gate region's exit: its arrays at what the pipeline leaves, every other buffer as entered, -/
def U2 (c : Dev nD) : Valuation τ sig (Elt F) :=
  Pipeline.withArrays spec0 c (U1 m c) fun w => (dat0 (E1 m) c).arrAt w cfg0.N
theorem U2_arr (c : Dev nD) (w : Fin cfg0.W) :
    U2 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev E2 : (c : Dev nD) → (b : Ref sig .tc) → Buf (Elt F) ((c : Thread nD τ).loc b) := fun c b => U2 m c b
theorem hF0 (c : Dev nD) (w : Fin cfg0.W) : (dat0 (E1 m) c).arrAt w cfg0.N = E2 m c (Pipeline.arrRef spec0 w) :=
  (U2_arr m c w).symm
theorem hrest0 (c : Dev nD) : ∀ b, b ∉ Finset.univ.image (Pipeline.arrRef spec0) → E2 m c b = E1 m c b :=
  fun b hb => U2_of_ne m c b fun w e => hb (Finset.mem_image.mpr ⟨w, Finset.mem_univ _, e⟩)
/-- after the second host stretch (the logits region's entry), -/
abbrev U3 : Dev nD → Valuation τ sig (Elt F) := fun c => StableHlo.after hostOps1 (U2 m c)
abbrev E3 : (c : Dev nD) → (b : Ref sig .tc) → Buf (Elt F) ((c : Thread nD τ).loc b) := fun c b => U3 m c b
/-- and at the logits region's exit. -/
def U4 (c : Dev nD) : Valuation τ sig (Elt F) :=
  Pipeline.withArrays spec1 c (U3 m c) fun w => (dat1 (E3 m) c).arrAt w cfg1.N
theorem U4_arr (c : Dev nD) (w : Fin cfg1.W) :
    U4 m c (Proc.devRef .tc (Pipeline.arrRef spec1 w)) = (dat1 (E3 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
abbrev E4 : (c : Dev nD) → (b : Ref sig .tc) → Buf (Elt F) ((c : Thread nD τ).loc b) := fun c b => U4 m c b
theorem hF1 (c : Dev nD) (w : Fin cfg1.W) : (dat1 (E3 m) c).arrAt w cfg1.N = E4 m c (Pipeline.arrRef spec1 w) :=
  (U4_arr m c w).symm
theorem hrest1 (c : Dev nD) : ∀ b, b ∉ Finset.univ.image (Pipeline.arrRef spec1) → E4 m c b = E3 m c b :=
  fun b hb => U4_of_ne m c b fun w e => hb (Finset.mem_image.mpr ⟨w, Finset.mem_univ _, e⟩)

/-- A buffer no host operation writes and no region stages keeps its launch contents to the end. -/
theorem U4_keep (c : Dev nD) (b : Ref sig .tc) (h0 : b ∉ hostOps0_W) (h1 : b ∉ hostOps1_W)
    (ha0 : ∀ w, Pipeline.arrRef spec0 w ≠ b) (ha1 : ∀ w, Pipeline.arrRef spec1 w ≠ b) :
    U4 m c (Proc.devRef .tc b) = m ((c : Thread nD τ).loc b) :=
  (U4_of_ne m c b ha1).trans <| (StableHlo.after_of_writes_sub hostOps1 _ hostOps1_writes h1).trans <|
    (U2_of_ne m c b ha0).trans <| (StableHlo.after_of_writes_sub hostOps0 _ hostOps0_writes h0).trans rfl

/-- The cell state is an input window of the gate region: never written back. -/
theorem U4_main_arg2 (c : Dev nD) : U4 m c (Proc.devRef .tc main_arg2) = m ((c : Thread nD τ).loc main_arg2) :=
  (U4_of_ne m c main_arg2 (by decide)).trans <| (StableHlo.after_of_writes_sub hostOps1 _ hostOps1_writes (by decide)).trans <|
    (U2_arr m c 2).trans <| ((dat0 (E1 m) c).arrAt_in 2 rfl _).trans <| (A_eq0 (E1 m) c 2).trans <|
      (StableHlo.after_of_writes_sub hostOps0 _ hostOps0_writes (by decide)).trans rfl

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (U4 m c) ∗ ∃ r, prngReg c r)

set_option backward.isDefEq.respectTransparency.types false in
/-- The gate region over the thread state: entered with every unscoped buffer at the boundary's contents, left with
    them at the next boundary's. Its arrays are split out of the unscoped buffers at entry and put back at exit; the
    generator register goes into the pipeline's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The logits region over the thread state: entered with every unscoped buffer at the boundary's contents, left with
    them at the next boundary's. Its arrays are split out of the unscoped buffers at entry and put back at exit; the
    generator register goes into the pipeline's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (E3 m) hloc c
  hwaits := Pipeline.hwaits_of_owed_zero _ _ _ _ L lv 1 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 hloc m) ]
theorem main_run (c : Dev nD) : main (F := F) c = Pipeline.Seg.run (segs hloc m) := (main_chain c).trans (by chain_rfl)

include hloc in
set_option backward.isDefEq.respectTransparency.types false in
/-- THE RUN: from any memory with zero counters, every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U4 m c b) :=
  Pipeline.θ_run_regions_kit (pcfgs (F := F)) adm (pdats m) () cellOf_inj emb₁ defs₀ 𝒱₀ L lv m ρ main (segs hloc m)
    (fun c Q => by rw [main_run hloc m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h => h)

end Run

end Cert.KernelIdeal.Frm

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.KernelPay.lean ====
/-
  The kernel's two stored values, each read at one entry, on the extended reals.

  The gate step stores, at row r and hidden unit k, the new hidden state o * tanh (f * c + i * tanh g): the forget, input and
  output gates are the logistic function of their pre-activations and the cell candidate the hyperbolic tangent of its own;
  the four pre-activations are columns k, 1024 + k, 2048 + k and 3072 + k of one [256, 4096] matrix
  ((x · Wx + bx) + h · Wh) + bh, whose two products are sums over the contracted axis and whose two bias rows are spread
  over the rows.  The logits step stores, at row r and column q, the product of row r with column q plus the bias at q.
  Format changes are the identity on the extended reals, so only the indices need following: a slice of columns shifts
  the column, a spread row forgets the row, a shape cast to the same shape is the identity.
-/
import proofs.«156406_j52596169507493_2_alg».proof.Proof.Gen.KernelIdeal.Skeleton
import proofs.«156406_j52596169507493_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal

/-- The logits payload at row `r`, column `q`: row `r` of the hidden states against column `q` of the output
    matrix, summed over the 1024 hidden units, plus the output bias at `q`. -/
theorem logits_pay_apply (v0 : Vec Ideal S2048x1024 .bf16) (v2 : Vec Ideal S1024x1024 .bf16) (v5 : Vec Ideal S1x1024 .f32)
    (r : Fin 2048) (q : Fin 1024) :
    Gen.k1_pay1 (F := Ideal) v0 v2 v5 (ix2 r q) = (∑ k : Fin 1024, v0 (ix2 r k) * v2 (ix2 k q)) + v5 (ix2 0 q) := by
  unfold Gen.k1_pay1
  rw [addf_apply, shapeCast_self, shapeCast_self, shapeCast_self, broadcastTo_1b_ab_apply]
  exact congrArg (· + v5 (ix2 0 q))
    (LibPlainDot.matmul_zero_apply dot_S2048x1024_S1024x1024_S2048x1024_1_0_0_1_n_n rfl rfl rfl rfl rfl rfl none v0 v2 r q)

/-- Column `k` of the `g`-th of the four blocks of 1024 columns (forget, input, cell candidate, output). -/
def col (g : Fin 4) (k : Fin 1024) : Fin 4096 := ⟨1024 * g.val + k.val, by have := g.isLt; have := k.isLt; omega⟩

/-- Its value. -/
theorem col_val (g : Fin 4) (k : Fin 1024) : (col g k).val = 1024 * g.val + k.val := rfl

/-- The pre-activation at row `r` and column `c` of the four joined blocks:
    `((x_r · wx_c + bx_c) + h_r · wh_c) + bh_c`, the additions associated as written. -/
def pre (v0 : Vec Ideal S256x300 .bf16) (v2 : Vec Ideal S256x1024 .bf16) (v5 : Vec Ideal S300x4096 .bf16)
    (v8 : Vec Ideal S1x4096 .f32) (v12 : Vec Ideal S1024x4096 .bf16) (v16 : Vec Ideal S1x4096 .f32)
    (r : Fin 256) (c : Fin 4096) : EReal :=
  (((∑ j : Fin 300, v0 (ix2 r j) * v5 (ix2 j c)) + v8 (ix2 0 c))
    + ∑ j : Fin 1024, v2 (ix2 r j) * v12 (ix2 j c)) + v16 (ix2 0 c)

/-- The definition, as an equation. -/
theorem pre_def (v0 : Vec Ideal S256x300 .bf16) (v2 : Vec Ideal S256x1024 .bf16) (v5 : Vec Ideal S300x4096 .bf16)
    (v8 : Vec Ideal S1x4096 .f32) (v12 : Vec Ideal S1024x4096 .bf16) (v16 : Vec Ideal S1x4096 .f32)
    (r : Fin 256) (c : Fin 4096) :
    pre v0 v2 v5 v8 v12 v16 r c
      = (((∑ j : Fin 300, v0 (ix2 r j) * v5 (ix2 j c)) + v8 (ix2 0 c))
          + ∑ j : Fin 1024, v2 (ix2 r j) * v12 (ix2 j c)) + v16 (ix2 0 c) := rfl

/-- The logistic function of a vector, at an index. -/
theorem logistic_apply {s : Shape} {φ : FTy} (a : FVec Ideal s φ) (i : s.Idx) : logistic a i = Ideal.logistic (a i) := rfl
/-- The hyperbolic tangent of a vector, at an index. -/
theorem tanh_apply {s : Shape} {φ : FTy} (a : FVec Ideal s φ) (i : s.Idx) : tanh a i = Ideal.tanh (a i) := rfl

/-- The two products and two bias rows summed in the kernel's order, at row `r`, column `c`. -/
theorem pre_vec_apply (v0 : FVec Ideal S256x300 .bf16) (v2 : FVec Ideal S256x1024 .bf16) (v5 : FVec Ideal S300x4096 .bf16)
    (v8 : FVec Ideal S1x4096 .f32) (v12 : FVec Ideal S1024x4096 .bf16) (v16 : FVec Ideal S1x4096 .f32)
    (hb : S1x4096.Broadcasts S256x4096) (r : Fin 256) (c : Fin 4096) :
    addf (addf (addf (matmul dot_S256x300_S300x4096_S256x4096_1_0_0_1_n_n none v0 v5 (constant (F := Ideal) S256x4096 .f32 0x00000000#32))
                     (broadcastTo S256x4096 v8 hb))
               (matmul dot_S256x1024_S1024x4096_S256x4096_1_0_0_1_n_n none v2 v12 (constant (F := Ideal) S256x4096 .f32 0x00000000#32)))
         (broadcastTo S256x4096 v16 hb) (ix2 r c)
      = pre v0 v2 v5 v8 v12 v16 r c := by
  rw [addf_apply, addf_apply, addf_apply, broadcastTo_1b_ab_apply, broadcastTo_1b_ab_apply]
  unfold pre
  rw [← LibPlainDot.matmul_zero_apply dot_S256x300_S300x4096_S256x4096_1_0_0_1_n_n rfl rfl rfl rfl rfl rfl none v0 v5 r c,
    ← LibPlainDot.matmul_zero_apply dot_S256x1024_S1024x4096_S256x4096_1_0_0_1_n_n rfl rfl rfl rfl rfl rfl none v2 v12 r c]

/-- The cell update on a vector `V` of four joined blocks, at row `r` and unit `k`: the output gate times the
    hyperbolic tangent of the new cell state `f * c + i * tanh g`, each gate read from its own block of columns. -/
theorem gates_apply (V : FVec Ideal S256x4096 .f32) (v4 : FVec Ideal S256x1024 .f32)
    (h0 : S256x4096.Slices ![0, 0] S256x1024) (h1 : S256x4096.Slices ![0, 1024] S256x1024)
    (h2 : S256x4096.Slices ![0, 2048] S256x1024) (h3 : S256x4096.Slices ![0, 3072] S256x1024)
    (hb : FTy.bits .bf16 < FTy.bits .f32) (r : Fin 256) (k : Fin 1024) :
    (truncf .bf16
        (mulf (logistic (extractStridedSlice S256x1024 ![0, 3072] V h3))
          (tanh (addf (mulf (logistic (extractStridedSlice S256x1024 ![0, 0] V h0)) v4)
                      (mulf (logistic (extractStridedSlice S256x1024 ![0, 1024] V h1))
                            (tanh (extractStridedSlice S256x1024 ![0, 2048] V h2)))))) hb : FVec Ideal S256x1024 .bf16) (ix2 r k)
      = Ideal.logistic (V (ix2 r (col 3 k)))
          * Ideal.tanh (Ideal.logistic (V (ix2 r (col 0 k))) * v4 (ix2 r k)
              + Ideal.logistic (V (ix2 r (col 1 k))) * Ideal.tanh (V (ix2 r (col 2 k)))) := by
  rw [truncf_apply, mulf_apply, tanh_apply, addf_apply, mulf_apply, mulf_apply, tanh_apply,
    logistic_apply, logistic_apply, logistic_apply,
    slice2_axis1_apply 3072 V h3 r k (col 3 k) rfl, slice2_axis1_apply 0 V h0 r k (col 0 k) (by rw [col_val]; rfl),
    slice2_axis1_apply 1024 V h1 r k (col 1 k) (by rw [col_val]; rfl), slice2_axis1_apply 2048 V h2 r k (col 2 k) rfl]

/-- The gate payload at row `r`, unit `k`: the new hidden state `o * tanh (f * c + i * tanh g)`, the forget,
    input and output gates the logistic function of their pre-activations, the four pre-activations read at column `k`
    of blocks 0 (forget), 1 (input), 2 (cell candidate) and 3 (output). -/
theorem gate_pay_apply (v0 : Vec Ideal S256x300 .bf16) (v2 : Vec Ideal S256x1024 .bf16) (v4 : Vec Ideal S256x1024 .f32)
    (v5 : Vec Ideal S300x4096 .bf16) (v8 : Vec Ideal S1x4096 .f32) (v12 : Vec Ideal S1024x4096 .bf16)
    (v16 : Vec Ideal S1x4096 .f32) (r : Fin 256) (k : Fin 1024) :
    Gen.k0_pay1 (F := Ideal) v0 v2 v4 v5 v8 v12 v16 (ix2 r k)
      = Ideal.logistic (pre v0 v2 v5 v8 v12 v16 r (col 3 k))
          * Ideal.tanh (Ideal.logistic (pre v0 v2 v5 v8 v12 v16 r (col 0 k)) * v4 (ix2 r k)
              + Ideal.logistic (pre v0 v2 v5 v8 v12 v16 r (col 1 k)) * Ideal.tanh (pre v0 v2 v5 v8 v12 v16 r (col 2 k))) := by
  unfold Gen.k0_pay1
  simp only [shapeCast_self]
  refine (gates_apply _ v4 _ _ _ _ _ r k).trans ?_
  rw [pre_vec_apply, pre_vec_apply, pre_vec_apply, pre_vec_apply]

end Cert.KernelIdeal.Pay

end
-- ==== Proof.LogitsLocal.lean ====
/-
  The transferred columns of the logits block do not depend on what lies past the arrays' ends.

  Entry (r, q) of the stored block is row r of the hidden states against column q of the projection block, plus the
  bias at q.  When q is a transferred column, column q of the projection block and entry q of the bias block are
  transferred entries too (the three blocks are cut at the same column), so they are the arrays' own values whatever
  fills the rest of the blocks.
-/
import proofs.«156406_j52596169507493_2_alg».proof.Proof.LogitsRegion
import proofs.«156406_j52596169507493_2_alg».proof.Proof.KernelPay
import Idealize.ShloMosaic.Lib.Pipeline.Value
import Idealize.ShloMosaic.Lib.ValueIdx

set_option maxRecDepth 16384

noncomputable section

open scoped BigOperators

namespace Cert.KernelIdeal.Frm

open Idealize.ShloMosaic Idealize.ShloMosaic.ValueIdx Cert.KernelIdeal Cert.KernelIdeal.Gen
open Idealize.ShloMosaic.Pipeline (Window)

/-- The two zero offsets, as the constant function. -/
theorem hz2 : (![0, 0] : Fin 2 → Nat) = fun _ => 0 :=
  funext fun a => by match a with | ⟨0, _⟩ => rfl | ⟨1, _⟩ => rfl

/-- One whole-buffer store of the payload of three whole-buffer loads leaves the payload of the buffers' contents. -/
theorem out1_3_eq {F : FTy → Type} [FloatOps F] (x0 : Vec F S2048x1024 .bf16) (x1 : Vec F S1024x1024 .bf16) (x2 : Vec F S1x1024 .f32) :
    out1_3 x0 x1 x2 = k1_pay1 x0 x1 x2 := by
  unfold out1_3
  rw [View.canon_unit_zero hz2]
  simp only [View.ld_unit_zero (S := S2048x1024) hz2, View.ld_unit_zero (S := S1024x1024) hz2, View.ld_unit_zero (S := S1x1024) hz2]

/-- The stored block at row r, column q. -/
theorem out1_3_apply (x0 : Vec Ideal S2048x1024 .bf16) (x1 : Vec Ideal S1024x1024 .bf16) (x2 : Vec Ideal S1x1024 .f32)
    (r : Fin 2048) (q : Fin 1024) :
    out1_3 (F := Ideal) x0 x1 x2 (ix2 r q) = (∑ k : Fin 1024, x0 (ix2 r k) * x1 (ix2 k q)) + x2 (ix2 0 q) := by
  rw [out1_3_eq]; exact Pay.logits_pay_apply x0 x1 x2 r q

/-- At a transferred entry a filled block is the transferred part, whatever fills the rest. -/
theorem fill_eq_of_moved {sig : RefSig} {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- A transferred column of the output block is a transferred column of the projection block, at every row. -/
theorem moved1_1 (i : grid1.Coords) (k : Fin 1024) (q : Fin 1024) (hq : q.val < win1_3.xsize i 1) :
    win1_1.moved i (ix2 k q) = true := by
  refine (win1_1.moved_iff i (ix2 k q)).mpr fun a => ?_
  match a with
  | ⟨0, _⟩ => exact k.isLt
  | ⟨1, _⟩ => exact hq

/-- A transferred column of the output block is a transferred entry of the bias block. -/
theorem moved1_2 (i : grid1.Coords) (q : Fin 1024) (hq : q.val < win1_3.xsize i 1) :
    win1_2.moved i (ix2 (0 : Fin 1) q) = true := by
  refine (win1_2.moved_iff i (ix2 (0 : Fin 1) q)).mpr fun a => ?_
  match a with
  | ⟨0, _⟩ => exact Nat.one_pos
  | ⟨1, _⟩ => exact hq

/-- The transferred columns of the stored block do not depend on what fills the two clipped inputs past the arrays' ends. -/
theorem col_local : ColLocal Ideal := by
  intro i x0 b1 b2 d1 d1' d2 d2'
  funext j
  have hrq : win1_3.xinj i j = ix2 (⟨(j 0).val, Nat.lt_of_lt_of_le (j 0).isLt (win1_3.xsize_le i 0)⟩ : Fin 2048)
      (⟨(j 1).val, Nat.lt_of_lt_of_le (j 1).isLt (win1_3.xsize_le i 1)⟩ : Fin 1024) :=
    funext fun a => by match a with | ⟨0, _⟩ => rfl | ⟨1, _⟩ => rfl
  show out1_3 x0 _ _ (win1_3.xinj i j) = out1_3 x0 _ _ (win1_3.xinj i j)
  rw [hrq, out1_3_apply, out1_3_apply]
  rw [fill_eq_of_moved win1_2 i d2 d2' b2 (moved1_2 i _ (j 1).isLt)]
  refine congrArg (· + _) (Finset.sum_congr rfl fun k _ => ?_)
  rw [fill_eq_of_moved win1_1 i d1 d1' b1 (moved1_1 i k _ (j 1).isLt)]

end Cert.KernelIdeal.Frm

end
-- ==== Proof.KernelArrays.lean ====
/-
  The two whole arrays the kernel's two steps compute, as functions of their operands, on the extended reals.

  The gate step's array has, at row p and hidden unit k, the new hidden state o * tanh (f * c + i * tanh g), where f, i and
  o are the logistic function, and the candidate the hyperbolic tangent, of the pre-activations at columns k, 1024 + k,
  3072 + k and 2048 + k of ((x · Wx + bx) + h · Wh) + bh, the additions associated as written. The logits step's array
  has, at row p and column v, the product of row p of the hidden states with column v of the output matrix, plus the
  output bias at v.
-/
import proofs.«156406_j52596169507493_2_alg».proof.Proof.KernelPay
import Idealize.ShloMosaic.Lib.ValueIdx

noncomputable section

open scoped BigOperators

namespace Cert.KernelIdeal.Arr

open Idealize.ShloMosaic Idealize.ShloMosaic.ValueIdx Cert.KernelIdeal

/-- The pre-activation at row `p` and column `c` of the four joined blocks of 1024 columns:
    `((x_p · wx_c + bx_c) + h_p · wh_c) + bh_c`, the additions associated as written. -/
def preA (x7 : FVec Ideal S4096x300 .bf16) (x8 : FVec Ideal S4096x1024 .bf16) (x10 : FVec Ideal S300x4096 .bf16)
    (x14 : FVec Ideal S1x4096 .f32) (x12 : FVec Ideal S1024x4096 .bf16) (x16 : FVec Ideal S1x4096 .f32)
    (p : Fin 4096) (c : Fin 4096) : EReal :=
  (((∑ j : Fin 300, x7 (ix2 p j) * x10 (ix2 j c)) + x14 (ix2 (0 : Fin 1) c))
    + ∑ j : Fin 1024, x8 (ix2 p j) * x12 (ix2 j c)) + x16 (ix2 (0 : Fin 1) c)

/-- The definition, as an equation. -/
theorem preA_def (x7 : FVec Ideal S4096x300 .bf16) (x8 : FVec Ideal S4096x1024 .bf16) (x10 : FVec Ideal S300x4096 .bf16)
    (x14 : FVec Ideal S1x4096 .f32) (x12 : FVec Ideal S1024x4096 .bf16) (x16 : FVec Ideal S1x4096 .f32)
    (p : Fin 4096) (c : Fin 4096) :
    preA x7 x8 x10 x14 x12 x16 p c
      = (((∑ j : Fin 300, x7 (ix2 p j) * x10 (ix2 j c)) + x14 (ix2 (0 : Fin 1) c))
          + ∑ j : Fin 1024, x8 (ix2 p j) * x12 (ix2 j c)) + x16 (ix2 (0 : Fin 1) c) := rfl

/-- The gate step's array: the new hidden state at every row and hidden unit. -/
def gateArr (x7 : FVec Ideal S4096x300 .bf16) (x8 : FVec Ideal S4096x1024 .bf16) (c2 : FVec Ideal S4096x1024 .f32)
    (x10 : FVec Ideal S300x4096 .bf16) (x14 : FVec Ideal S1x4096 .f32) (x12 : FVec Ideal S1024x4096 .bf16)
    (x16 : FVec Ideal S1x4096 .f32) : FVec Ideal S4096x1024 .bf16 := fun i =>
  Ideal.logistic (preA x7 x8 x10 x14 x12 x16 (i 0 : Fin 4096) (Pay.col 3 (i 1 : Fin 1024)))
    * Ideal.tanh (Ideal.logistic (preA x7 x8 x10 x14 x12 x16 (i 0 : Fin 4096) (Pay.col 0 (i 1 : Fin 1024)))
          * c2 (ix2 (i 0 : Fin 4096) (i 1 : Fin 1024))
        + Ideal.logistic (preA x7 x8 x10 x14 x12 x16 (i 0 : Fin 4096) (Pay.col 1 (i 1 : Fin 1024)))
          * Ideal.tanh (preA x7 x8 x10 x14 x12 x16 (i 0 : Fin 4096) (Pay.col 2 (i 1 : Fin 1024))))

/-- The gate step's array at row `p`, hidden unit `k`. -/
theorem gateArr_ix2 (x7 : FVec Ideal S4096x300 .bf16) (x8 : FVec Ideal S4096x1024 .bf16) (c2 : FVec Ideal S4096x1024 .f32)
    (x10 : FVec Ideal S300x4096 .bf16) (x14 : FVec Ideal S1x4096 .f32) (x12 : FVec Ideal S1024x4096 .bf16)
    (x16 : FVec Ideal S1x4096 .f32) (p : Fin 4096) (k : Fin 1024) :
    gateArr x7 x8 c2 x10 x14 x12 x16 (ix2 p k)
      = Ideal.logistic (preA x7 x8 x10 x14 x12 x16 p (Pay.col 3 k))
          * Ideal.tanh (Ideal.logistic (preA x7 x8 x10 x14 x12 x16 p (Pay.col 0 k)) * c2 (ix2 p k)
              + Ideal.logistic (preA x7 x8 x10 x14 x12 x16 p (Pay.col 1 k))
                * Ideal.tanh (preA x7 x8 x10 x14 x12 x16 p (Pay.col 2 k))) := rfl

/-- The logits step's array: row `p` of the hidden states against column `v` of the output matrix, plus the bias at `v`. -/
def logitsArr (h : FVec Ideal S4096x1024 .bf16) (w : FVec Ideal S1024x50257 .bf16) (b : FVec Ideal S1x50257 .f32) :
    FVec Ideal S4096x50257 .f32 := fun i =>
  (∑ k : Fin 1024, h (ix2 (i 0 : Fin 4096) k) * w (ix2 k (i 1 : Fin 50257))) + b (ix2 (0 : Fin 1) (i 1 : Fin 50257))

/-- The logits step's array at row `p`, column `v`. -/
theorem logitsArr_ix2 (h : FVec Ideal S4096x1024 .bf16) (w : FVec Ideal S1024x50257 .bf16) (b : FVec Ideal S1x50257 .f32)
    (p : Fin 4096) (v : Fin 50257) :
    logitsArr h w b (ix2 p v) = (∑ k : Fin 1024, h (ix2 p k) * w (ix2 k v)) + b (ix2 (0 : Fin 1) v) := rfl

end Cert.KernelIdeal.Arr

end
-- ==== Proof.GateValue.lean ====
/- The gate step's output array after all sixteen grid points: every point writes rows 256·t … 256·t + 255 of one
   function of the whole input arrays, and the sixteen row blocks tile the array. -/
import proofs.«156406_j52596169507493_2_alg».proof.Proof.GateRegion
import proofs.«156406_j52596169507493_2_alg».proof.Proof.KernelPay
import proofs.«156406_j52596169507493_2_alg».proof.Proof.KernelArrays
import Idealize.ShloMosaic.Lib.Pipeline.Value
import Idealize.ShloMosaic.Lib.ValueIdx

set_option maxRecDepth 16384

noncomputable section

open scoped BigOperators

namespace Cert.KernelIdeal.GateValue

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The block indices over the grid: the three row-blocked inputs and the output are at block (t, 0); the four
    weight and bias arrays are one block each, at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- One point: the payload of blocks that are rows 256·T … of the row-blocked arrays and the whole weight and bias
    arrays, at an index of the block, is the gate array at the corresponding index of the whole array. -/
theorem point_eq (x0 : Vec Ideal S256x300 .bf16) (x1 : Vec Ideal S256x1024 .bf16) (x2 : Vec Ideal S256x1024 .f32)
    (x3 : Vec Ideal S300x4096 .bf16) (x4 : Vec Ideal S1x4096 .f32) (x5 : Vec Ideal S1024x4096 .bf16) (x6 : Vec Ideal S1x4096 .f32)
    (a7 : FVec Ideal S4096x300 .bf16) (a8 : FVec Ideal S4096x1024 .bf16) (c2 : FVec Ideal S4096x1024 .f32)
    (a10 : FVec Ideal S300x4096 .bf16) (a14 : FVec Ideal S1x4096 .f32) (a12 : FVec Ideal S1024x4096 .bf16)
    (a16 : FVec Ideal S1x4096 .f32) (T : Nat) (hT : T < 16)
    (h0 : ∀ (r : Fin 256) (j : Fin 300), x0 (ix2 r j) = a7 (ix2 (⟨256 * T + r.val, by have := r.isLt; omega⟩ : Fin 4096) j))
    (h1 : ∀ (r : Fin 256) (j : Fin 1024), x1 (ix2 r j) = a8 (ix2 (⟨256 * T + r.val, by have := r.isLt; omega⟩ : Fin 4096) j))
    (h2 : ∀ (r : Fin 256) (j : Fin 1024), x2 (ix2 r j) = c2 (ix2 (⟨256 * T + r.val, by have := r.isLt; omega⟩ : Fin 4096) j))
    (h3 : ∀ (j : Fin 300) (q : Fin 4096), x3 (ix2 j q) = a10 (ix2 j q))
    (h4 : ∀ (q : Fin 4096), x4 (ix2 (0 : Fin 1) q) = a14 (ix2 (0 : Fin 1) q))
    (h5 : ∀ (j : Fin 1024) (q : Fin 4096), x5 (ix2 j q) = a12 (ix2 j q))
    (h6 : ∀ (q : Fin 4096), x6 (ix2 (0 : Fin 1) q) = a16 (ix2 (0 : Fin 1) q))
    (r : Fin 256) (k : Fin 1024) :
    k0_pay1 (F := Ideal) x0 x1 x2 x3 x4 x5 x6 (ix2 r k)
      = Arr.gateArr a7 a8 c2 a10 a14 a12 a16 (ix2 (⟨256 * T + r.val, by have := r.isLt; omega⟩ : Fin 4096) k) := by
  have hp : ∀ q : Fin 4096, Pay.pre x0 x1 x3 x4 x5 x6 r q
      = Arr.preA a7 a8 a10 a14 a12 a16 (⟨256 * T + r.val, by have := r.isLt; omega⟩ : Fin 4096) q := by
    intro q
    unfold Pay.pre Arr.preA
    simp only [h0, h1, h3, h4, h5, h6]
  rw [Pay.gate_pay_apply, Arr.gateArr_ix2, hp, hp, hp, hp, h2]

/-- The grid has sixteen points. -/
theorem t_lt (t : Fin cfg0.N) : t.val < 16 := by
  exact lt_of_lt_of_eq t.isLt (show cfg0.N = 16 from N_0)

section Region0

variable (V : (c : Dev nD) → (b : Ref sig .tc) → Buf (Elt Ideal) ((c : Thread nD τ).loc b))

/-- Window 0's block at point t is rows 256·t … of the embedded tokens. -/
theorem iblk_rows0 (c : Dev nD) (t : Fin cfg0.N) (r : Fin 256) (j : Fin 300) :
    (iblk0 V c 0 t : Vec Ideal S256x300 .bf16) (ix2 r j)
      = (V c main_v7 : FVec Ideal S4096x300 .bf16)
          (ix2 (⟨256 * t.val + r.val, by have := t_lt t; have := r.isLt; omega⟩ : Fin 4096) j) := by
  obtain ⟨e0, e1, -⟩ := idx_facts t
  show V c main_v7 (((cfg0.win 0).blk t).view.emb (ix2 r j)) = _
  congr 1
  funext a; apply Fin.ext
  match a with
  | ⟨0, _⟩ => show win0_0.index t (0 : Fin 2) * 256 + 1 * r.val = 256 * t.val + r.val; omega
  | ⟨1, _⟩ => show win0_0.index t (1 : Fin 2) * 300 + 1 * j.val = j.val; omega

/-- Window 1's block at point t is rows 256·t … of the hidden state. -/
theorem iblk_rows1 (c : Dev nD) (t : Fin cfg0.N) (r : Fin 256) (j : Fin 1024) :
    (iblk0 V c 1 t : Vec Ideal S256x1024 .bf16) (ix2 r j)
      = (V c main_v8 : FVec Ideal S4096x1024 .bf16)
          (ix2 (⟨256 * t.val + r.val, by have := t_lt t; have := r.isLt; omega⟩ : Fin 4096) j) := by
  obtain ⟨-, -, e0, e1, -⟩ := idx_facts t
  show V c main_v8 (((cfg0.win 1).blk t).view.emb (ix2 r j)) = _
  congr 1
  funext a; apply Fin.ext
  match a with
  | ⟨0, _⟩ => show win0_1.index t (0 : Fin 2) * 256 + 1 * r.val = 256 * t.val + r.val; omega
  | ⟨1, _⟩ => show win0_1.index t (1 : Fin 2) * 1024 + 1 * j.val = j.val; omega

/-- Window 2's block at point t is rows 256·t … of the cell state. -/
theorem iblk_rows2 (c : Dev nD) (t : Fin cfg0.N) (r : Fin 256) (j : Fin 1024) :
    (iblk0 V c 2 t : Vec Ideal S256x1024 .f32) (ix2 r j)
      = (V c main_arg2 : FVec Ideal S4096x1024 .f32)
          (ix2 (⟨256 * t.val + r.val, by have := t_lt t; have := r.isLt; omega⟩ : Fin 4096) j) := by
  obtain ⟨-, -, -, -, e0, e1, -⟩ := idx_facts t
  show V c main_arg2 (((cfg0.win 2).blk t).view.emb (ix2 r j)) = _
  congr 1
  funext a; apply Fin.ext
  match a with
  | ⟨0, _⟩ => show win0_2.index t (0 : Fin 2) * 256 + 1 * r.val = 256 * t.val + r.val; omega
  | ⟨1, _⟩ => show win0_2.index t (1 : Fin 2) * 1024 + 1 * j.val = j.val; omega

/-- Window 3's one block is the whole joined input-weight array. -/
theorem iblk_all3 (c : Dev nD) (t : Fin cfg0.N) (j : Fin 300) (q : Fin 4096) :
    (iblk0 V c 3 t : Vec Ideal S300x4096 .bf16) (ix2 j q) = (V c main_v10 : FVec Ideal S300x4096 .bf16) (ix2 j q) := by
  obtain ⟨-, -, -, -, -, -, e0, e1, -⟩ := idx_facts t
  show V c main_v10 (((cfg0.win 3).blk t).view.emb (ix2 j q)) = _
  congr 1
  funext a; apply Fin.ext
  match a with
  | ⟨0, _⟩ => show win0_3.index t (0 : Fin 2) * 300 + 1 * j.val = j.val; omega
  | ⟨1, _⟩ => show win0_3.index t (1 : Fin 2) * 4096 + 1 * q.val = q.val; omega

/-- Window 4's one block is the whole joined input-bias row. -/
theorem iblk_all4 (c : Dev nD) (t : Fin cfg0.N) (q : Fin 4096) :
    (iblk0 V c 4 t : Vec Ideal S1x4096 .f32) (ix2 (0 : Fin 1) q) = (V c main_v14 : FVec Ideal S1x4096 .f32) (ix2 (0 : Fin 1) q) := by
  obtain ⟨-, -, -, -, -, -, -, -, e0, e1, -⟩ := idx_facts t
  show V c main_v14 (((cfg0.win 4).blk t).view.emb (ix2 (0 : Fin 1) q)) = _
  congr 1
  funext a; apply Fin.ext
  match a with
  | ⟨0, _⟩ => show win0_4.index t (0 : Fin 2) * 1 + 1 * 0 = 0; omega
  | ⟨1, _⟩ => show win0_4.index t (1 : Fin 2) * 4096 + 1 * q.val = q.val; omega

/-- Window 5's one block is the whole joined recurrent-weight array. -/
theorem iblk_all5 (c : Dev nD) (t : Fin cfg0.N) (j : Fin 1024) (q : Fin 4096) :
    (iblk0 V c 5 t : Vec Ideal S1024x4096 .bf16) (ix2 j q) = (V c main_v12 : FVec Ideal S1024x4096 .bf16) (ix2 j q) := by
  obtain ⟨-, -, -, -, -, -, -, -, -, -, e0, e1, -⟩ := idx_facts t
  show V c main_v12 (((cfg0.win 5).blk t).view.emb (ix2 j q)) = _
  congr 1
  funext a; apply Fin.ext
  match a with
  | ⟨0, _⟩ => show win0_5.index t (0 : Fin 2) * 1024 + 1 * j.val = j.val; omega
  | ⟨1, _⟩ => show win0_5.index t (1 : Fin 2) * 4096 + 1 * q.val = q.val; omega

/-- Window 6's one block is the whole joined recurrent-bias row. -/
theorem iblk_all6 (c : Dev nD) (t : Fin cfg0.N) (q : Fin 4096) :
    (iblk0 V c 6 t : Vec Ideal S1x4096 .f32) (ix2 (0 : Fin 1) q) = (V c main_v16 : FVec Ideal S1x4096 .f32) (ix2 (0 : Fin 1) q) := by
  obtain ⟨-, -, -, -, -, -, -, -, -, -, -, -, e0, e1, -⟩ := idx_facts t
  show V c main_v16 (((cfg0.win 6).blk t).view.emb (ix2 (0 : Fin 1) q)) = _
  congr 1
  funext a; apply Fin.ext
  match a with
  | ⟨0, _⟩ => show win0_6.index t (0 : Fin 2) * 1 + 1 * 0 = 0; omega
  | ⟨1, _⟩ => show win0_6.index t (1 : Fin 2) * 4096 + 1 * q.val = q.val; omega

/-- What point t writes back is block t of the gate array of the arrays as the region finds them. -/
theorem flushed_eq (c : Dev nD) (t : Fin cfg0.N) :
    (dat0 (F := Ideal) V c).flushed 7 t = ((cfg0.win 7).blk t).view.read (Elt Ideal)
      (Arr.gateArr (V c main_v7) (V c main_v8) (V c main_arg2) (V c main_v10) (V c main_v14) (V c main_v12) (V c main_v16)) := by
  show (cfg0.win 7).cut (grid0.coords t) ((dat0 V c).after 7 t) = _
  rw [after0_7]
  unfold out0_7
  rw [View.canon_unit_zero hz]
  simp only [View.ld_unit_zero (S := S256x300) hz, View.ld_unit_zero (S := S256x1024) hz, View.ld_unit_zero (S := S300x4096) hz,
    View.ld_unit_zero (S := S1x4096) hz, View.ld_unit_zero (S := S1024x4096) hz]
  obtain ⟨-, -, -, -, -, -, -, -, -, -, -, -, -, -, e0, e1⟩ := idx_facts t
  refine funext fun (y : S256x1024.Idx) => ?_
  obtain ⟨r, k, rfl⟩ : ∃ (r : Fin 256) (k : Fin 1024), y = ix2 r k := ⟨y 0, y 1, eq_ix2 y⟩
  show k0_pay1 (F := Ideal) (iblk0 V c 0 t) (iblk0 V c 1 t) (iblk0 V c 2 t) (iblk0 V c 3 t) (iblk0 V c 4 t) (iblk0 V c 5 t)
      (iblk0 V c 6 t) (ix2 r k)
    = Arr.gateArr (V c main_v7) (V c main_v8) (V c main_arg2) (V c main_v10) (V c main_v14) (V c main_v12) (V c main_v16)
        (((cfg0.win 7).blk t).view.emb (ix2 r k))
  have hy : (((cfg0.win 7).blk t).view.emb (ix2 r k) : S4096x1024.Idx)
      = ix2 (⟨256 * t.val + r.val, by have := t_lt t; have := r.isLt; omega⟩ : Fin 4096) k := by
    funext a; apply Fin.ext
    match a with
    | ⟨0, _⟩ => show win0_7.index t (0 : Fin 2) * 256 + 1 * r.val = 256 * t.val + r.val; omega
    | ⟨1, _⟩ => show win0_7.index t (1 : Fin 2) * 1024 + 1 * k.val = k.val; omega
  rw [hy]
  exact point_eq _ _ _ _ _ _ _ _ _ _ _ _ _ _ t.val (t_lt t) (iblk_rows0 V c t) (iblk_rows1 V c t) (iblk_rows2 V c t)
    (iblk_all3 V c t) (iblk_all4 V c t) (iblk_all5 V c t) (iblk_all6 V c t) r k

/-- An index of the output array is in point t's block iff each coordinate is in the block's range on its axis. -/
theorem mem_blk (t : Fin cfg0.N) (i : S4096x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v17).slice (win0_7.rect t)).set ↔ _
  rw [View.set_slice_whole, Rect.mem_set_unit]
  exact Iff.rfl

/-- Every index of the output array is in some point's block: row p is written at point p / 256. -/
theorem cover (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 16 := N_0
  have ht : (i 0).val / 256 < cfg0.N := by rw [hN]; omega
  obtain ⟨-, -, -, -, -, -, -, -, -, -, -, -, -, -, e0, e1⟩ := idx_facts ⟨(i 0).val / 256, ht⟩
  refine ⟨⟨(i 0).val / 256, ht⟩, flush0_7 _, ?_⟩
  rw [mem_blk]
  intro a
  match a with
  | ⟨0, _⟩ =>
    show win0_7.index ⟨(i 0).val / 256, ht⟩ (0 : Fin 2) * 256 ≤ (i 0).val
      ∧ (i 0).val < win0_7.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, ht⟩ (1 : Fin 2) * 1024 ≤ (i 1).val
      ∧ (i 1).val < win0_7.index ⟨(i 0).val / 256, ht⟩ (1 : Fin 2) * 1024 + 1024
    rw [e1]; omega

/-- The output array after the run of the region is the gate array of the arrays as the region finds them. -/
theorem final0 (c : Dev nD) :
    (dat0 (F := Ideal) V c).arrAt 7 cfg0.N
      = Arr.gateArr (V c main_v7) (V c main_v8) (V c main_arg2) (V c main_v10) (V c main_v14) (V c main_v12) (V c main_v16) :=
  (dat0 (F := Ideal) V c).arrAt_eq_of_cover 7
    (Arr.gateArr (V c main_v7) (V c main_v8) (V c main_arg2) (V c main_v10) (V c main_v14) (V c main_v12) (V c main_v16))
    (fun t _ => flushed_eq V c t) cover

end Region0

end Cert.KernelIdeal.GateValue

end
-- ==== Proof.LogitsValue.lean ====
/-
  The logits region's array from its blocks.

  Point (a, b) of the 2 × 50 grid writes back, at rows 2048·a … and columns 1024·b … (cut at the array's last column),
  the stored block's transferred part: entry (r, q) there is row 2048·a + r of the hidden states against column
  1024·b + q of the projection matrix, plus the bias at column 1024·b + q, because the hidden-state block is rows
  2048·a … of its array and a transferred entry of the filled projection and bias blocks is the array's own entry at
  columns 1024·b ….  Every entry (p, v) of the result lies in the block of the point (p / 2048, v / 1024), inside its
  cut rectangle, so the array ends holding the product plus the bias everywhere.
-/
import proofs.«156406_j52596169507493_2_alg».proof.Proof.LogitsRegion
import proofs.«156406_j52596169507493_2_alg».proof.Proof.LogitsLocal
import proofs.«156406_j52596169507493_2_alg».proof.Proof.KernelPay
import proofs.«156406_j52596169507493_2_alg».proof.Proof.KernelArrays
import Idealize.ShloMosaic.Lib.Pipeline.Value
import Idealize.ShloMosaic.Lib.ValueIdx

set_option maxRecDepth 16384

noncomputable section

open scoped BigOperators

namespace Cert.KernelIdeal.LogitsValue

open Idealize.ShloMosaic Idealize.ShloMosaic.ValueIdx Cert.KernelIdeal Cert.KernelIdeal.Gen
open Idealize.ShloMosaic.TcCoe Idealize.SL.Sem
open Idealize.ShloMosaic.Pipeline (Window Dat Clip)
open Cert.KernelIdeal.Frm (dat1 iblk1 wblk bblk out1_3 out1_3_apply z1 z2 after1_3)

/-- How many coordinates of a block the transfer moves on an axis. -/
theorem extent_of (ix k d : Nat) : (Clip.of ix k d).extent k = if (ix + 1) * k ≤ d then k else d - ix * k := by
  unfold Clip.of; split <;> rfl

/-- At a transferred entry a filled block is the transferred part there. -/
theorem fill_of_moved {sig : RefSig} {G : Pipeline.Grid} (w : Window sig G) {α : Type} (i : G.Coords) (d : w.block.Idx → α)
    (g : (w.xblock i).Idx → α) {j : w.block.Idx} (h : w.moved i j = true) :
    w.fill i d g j = g (fun a => ⟨(j a).val, (w.moved_iff i j).mp h a⟩) := by
  unfold Window.fill; rw [dif_pos h]

/-- The block indices over the grid: the hidden-state block moves with the output block's rows, the projection and
    bias blocks with its columns, and the output's block indices range over 2 × 50. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) ≤ 1 ∧ win1_3.index t (1 : Fin 2) ≤ 49 :=
  (by decide +kernel : ∀ t : Fin grid1.N, _)

/-- Every block of the 2 × 50 box is some point's. -/
theorem idx_onto : ∀ (q0 : Fin 2) (q1 : Fin 50), ∃ t : Fin cfg1.N, win1_3.index t = ![q0.val, q1.val] :=
  (by decide +kernel : ∀ (q0 : Fin 2) (q1 : Fin 50), ∃ t : Fin grid1.N, win1_3.index t = ![q0.val, q1.val])

section
variable (V : (c : Dev nD) → (b : Ref sig .tc) → Buf (Elt Ideal) ((c : Thread nD τ).loc b))

/-- What point `t` writes back is block `t` of the product-plus-bias array of the arrays as the region finds them. -/
theorem flushed1_3 (c : Dev nD) (t : Fin cfg1.N) :
    (dat1 V c).flushed 3 t
      = ((cfg1.win 3).blk t).view.read (Elt Ideal) (Arr.logitsArr (V c main_v17) (V c main_v18) (V c main_v19)) := by
  obtain ⟨e00, e01, e10, e11, e20, e21, -, -⟩ := idx_facts t
  show win1_3.cut (grid1.coords t) ((dat1 V c).after 3 t) = _
  rw [after1_3]
  funext j
  have hx1 : (j 1).val < win1_3.xsize (grid1.coords t) 1 := (j 1).isLt
  have hj0 : (j 0).val < 2048 := Nat.lt_of_lt_of_le (j 0).isLt (win1_3.xsize_le _ 0)
  have hj1 : (j 1).val < 1024 := Nat.lt_of_lt_of_le (j 1).isLt (win1_3.xsize_le _ 1)
  have hin0 : win1_3.index t 0 * 2048 + (j 0).val < 4096 :=
    Nat.lt_of_lt_of_le (Nat.add_lt_add_left (j 0).isLt _) (Clip.inb (win1_3.hclip (grid1.coords t) 0))
  have hin1 : win1_3.index t 1 * 1024 + (j 1).val < 50257 :=
    Nat.lt_of_lt_of_le (Nat.add_lt_add_left (j 1).isLt _) (Clip.inb (win1_3.hclip (grid1.coords t) 1))
  have hrq : win1_3.xinj (grid1.coords t) j = ix2 (⟨(j 0).val, hj0⟩ : Fin 2048) (⟨(j 1).val, hj1⟩ : Fin 1024) :=
    funext fun a => by match a with | ⟨0, _⟩ => rfl | ⟨1, _⟩ => rfl
  have hpv : (win1_3.blk t).view.emb j
      = ix2 (⟨win1_3.index t 0 * 2048 + (j 0).val, hin0⟩ : Fin 4096) (⟨win1_3.index t 1 * 1024 + (j 1).val, hin1⟩ : Fin 50257) :=
    funext fun a => Fin.ext (by
      match a with
      | ⟨0, _⟩ => show win1_3.index t 0 * 2048 + 1 * (j 0).val = win1_3.index t 0 * 2048 + (j 0).val; omega
      | ⟨1, _⟩ => show win1_3.index t 1 * 1024 + 1 * (j 1).val = win1_3.index t 1 * 1024 + (j 1).val; omega)
  show out1_3 (F := Ideal) _ _ _ (win1_3.xinj (grid1.coords t) j) = Arr.logitsArr _ _ _ ((win1_3.blk t).view.emb j)
  rw [hrq, out1_3_apply, hpv, Arr.logitsArr_ix2]
  refine congrArg₂ (· + ·) (Finset.sum_congr rfl fun k _ => congrArg₂ (· * ·) ?_ ?_) ?_
  · -- the hidden-state block is rows 2048·a … of its array
    show V c main_v17 ((win1_0.blk t).view.emb (ix2 (⟨(j 0).val, hj0⟩ : Fin 2048) k)) = _
    exact congrArg _ (funext fun a => Fin.ext (by
      match a with
      | ⟨0, _⟩ => show win1_0.index t 0 * 2048 + 1 * (j 0).val = win1_3.index t 0 * 2048 + (j 0).val; omega
      | ⟨1, _⟩ => show win1_0.index t 1 * 1024 + 1 * k.val = k.val; omega))
  · -- a transferred entry of the filled projection block is the array's at columns 1024·b …
    unfold wblk
    rw [fill_of_moved win1_1 _ _ _ (Frm.moved1_1 _ k _ hx1)]
    show V c main_v18 ((win1_1.blk t).view.emb _) = _
    exact congrArg _ (funext fun a => Fin.ext (by
      match a with
      | ⟨0, _⟩ => show win1_1.index t 0 * 1024 + 1 * k.val = k.val; omega
      | ⟨1, _⟩ => show win1_1.index t 1 * 1024 + 1 * (j 1).val = win1_3.index t 1 * 1024 + (j 1).val; omega))
  · -- and so is a transferred entry of the filled bias block
    unfold bblk
    rw [fill_of_moved win1_2 _ _ _ (Frm.moved1_2 _ _ hx1)]
    show V c main_v19 ((win1_2.blk t).view.emb _) = _
    exact congrArg _ (funext fun a => Fin.ext (by
      match a with
      | ⟨0, _⟩ => show win1_2.index t 0 * 1 + 1 * 0 = 0; omega
      | ⟨1, _⟩ => show win1_2.index t 1 * 1024 + 1 * (j 1).val = win1_3.index t 1 * 1024 + (j 1).val; omega))

end

/-- An index of the array is in point `t`'s block iff each coordinate is in the block's cut range on its axis. -/
theorem mem_blk (t : Fin cfg1.N) (i : S4096x50257.Idx) :
    i ∈ ((cfg1.win 3).blk t).view.set ↔ ∀ a : Fin 2, win1_3.index t a * S2048x1024.size a ≤ (i a).val
      ∧ (i a).val < win1_3.index t a * S2048x1024.size a + win1_3.xsize (grid1.coords t) a := by
  show i ∈ ((View.whole main_v20).slice (win1_3.rect t)).set ↔ _
  rw [View.set_slice_whole, Rect.mem_set_unit]
  exact Iff.rfl

/-- Entry (p, v) lies in the block of the point (p / 2048, v / 1024), inside its cut rectangle. -/
theorem cover (i : S4096x50257.Idx) :
    ∃ t : Fin cfg1.N, (cfg1.win 3).flush t = true ∧ i ∈ ((cfg1.win 3).blk t).view.set := by
  have hi0 : (i 0).val < 4096 := (i 0).isLt
  have hi1 : (i 1).val < 50257 := (i 1).isLt
  obtain ⟨t, ht⟩ := idx_onto ⟨(i 0).val / 2048, by omega⟩ ⟨(i 1).val / 1024, by omega⟩
  have q0 : win1_3.index t (0 : Fin 2) = (i 0).val / 2048 := congrFun ht 0
  have q1 : win1_3.index t (1 : Fin 2) = (i 1).val / 1024 := congrFun ht 1
  refine ⟨t, flush1_3 t, ?_⟩
  rw [mem_blk]
  intro a
  match a with
  | ⟨0, _⟩ =>
    show win1_3.index t 0 * 2048 ≤ (i 0).val
      ∧ (i 0).val < win1_3.index t 0 * 2048 + (Clip.of (win1_3.index t 0) 2048 4096).extent 2048
    rw [extent_of, q0]; split <;> omega
  | ⟨1, _⟩ =>
    show win1_3.index t 1 * 1024 ≤ (i 1).val
      ∧ (i 1).val < win1_3.index t 1 * 1024 + (Clip.of (win1_3.index t 1) 1024 50257).extent 1024
    rw [extent_of, q1]; split <;> omega

section
variable (V : (c : Dev nD) → (b : Ref sig .tc) → Buf (Elt Ideal) ((c : Thread nD τ).loc b))

/-- The logits array after the region: the hidden states times the projection matrix plus the bias row, of the arrays
    as the region finds them. -/
theorem final1 (c : Dev nD) :
    (dat1 V c).arrAt 3 cfg1.N = Arr.logitsArr (V c main_v17) (V c main_v18) (V c main_v19) :=
  (dat1 V c).arrAt_eq_of_cover 3 _ (fun t _ => flushed1_3 V c t) cover

end

end Cert.KernelIdeal.LogitsValue

end
-- ==== Proof.LibJoinFour.lean ====
/-
  Four matrices with the same number of rows, joined side by side along the columns, read at an entry.

  The joined matrix [n, N] has the columns of the first piece, then those of the second, the third and the fourth; entry
  (p, q) is the entry (p, i) of the piece whose span holds column q, i being q less the widths of the pieces before it.
  General in the extents and the element type; the column's place is a hypothesis on the coordinates' values.
-/
import Idealize.ShloMosaic.Lib.Pipeline.Value
import Idealize.ShloMosaic.Lib.ValueIdx

noncomputable section

namespace Cert.LibJoinFour

open Idealize.ShloMosaic Idealize.ShloMosaic.ValueIdx

variable {α : Type} {n a0 a1 a2 a3 N : ℕ}

/-- A column of the first piece. -/
theorem join4_first (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a0) (hq : i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x0 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 0 (by show (0 : ℕ) < 4; omega) ⟨2, ![n, a0]⟩ x0 rfl rfl 0 rfl (ix2 p i)
    (fun b hb => by
      match b with
      | ⟨0, _⟩ => rfl
      | ⟨1, _⟩ => exact absurd rfl hb)
    (by show 0 + i.val = q.val; omega)

/-- A column of the second piece. -/
theorem join4_second (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a1) (hq : a0 + i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x1 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 1 (by show (1 : ℕ) < 4; omega) ⟨2, ![n, a1]⟩ x1 rfl rfl (a0 + 0) rfl (ix2 p i)
    (fun b hb => by
      match b with
      | ⟨0, _⟩ => rfl
      | ⟨1, _⟩ => exact absurd rfl hb)
    (by show a0 + 0 + i.val = q.val; omega)

/-- A column of the third piece. -/
theorem join4_third (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a2) (hq : a0 + a1 + i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x2 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 2 (by show (2 : ℕ) < 4; omega) ⟨2, ![n, a2]⟩ x2 rfl rfl (a0 + (a1 + 0)) rfl (ix2 p i)
    (fun b hb => by
      match b with
      | ⟨0, _⟩ => rfl
      | ⟨1, _⟩ => exact absurd rfl hb)
    (by show a0 + (a1 + 0) + i.val = q.val; omega)

/-- A column of the fourth piece. -/
theorem join4_fourth (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a3) (hq : a0 + a1 + a2 + i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x3 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 3 (by show (3 : ℕ) < 4; omega) ⟨2, ![n, a3]⟩ x3 rfl rfl (a0 + (a1 + (a2 + 0))) rfl (ix2 p i)
    (fun b hb => by
      match b with
      | ⟨0, _⟩ => rfl
      | ⟨1, _⟩ => exact absurd rfl hb)
    (by show a0 + (a1 + (a2 + 0)) + i.val = q.val; omega)

end Cert.LibJoinFour

end
-- ==== Proof.HostStages.lean ====
/-
  The operands the host prepares for the two calls, read at an entry, with floats the extended reals.

  Four weight matrices with the same number of rows are joined side by side along the columns and their format changed;
  four bias vectors are joined end to end and the joined vector is laid out as a one-row matrix. Over the extended reals
  a change of format is the identity, so entry (j, 1024 * g + k) of a joined matrix is entry (j, k) of piece g, and
  entry (0, 1024 * g + k) of a joined row is entry k of vector g. Everything here is bookkeeping of indices.
-/
import proofs.«156406_j52596169507493_2_alg».proof.Proof.Gen.KernelIdeal
import proofs.«156406_j52596169507493_2_alg».proof.Proof.LibJoinFour
import Idealize.ShloMosaic.Lib.ValueIdx
import Idealize.ShloMosaic.Lib.ValueLayout
import Idealize.ShloMosaic.Lib.Pipeline.Value

noncomputable section

namespace Cert.KernelIdeal.HostStages

open Idealize.ShloMosaic Idealize.ShloMosaic.ValueIdx
open Cert.KernelIdeal Cert.KernelIdeal.Facts₀

/-! ## A change of format, and a vector laid out as a row -/

/-- Over the extended reals the narrowing of a float's format is the identity, at every entry of any shape. -/
theorem cast_apply {s : Shape} (x : FVec Ideal s .f32) (i : s.Idx) :
    truncf (F := Ideal) .bf16 x bitsLt_bf16_f32 i = x i :=
  truncf_apply x bitsLt_bf16_f32 i

/-- The vector of 50257 entries laid out as a matrix of one row: entry (0, v) is entry v. -/
theorem row_of_vec (b : FVec Ideal S50257 .f32) (v : Fin 50257) :
    shapeCast S1x50257 b shapeCasts_S50257_S1x50257 (ix2 (0 : Fin 1) v) = b (ix1 v) :=
  shapeCast_a_1a_apply b shapeCasts_S50257_S1x50257 0 v

/-! ## The input-to-gate weights: four [300, 1024] matrices side by side -/

section wx
variable (a0 a1 a2 a3 : FVec Ideal S300x1024 .f32) (j : Fin 300) (k : Fin 1024) (col : Fin 4096)

/-- Columns 0 … 1023 of the joined matrix are the first piece. -/
theorem wx_all_0 (h : col.val = k.val) :
    truncf (F := Ideal) .bf16 (concatenate S300x4096 1 [⟨S300x1024, a0⟩, ⟨S300x1024, a1⟩, ⟨S300x1024, a2⟩, ⟨S300x1024, a3⟩]
      concatenates_S300x1024_S300x1024_S300x1024_S300x1024_S300x4096_d1) bitsLt_bf16_f32 (ix2 j col) = a0 (ix2 j k) :=
  (cast_apply _ _).trans (Cert.LibJoinFour.join4_first a0 a1 a2 a3 _ j col k (by omega))

/-- Columns 1024 … 2047 are the second piece. -/
theorem wx_all_1 (h : col.val = 1024 + k.val) :
    truncf (F := Ideal) .bf16 (concatenate S300x4096 1 [⟨S300x1024, a0⟩, ⟨S300x1024, a1⟩, ⟨S300x1024, a2⟩, ⟨S300x1024, a3⟩]
      concatenates_S300x1024_S300x1024_S300x1024_S300x1024_S300x4096_d1) bitsLt_bf16_f32 (ix2 j col) = a1 (ix2 j k) :=
  (cast_apply _ _).trans (Cert.LibJoinFour.join4_second a0 a1 a2 a3 _ j col k (by omega))

/-- Columns 2048 … 3071 are the third piece. -/
theorem wx_all_2 (h : col.val = 2048 + k.val) :
    truncf (F := Ideal) .bf16 (concatenate S300x4096 1 [⟨S300x1024, a0⟩, ⟨S300x1024, a1⟩, ⟨S300x1024, a2⟩, ⟨S300x1024, a3⟩]
      concatenates_S300x1024_S300x1024_S300x1024_S300x1024_S300x4096_d1) bitsLt_bf16_f32 (ix2 j col) = a2 (ix2 j k) :=
  (cast_apply _ _).trans (Cert.LibJoinFour.join4_third a0 a1 a2 a3 _ j col k (by omega))

/-- Columns 3072 … 4095 are the fourth piece. -/
theorem wx_all_3 (h : col.val = 3072 + k.val) :
    truncf (F := Ideal) .bf16 (concatenate S300x4096 1 [⟨S300x1024, a0⟩, ⟨S300x1024, a1⟩, ⟨S300x1024, a2⟩, ⟨S300x1024, a3⟩]
      concatenates_S300x1024_S300x1024_S300x1024_S300x1024_S300x4096_d1) bitsLt_bf16_f32 (ix2 j col) = a3 (ix2 j k) :=
  (cast_apply _ _).trans (Cert.LibJoinFour.join4_fourth a0 a1 a2 a3 _ j col k (by omega))

end wx

/-! ## The state-to-gate weights: four [1024, 1024] matrices side by side -/

section wh
variable (a0 a1 a2 a3 : FVec Ideal S1024x1024 .f32) (j : Fin 1024) (k : Fin 1024) (col : Fin 4096)

/-- Columns 0 … 1023 of the joined matrix are the first piece. -/
theorem wh_all_0 (h : col.val = k.val) :
    truncf (F := Ideal) .bf16 (concatenate S1024x4096 1 [⟨S1024x1024, a0⟩, ⟨S1024x1024, a1⟩, ⟨S1024x1024, a2⟩, ⟨S1024x1024, a3⟩]
      concatenates_S1024x1024_S1024x1024_S1024x1024_S1024x1024_S1024x4096_d1) bitsLt_bf16_f32 (ix2 j col) = a0 (ix2 j k) :=
  (cast_apply _ _).trans (Cert.LibJoinFour.join4_first a0 a1 a2 a3 _ j col k (by omega))

/-- Columns 1024 … 2047 are the second piece. -/
theorem wh_all_1 (h : col.val = 1024 + k.val) :
    truncf (F := Ideal) .bf16 (concatenate S1024x4096 1 [⟨S1024x1024, a0⟩, ⟨S1024x1024, a1⟩, ⟨S1024x1024, a2⟩, ⟨S1024x1024, a3⟩]
      concatenates_S1024x1024_S1024x1024_S1024x1024_S1024x1024_S1024x4096_d1) bitsLt_bf16_f32 (ix2 j col) = a1 (ix2 j k) :=
  (cast_apply _ _).trans (Cert.LibJoinFour.join4_second a0 a1 a2 a3 _ j col k (by omega))

/-- Columns 2048 … 3071 are the third piece. -/
theorem wh_all_2 (h : col.val = 2048 + k.val) :
    truncf (F := Ideal) .bf16 (concatenate S1024x4096 1 [⟨S1024x1024, a0⟩, ⟨S1024x1024, a1⟩, ⟨S1024x1024, a2⟩, ⟨S1024x1024, a3⟩]
      concatenates_S1024x1024_S1024x1024_S1024x1024_S1024x1024_S1024x4096_d1) bitsLt_bf16_f32 (ix2 j col) = a2 (ix2 j k) :=
  (cast_apply _ _).trans (Cert.LibJoinFour.join4_third a0 a1 a2 a3 _ j col k (by omega))

/-- Columns 3072 … 4095 are the fourth piece. -/
theorem wh_all_3 (h : col.val = 3072 + k.val) :
    truncf (F := Ideal) .bf16 (concatenate S1024x4096 1 [⟨S1024x1024, a0⟩, ⟨S1024x1024, a1⟩, ⟨S1024x1024, a2⟩, ⟨S1024x1024, a3⟩]
      concatenates_S1024x1024_S1024x1024_S1024x1024_S1024x1024_S1024x4096_d1) bitsLt_bf16_f32 (ix2 j col) = a3 (ix2 j k) :=
  (cast_apply _ _).trans (Cert.LibJoinFour.join4_fourth a0 a1 a2 a3 _ j col k (by omega))

end wh

/-! ## Four vectors joined end to end, read at an entry

The joined vector [N] has the entries of the first vector, then those of the second, the third and the fourth; entry q is
entry i of the vector whose span holds q, i being q less the lengths of the vectors before it. General in the lengths and
the element type. -/

section vec
variable {α : Type} {n0 n1 n2 n3 N : ℕ}
  (x0 : (⟨1, ![n0]⟩ : Shape).Idx → α) (x1 : (⟨1, ![n1]⟩ : Shape).Idx → α)
  (x2 : (⟨1, ![n2]⟩ : Shape).Idx → α) (x3 : (⟨1, ![n3]⟩ : Shape).Idx → α)
  (h : Shape.Concatenates [⟨1, ![n0]⟩, ⟨1, ![n1]⟩, ⟨1, ![n2]⟩, ⟨1, ![n3]⟩] ⟨1, ![N]⟩ 0) (q : Fin N)

/-- An entry of the first vector. -/
theorem vjoin4_first (i : Fin n0) (hq : i.val = q.val) :
    concatenate ⟨1, ![N]⟩ 0 [⟨⟨1, ![n0]⟩, x0⟩, ⟨⟨1, ![n1]⟩, x1⟩, ⟨⟨1, ![n2]⟩, x2⟩, ⟨⟨1, ![n3]⟩, x3⟩] h (ix1 q) = x0 (ix1 i) :=
  concatenate_apply_piece (t := ⟨1, ![N]⟩) (0 : Fin 1) [⟨⟨1, ![n0]⟩, x0⟩, ⟨⟨1, ![n1]⟩, x1⟩, ⟨⟨1, ![n2]⟩, x2⟩, ⟨⟨1, ![n3]⟩, x3⟩] h (ix1 q)
    0 (by show (0 : ℕ) < 4; omega) ⟨1, ![n0]⟩ x0 rfl rfl 0 rfl (ix1 i)
    (fun b hb => by
      match b with
      | ⟨0, _⟩ => exact absurd rfl hb)
    (by show 0 + i.val = q.val; omega)

/-- An entry of the second vector. -/
theorem vjoin4_second (i : Fin n1) (hq : n0 + i.val = q.val) :
    concatenate ⟨1, ![N]⟩ 0 [⟨⟨1, ![n0]⟩, x0⟩, ⟨⟨1, ![n1]⟩, x1⟩, ⟨⟨1, ![n2]⟩, x2⟩, ⟨⟨1, ![n3]⟩, x3⟩] h (ix1 q) = x1 (ix1 i) :=
  concatenate_apply_piece (t := ⟨1, ![N]⟩) (0 : Fin 1) [⟨⟨1, ![n0]⟩, x0⟩, ⟨⟨1, ![n1]⟩, x1⟩, ⟨⟨1, ![n2]⟩, x2⟩, ⟨⟨1, ![n3]⟩, x3⟩] h (ix1 q)
    1 (by show (1 : ℕ) < 4; omega) ⟨1, ![n1]⟩ x1 rfl rfl (n0 + 0) rfl (ix1 i)
    (fun b hb => by
      match b with
      | ⟨0, _⟩ => exact absurd rfl hb)
    (by show n0 + 0 + i.val = q.val; omega)

/-- An entry of the third vector. -/
theorem vjoin4_third (i : Fin n2) (hq : n0 + n1 + i.val = q.val) :
    concatenate ⟨1, ![N]⟩ 0 [⟨⟨1, ![n0]⟩, x0⟩, ⟨⟨1, ![n1]⟩, x1⟩, ⟨⟨1, ![n2]⟩, x2⟩, ⟨⟨1, ![n3]⟩, x3⟩] h (ix1 q) = x2 (ix1 i) :=
  concatenate_apply_piece (t := ⟨1, ![N]⟩) (0 : Fin 1) [⟨⟨1, ![n0]⟩, x0⟩, ⟨⟨1, ![n1]⟩, x1⟩, ⟨⟨1, ![n2]⟩, x2⟩, ⟨⟨1, ![n3]⟩, x3⟩] h (ix1 q)
    2 (by show (2 : ℕ) < 4; omega) ⟨1, ![n2]⟩ x2 rfl rfl (n0 + (n1 + 0)) rfl (ix1 i)
    (fun b hb => by
      match b with
      | ⟨0, _⟩ => exact absurd rfl hb)
    (by show n0 + (n1 + 0) + i.val = q.val; omega)

/-- An entry of the fourth vector. -/
theorem vjoin4_fourth (i : Fin n3) (hq : n0 + n1 + n2 + i.val = q.val) :
    concatenate ⟨1, ![N]⟩ 0 [⟨⟨1, ![n0]⟩, x0⟩, ⟨⟨1, ![n1]⟩, x1⟩, ⟨⟨1, ![n2]⟩, x2⟩, ⟨⟨1, ![n3]⟩, x3⟩] h (ix1 q) = x3 (ix1 i) :=
  concatenate_apply_piece (t := ⟨1, ![N]⟩) (0 : Fin 1) [⟨⟨1, ![n0]⟩, x0⟩, ⟨⟨1, ![n1]⟩, x1⟩, ⟨⟨1, ![n2]⟩, x2⟩, ⟨⟨1, ![n3]⟩, x3⟩] h (ix1 q)
    3 (by show (3 : ℕ) < 4; omega) ⟨1, ![n3]⟩ x3 rfl rfl (n0 + (n1 + (n2 + 0))) rfl (ix1 i)
    (fun b hb => by
      match b with
      | ⟨0, _⟩ => exact absurd rfl hb)
    (by show n0 + (n1 + (n2 + 0)) + i.val = q.val; omega)

end vec

/-! ## The gate biases: four vectors of 1024 entries end to end, laid out as one row of 4096 -/

section bias
variable (b0 b1 b2 b3 : FVec Ideal S1024 .f32) (k : Fin 1024) (col : Fin 4096)

/-- Entries 0 … 1023 of the row are the first vector. -/
theorem b_all_0 (h : col.val = k.val) :
    shapeCast S1x4096 (concatenate S4096 0 [⟨S1024, b0⟩, ⟨S1024, b1⟩, ⟨S1024, b2⟩, ⟨S1024, b3⟩]
      concatenates_S1024_S1024_S1024_S1024_S4096_d0) shapeCasts_S4096_S1x4096 (ix2 (0 : Fin 1) col) = b0 (ix1 k) :=
  (shapeCast_a_1a_apply _ shapeCasts_S4096_S1x4096 0 col).trans (vjoin4_first b0 b1 b2 b3 _ col k (by omega))

/-- Entries 1024 … 2047 are the second vector. -/
theorem b_all_1 (h : col.val = 1024 + k.val) :
    shapeCast S1x4096 (concatenate S4096 0 [⟨S1024, b0⟩, ⟨S1024, b1⟩, ⟨S1024, b2⟩, ⟨S1024, b3⟩]
      concatenates_S1024_S1024_S1024_S1024_S4096_d0) shapeCasts_S4096_S1x4096 (ix2 (0 : Fin 1) col) = b1 (ix1 k) :=
  (shapeCast_a_1a_apply _ shapeCasts_S4096_S1x4096 0 col).trans (vjoin4_second b0 b1 b2 b3 _ col k (by omega))

/-- Entries 2048 … 3071 are the third vector. -/
theorem b_all_2 (h : col.val = 2048 + k.val) :
    shapeCast S1x4096 (concatenate S4096 0 [⟨S1024, b0⟩, ⟨S1024, b1⟩, ⟨S1024, b2⟩, ⟨S1024, b3⟩]
      concatenates_S1024_S1024_S1024_S1024_S4096_d0) shapeCasts_S4096_S1x4096 (ix2 (0 : Fin 1) col) = b2 (ix1 k) :=
  (shapeCast_a_1a_apply _ shapeCasts_S4096_S1x4096 0 col).trans (vjoin4_third b0 b1 b2 b3 _ col k (by omega))

/-- Entries 3072 … 4095 are the fourth vector. -/
theorem b_all_3 (h : col.val = 3072 + k.val) :
    shapeCast S1x4096 (concatenate S4096 0 [⟨S1024, b0⟩, ⟨S1024, b1⟩, ⟨S1024, b2⟩, ⟨S1024, b3⟩]
      concatenates_S1024_S1024_S1024_S1024_S4096_d0) shapeCasts_S4096_S1x4096 (ix2 (0 : Fin 1) col) = b3 (ix1 k) :=
  (shapeCast_a_1a_apply _ shapeCasts_S4096_S1x4096 0 col).trans (vjoin4_fourth b0 b1 b2 b3 _ col k (by omega))

end bias

end Cert.KernelIdeal.HostStages

end
-- ==== Proof.Spec.lean ====
/- The mathematical content of one LSTM cell step followed by the logits layer, over the extended reals.
   Matrices and vectors are functions on multi-indices; every sum is a finite sum over the contracted axis,
   and the additions are associated exactly as written: input product, input bias, recurrent product,
   recurrent bias. -/
import Idealize.ShloMosaic.PureOps.Ideal
import Idealize.ShloMosaic.Lib.ValueIdx

noncomputable section

open scoped BigOperators

namespace Cert.LstmSpec

open Idealize.ShloMosaic Idealize.ShloMosaic.ValueIdx

/-- A matrix with `a` rows and `b` columns of extended reals. -/
abbrev Mat (a b : Nat) : Type := (⟨2, ![a, b]⟩ : Shape).Idx → EReal
/-- A vector of `a` extended reals. -/
abbrev Vec (a : Nat) : Type := (⟨1, ![a]⟩ : Shape).Idx → EReal

/-- A gate's pre-activation at row `p`, unit `k`:
    `((x_p · wx_k + bx_k) + h_p · wh_k) + bh_k`. -/
def pre (X : Mat 4096 300) (H : Mat 4096 1024) (wx : Mat 300 1024) (bx : Vec 1024)
    (wh : Mat 1024 1024) (bh : Vec 1024) (p : Fin 4096) (k : Fin 1024) : EReal :=
  (((∑ j : Fin 300, X (ix2 p j) * wx (ix2 j k)) + bx (ix1 k))
    + ∑ j : Fin 1024, H (ix2 p j) * wh (ix2 j k)) + bh (ix1 k)

/-- The new hidden state at row `p`, unit `k`: `o * tanh (f * c + i * tanh g)` with the forget, input and
    output gates the logistic function of their pre-activations. -/
def hnew (X : Mat 4096 300) (H C : Mat 4096 1024)
    (Wf_x : Mat 300 1024) (bf_x : Vec 1024) (Wf_h : Mat 1024 1024) (bf_h : Vec 1024)
    (Wi_x : Mat 300 1024) (bi_x : Vec 1024) (Wi_h : Mat 1024 1024) (bi_h : Vec 1024)
    (Wg_x : Mat 300 1024) (bg_x : Vec 1024) (Wg_h : Mat 1024 1024) (bg_h : Vec 1024)
    (Wo_x : Mat 300 1024) (bo_x : Vec 1024) (Wo_h : Mat 1024 1024) (bo_h : Vec 1024)
    (p : Fin 4096) (k : Fin 1024) : EReal :=
  Ideal.logistic (pre X H Wo_x bo_x Wo_h bo_h p k)
    * Ideal.tanh (Ideal.logistic (pre X H Wf_x bf_x Wf_h bf_h p k) * C (ix2 p k)
        + Ideal.logistic (pre X H Wi_x bi_x Wi_h bi_h p k) * Ideal.tanh (pre X H Wg_x bg_x Wg_h bg_h p k))

/-- The logits: the new hidden state times the output matrix, plus the output bias. -/
def logits (X : Mat 4096 300) (H C : Mat 4096 1024)
    (Wf_x : Mat 300 1024) (bf_x : Vec 1024) (Wf_h : Mat 1024 1024) (bf_h : Vec 1024)
    (Wi_x : Mat 300 1024) (bi_x : Vec 1024) (Wi_h : Mat 1024 1024) (bi_h : Vec 1024)
    (Wg_x : Mat 300 1024) (bg_x : Vec 1024) (Wg_h : Mat 1024 1024) (bg_h : Vec 1024)
    (Wo_x : Mat 300 1024) (bo_x : Vec 1024) (Wo_h : Mat 1024 1024) (bo_h : Vec 1024)
    (Wl : Mat 1024 50257) (bl : Vec 50257) : Mat 4096 50257 :=
  fun i => (∑ k : Fin 1024,
      hnew X H C Wf_x bf_x Wf_h bf_h Wi_x bi_x Wi_h bi_h Wg_x bg_x Wg_h bg_h Wo_x bo_x Wo_h bo_h (i 0) k
        * Wl (ix2 k (i 1))) + bl (ix1 (i 1))

/-- The logits at the index with coordinates `p`, `v`. -/
theorem logits_ix2 (X : Mat 4096 300) (H C : Mat 4096 1024)
    (Wf_x : Mat 300 1024) (bf_x : Vec 1024) (Wf_h : Mat 1024 1024) (bf_h : Vec 1024)
    (Wi_x : Mat 300 1024) (bi_x : Vec 1024) (Wi_h : Mat 1024 1024) (bi_h : Vec 1024)
    (Wg_x : Mat 300 1024) (bg_x : Vec 1024) (Wg_h : Mat 1024 1024) (bg_h : Vec 1024)
    (Wo_x : Mat 300 1024) (bo_x : Vec 1024) (Wo_h : Mat 1024 1024) (bo_h : Vec 1024)
    (Wl : Mat 1024 50257) (bl : Vec 50257) (p : Fin 4096) (v : Fin 50257) :
    logits X H C Wf_x bf_x Wf_h bf_h Wi_x bi_x Wi_h bi_h Wg_x bg_x Wg_h bg_h Wo_x bo_x Wo_h bo_h Wl bl (ix2 p v)
      = (∑ k : Fin 1024,
          hnew X H C Wf_x bf_x Wf_h bf_h Wi_x bi_x Wi_h bi_h Wg_x bg_x Wg_h bg_h Wo_x bo_x Wo_h bo_h p k
            * Wl (ix2 k v)) + bl (ix1 v) := rfl

end Cert.LstmSpec

end
-- ==== Proof.KernelIsSpec.lean ====
/-
  The operands the host prepares turn the kernel's two arrays into the specification.

  The gate step's array is stated over joined operands: the four gates' input weights side by side, their recurrent
  weights side by side, and their biases end to end as one row. Column 1024 * g + k of a joined operand is column k of
  gate g's own operand, and a change of format is the identity on the extended reals, so the pre-activation read at
  column 1024 * g + k of the joined operands is gate g's pre-activation at unit k. The kernel reads block 0 as the forget
  gate, block 1 as the input gate, block 2 as the candidate and block 3 as the output gate, which is the order the host
  joins them in; hence its array is the new hidden state o * tanh (f * c + i * tanh g), and the logits array over it the
  specification's logits.
-/
import proofs.«156406_j52596169507493_2_alg».proof.Proof.KernelArrays
import proofs.«156406_j52596169507493_2_alg».proof.Proof.HostStages
import proofs.«156406_j52596169507493_2_alg».proof.Proof.Spec
import Idealize.ShloMosaic.Lib.ValueIdx

noncomputable section

open scoped BigOperators

namespace Cert.KernelIdeal.Bridge

open Idealize.ShloMosaic Idealize.ShloMosaic.ValueIdx
open Cert.KernelIdeal Cert.KernelIdeal.Facts₀ Cert.KernelIdeal.Arr Cert.KernelIdeal.HostStages

/-! ## The columns of the four blocks -/

theorem col0_val (k : Fin 1024) : (Pay.col 0 k).val = k.val := by
  show 1024 * 0 + k.val = k.val; omega
theorem col1_val (k : Fin 1024) : (Pay.col 1 k).val = 1024 + k.val := by
  show 1024 * 1 + k.val = 1024 + k.val; omega
theorem col2_val (k : Fin 1024) : (Pay.col 2 k).val = 2048 + k.val := by
  show 1024 * 2 + k.val = 2048 + k.val; omega
theorem col3_val (k : Fin 1024) : (Pay.col 3 k).val = 3072 + k.val := by
  show 1024 * 3 + k.val = 3072 + k.val; omega

/-! ## A pre-activation over the joined operands is one gate's pre-activation -/

section pre
variable (X : FVec Ideal S4096x300 .f32) (H : FVec Ideal S4096x1024 .f32)
  (W0x W1x W2x W3x : FVec Ideal S300x1024 .f32) (b0x b1x b2x b3x : FVec Ideal S1024 .f32)
  (W0h W1h W2h W3h : FVec Ideal S1024x1024 .f32) (b0h b1h b2h b3h : FVec Ideal S1024 .f32)
  (p : Fin 4096) (k : Fin 1024)

/-- Block 0. -/
theorem preA_host_0 :
    preA (truncf (F := Ideal) .bf16 X bitsLt_bf16_f32) (truncf (F := Ideal) .bf16 H bitsLt_bf16_f32)
      (truncf (F := Ideal) .bf16 (concatenate S300x4096 1 [⟨S300x1024, W0x⟩, ⟨S300x1024, W1x⟩, ⟨S300x1024, W2x⟩, ⟨S300x1024, W3x⟩]
        concatenates_S300x1024_S300x1024_S300x1024_S300x1024_S300x4096_d1) bitsLt_bf16_f32)
      (shapeCast S1x4096 (concatenate S4096 0 [⟨S1024, b0x⟩, ⟨S1024, b1x⟩, ⟨S1024, b2x⟩, ⟨S1024, b3x⟩]
        concatenates_S1024_S1024_S1024_S1024_S4096_d0) shapeCasts_S4096_S1x4096)
      (truncf (F := Ideal) .bf16 (concatenate S1024x4096 1 [⟨S1024x1024, W0h⟩, ⟨S1024x1024, W1h⟩, ⟨S1024x1024, W2h⟩, ⟨S1024x1024, W3h⟩]
        concatenates_S1024x1024_S1024x1024_S1024x1024_S1024x1024_S1024x4096_d1) bitsLt_bf16_f32)
      (shapeCast S1x4096 (concatenate S4096 0 [⟨S1024, b0h⟩, ⟨S1024, b1h⟩, ⟨S1024, b2h⟩, ⟨S1024, b3h⟩]
        concatenates_S1024_S1024_S1024_S1024_S4096_d0) shapeCasts_S4096_S1x4096)
      p (Pay.col 0 k)
      = Cert.LstmSpec.pre X H W0x b0x W0h b0h p k := by
  unfold preA Cert.LstmSpec.pre
  simp only [wx_all_0 W0x W1x W2x W3x _ k _ (col0_val k), wh_all_0 W0h W1h W2h W3h _ k _ (col0_val k),
    b_all_0 b0x b1x b2x b3x k _ (col0_val k), b_all_0 b0h b1h b2h b3h k _ (col0_val k)]
  simp only [cast_apply]

/-- Block 1. -/
theorem preA_host_1 :
    preA (truncf (F := Ideal) .bf16 X bitsLt_bf16_f32) (truncf (F := Ideal) .bf16 H bitsLt_bf16_f32)
      (truncf (F := Ideal) .bf16 (concatenate S300x4096 1 [⟨S300x1024, W0x⟩, ⟨S300x1024, W1x⟩, ⟨S300x1024, W2x⟩, ⟨S300x1024, W3x⟩]
        concatenates_S300x1024_S300x1024_S300x1024_S300x1024_S300x4096_d1) bitsLt_bf16_f32)
      (shapeCast S1x4096 (concatenate S4096 0 [⟨S1024, b0x⟩, ⟨S1024, b1x⟩, ⟨S1024, b2x⟩, ⟨S1024, b3x⟩]
        concatenates_S1024_S1024_S1024_S1024_S4096_d0) shapeCasts_S4096_S1x4096)
      (truncf (F := Ideal) .bf16 (concatenate S1024x4096 1 [⟨S1024x1024, W0h⟩, ⟨S1024x1024, W1h⟩, ⟨S1024x1024, W2h⟩, ⟨S1024x1024, W3h⟩]
        concatenates_S1024x1024_S1024x1024_S1024x1024_S1024x1024_S1024x4096_d1) bitsLt_bf16_f32)
      (shapeCast S1x4096 (concatenate S4096 0 [⟨S1024, b0h⟩, ⟨S1024, b1h⟩, ⟨S1024, b2h⟩, ⟨S1024, b3h⟩]
        concatenates_S1024_S1024_S1024_S1024_S4096_d0) shapeCasts_S4096_S1x4096)
      p (Pay.col 1 k)
      = Cert.LstmSpec.pre X H W1x b1x W1h b1h p k := by
  unfold preA Cert.LstmSpec.pre
  simp only [wx_all_1 W0x W1x W2x W3x _ k _ (col1_val k), wh_all_1 W0h W1h W2h W3h _ k _ (col1_val k),
    b_all_1 b0x b1x b2x b3x k _ (col1_val k), b_all_1 b0h b1h b2h b3h k _ (col1_val k)]
  simp only [cast_apply]

/-- Block 2. -/
theorem preA_host_2 :
    preA (truncf (F := Ideal) .bf16 X bitsLt_bf16_f32) (truncf (F := Ideal) .bf16 H bitsLt_bf16_f32)
      (truncf (F := Ideal) .bf16 (concatenate S300x4096 1 [⟨S300x1024, W0x⟩, ⟨S300x1024, W1x⟩, ⟨S300x1024, W2x⟩, ⟨S300x1024, W3x⟩]
        concatenates_S300x1024_S300x1024_S300x1024_S300x1024_S300x4096_d1) bitsLt_bf16_f32)
      (shapeCast S1x4096 (concatenate S4096 0 [⟨S1024, b0x⟩, ⟨S1024, b1x⟩, ⟨S1024, b2x⟩, ⟨S1024, b3x⟩]
        concatenates_S1024_S1024_S1024_S1024_S4096_d0) shapeCasts_S4096_S1x4096)
      (truncf (F := Ideal) .bf16 (concatenate S1024x4096 1 [⟨S1024x1024, W0h⟩, ⟨S1024x1024, W1h⟩, ⟨S1024x1024, W2h⟩, ⟨S1024x1024, W3h⟩]
        concatenates_S1024x1024_S1024x1024_S1024x1024_S1024x1024_S1024x4096_d1) bitsLt_bf16_f32)
      (shapeCast S1x4096 (concatenate S4096 0 [⟨S1024, b0h⟩, ⟨S1024, b1h⟩, ⟨S1024, b2h⟩, ⟨S1024, b3h⟩]
        concatenates_S1024_S1024_S1024_S1024_S4096_d0) shapeCasts_S4096_S1x4096)
      p (Pay.col 2 k)
      = Cert.LstmSpec.pre X H W2x b2x W2h b2h p k := by
  unfold preA Cert.LstmSpec.pre
  simp only [wx_all_2 W0x W1x W2x W3x _ k _ (col2_val k), wh_all_2 W0h W1h W2h W3h _ k _ (col2_val k),
    b_all_2 b0x b1x b2x b3x k _ (col2_val k), b_all_2 b0h b1h b2h b3h k _ (col2_val k)]
  simp only [cast_apply]

/-- Block 3. -/
theorem preA_host_3 :
    preA (truncf (F := Ideal) .bf16 X bitsLt_bf16_f32) (truncf (F := Ideal) .bf16 H bitsLt_bf16_f32)
      (truncf (F := Ideal) .bf16 (concatenate S300x4096 1 [⟨S300x1024, W0x⟩, ⟨S300x1024, W1x⟩, ⟨S300x1024, W2x⟩, ⟨S300x1024, W3x⟩]
        concatenates_S300x1024_S300x1024_S300x1024_S300x1024_S300x4096_d1) bitsLt_bf16_f32)
      (shapeCast S1x4096 (concatenate S4096 0 [⟨S1024, b0x⟩, ⟨S1024, b1x⟩, ⟨S1024, b2x⟩, ⟨S1024, b3x⟩]
        concatenates_S1024_S1024_S1024_S1024_S4096_d0) shapeCasts_S4096_S1x4096)
      (truncf (F := Ideal) .bf16 (concatenate S1024x4096 1 [⟨S1024x1024, W0h⟩, ⟨S1024x1024, W1h⟩, ⟨S1024x1024, W2h⟩, ⟨S1024x1024, W3h⟩]
        concatenates_S1024x1024_S1024x1024_S1024x1024_S1024x1024_S1024x4096_d1) bitsLt_bf16_f32)
      (shapeCast S1x4096 (concatenate S4096 0 [⟨S1024, b0h⟩, ⟨S1024, b1h⟩, ⟨S1024, b2h⟩, ⟨S1024, b3h⟩]
        concatenates_S1024_S1024_S1024_S1024_S4096_d0) shapeCasts_S4096_S1x4096)
      p (Pay.col 3 k)
      = Cert.LstmSpec.pre X H W3x b3x W3h b3h p k := by
  unfold preA Cert.LstmSpec.pre
  simp only [wx_all_3 W0x W1x W2x W3x _ k _ (col3_val k), wh_all_3 W0h W1h W2h W3h _ k _ (col3_val k),
    b_all_3 b0x b1x b2x b3x k _ (col3_val k), b_all_3 b0h b1h b2h b3h k _ (col3_val k)]
  simp only [cast_apply]

end pre

/-! ## The two arrays over the prepared operands -/

section main
variable (X : FVec Ideal S4096x300 .f32) (H C : FVec Ideal S4096x1024 .f32)
  (Wf_x : FVec Ideal S300x1024 .f32) (bf_x : FVec Ideal S1024 .f32) (Wf_h : FVec Ideal S1024x1024 .f32) (bf_h : FVec Ideal S1024 .f32)
  (Wi_x : FVec Ideal S300x1024 .f32) (bi_x : FVec Ideal S1024 .f32) (Wi_h : FVec Ideal S1024x1024 .f32) (bi_h : FVec Ideal S1024 .f32)
  (Wg_x : FVec Ideal S300x1024 .f32) (bg_x : FVec Ideal S1024 .f32) (Wg_h : FVec Ideal S1024x1024 .f32) (bg_h : FVec Ideal S1024 .f32)
  (Wo_x : FVec Ideal S300x1024 .f32) (bo_x : FVec Ideal S1024 .f32) (Wo_h : FVec Ideal S1024x1024 .f32) (bo_h : FVec Ideal S1024 .f32)
  (Wl : FVec Ideal S1024x50257 .f32) (bl : FVec Ideal S50257 .f32)

/-- The gate step's array over the operands the host prepares is the new hidden state. -/
theorem gate_is_hnew :
    gateArr (truncf (F := Ideal) .bf16 X bitsLt_bf16_f32) (truncf (F := Ideal) .bf16 H bitsLt_bf16_f32) C
      (truncf (F := Ideal) .bf16 (concatenate S300x4096 1 [⟨S300x1024, Wf_x⟩, ⟨S300x1024, Wi_x⟩, ⟨S300x1024, Wg_x⟩, ⟨S300x1024, Wo_x⟩]
        concatenates_S300x1024_S300x1024_S300x1024_S300x1024_S300x4096_d1) bitsLt_bf16_f32)
      (shapeCast S1x4096 (concatenate S4096 0 [⟨S1024, bf_x⟩, ⟨S1024, bi_x⟩, ⟨S1024, bg_x⟩, ⟨S1024, bo_x⟩]
        concatenates_S1024_S1024_S1024_S1024_S4096_d0) shapeCasts_S4096_S1x4096)
      (truncf (F := Ideal) .bf16 (concatenate S1024x4096 1 [⟨S1024x1024, Wf_h⟩, ⟨S1024x1024, Wi_h⟩, ⟨S1024x1024, Wg_h⟩, ⟨S1024x1024, Wo_h⟩]
        concatenates_S1024x1024_S1024x1024_S1024x1024_S1024x1024_S1024x4096_d1) bitsLt_bf16_f32)
      (shapeCast S1x4096 (concatenate S4096 0 [⟨S1024, bf_h⟩, ⟨S1024, bi_h⟩, ⟨S1024, bg_h⟩, ⟨S1024, bo_h⟩]
        concatenates_S1024_S1024_S1024_S1024_S4096_d0) shapeCasts_S4096_S1x4096)
      = fun i => Cert.LstmSpec.hnew X H C Wf_x bf_x Wf_h bf_h Wi_x bi_x Wi_h bi_h Wg_x bg_x Wg_h bg_h Wo_x bo_x Wo_h bo_h (i 0) (i 1) := by
  funext i
  obtain ⟨p, k, rfl⟩ : ∃ (p : Fin 4096) (k : Fin 1024), i = ix2 p k := ⟨i 0, i 1, eq_ix2 (n0 := 4096) (n1 := 1024) i⟩
  rw [gateArr_ix2, preA_host_0, preA_host_1, preA_host_2, preA_host_3]
  rfl

/-- The logits step's array over the new hidden state and the operands the host prepares is the specification's logits. -/
theorem logits_is_spec :
    logitsArr (fun i => Cert.LstmSpec.hnew X H C Wf_x bf_x Wf_h bf_h Wi_x bi_x Wi_h bi_h Wg_x bg_x Wg_h bg_h Wo_x bo_x Wo_h bo_h (i 0) (i 1))
      (truncf (F := Ideal) .bf16 Wl bitsLt_bf16_f32) (shapeCast S1x50257 bl shapeCasts_S50257_S1x50257)
      = Cert.LstmSpec.logits X H C Wf_x bf_x Wf_h bf_h Wi_x bi_x Wi_h bi_h Wg_x bg_x Wg_h bg_h Wo_x bo_x Wo_h bo_h Wl bl := by
  funext i
  obtain ⟨p, v, rfl⟩ : ∃ (p : Fin 4096) (v : Fin 50257), i = ix2 p v := ⟨i 0, i 1, eq_ix2 (n0 := 4096) (n1 := 50257) i⟩
  rw [logitsArr_ix2, Cert.LstmSpec.logits_ix2, row_of_vec]
  simp only [cast_apply]

end main

end Cert.KernelIdeal.Bridge

end
-- ==== Proof.HostReads.lean ====
/- What the two stretches of host operations leave in the buffers the two kernel steps read, as terms of @main's
   arguments: the gathered embedding rows and the hidden state narrowed to the short float format, the four gates'
   weight matrices joined side by side and narrowed, the four gates' bias vectors joined end to end and viewed as a
   row, the cell state untouched; then the output matrix narrowed and the output bias viewed as a row. -/
import proofs.«156406_j52596169507493_2_alg».proof.Proof.Gen.KernelIdeal.Launch
import Idealize.ShloMosaic.Lib.StableHlo.Run
import Idealize.ShloMosaic.PureOps.Ideal

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

section Stretch0

variable (m : (ℓ : Loc nD τ sig) → Buf (Elt Ideal) ℓ) (c : Dev nD)

/-- The hidden state, narrowed. -/
theorem v8_eq :
    (StableHlo.after (hostOps0 (F := Ideal)) (fun b => m (c, b) : Valuation τ sig (Elt Ideal)) (Proc.devRef .tc main_v8)
        : S4096x1024.Idx → EReal)
      = truncf (F := Ideal) .bf16 (m ((c : Thread nD τ).loc main_arg1)) bitsLt_bf16_f32 := by
  after_results <;> rfl

/-- The embedding rows gathered at the wrapped indices, narrowed. -/
theorem v7_eq :
    (StableHlo.after (hostOps0 (F := Ideal)) (fun b => m (c, b) : Valuation τ sig (Elt Ideal)) (Proc.devRef .tc main_v7)
        : S4096x300.Idx → EReal)
      = truncf (F := Ideal) .bf16
          (Host.gather gather_S50257x300_S4096x1_S4096x300_1_0_n_n_0_1_1300 (m ((c : Thread nD τ).loc main_arg3))
            (broadcastInDim S4096x1 ![0] bcast_S4096_S4096x1_0
              (select (cmpi .slt (m ((c : Thread nD τ).loc main_arg0)) (broadcastInDim S4096 ![] bcast_S_S4096 (constantI S_ 32 0#32)))
                (addi (m ((c : Thread nD τ).loc main_arg0)) (broadcastInDim S4096 ![] bcast_S_S4096 (constantI S_ 32 50257#32)))
                (m ((c : Thread nD τ).loc main_arg0))))) bitsLt_bf16_f32 := by
  after_results <;> rfl

/-- The four input-weight matrices side by side, narrowed. -/
theorem v10_eq :
    (StableHlo.after (hostOps0 (F := Ideal)) (fun b => m (c, b) : Valuation τ sig (Elt Ideal)) (Proc.devRef .tc main_v10)
        : S300x4096.Idx → EReal)
      = truncf (F := Ideal) .bf16
          (concatenate S300x4096 1 [⟨S300x1024, (m ((c : Thread nD τ).loc main_arg4))⟩, ⟨S300x1024, (m ((c : Thread nD τ).loc main_arg8))⟩,
              ⟨S300x1024, (m ((c : Thread nD τ).loc main_arg12))⟩, ⟨S300x1024, (m ((c : Thread nD τ).loc main_arg16))⟩]
            concatenates_S300x1024_S300x1024_S300x1024_S300x1024_S300x4096_d1) bitsLt_bf16_f32 := by
  after_results <;> rfl

/-- The four recurrent-weight matrices side by side, narrowed. -/
theorem v12_eq :
    (StableHlo.after (hostOps0 (F := Ideal)) (fun b => m (c, b) : Valuation τ sig (Elt Ideal)) (Proc.devRef .tc main_v12)
        : S1024x4096.Idx → EReal)
      = truncf (F := Ideal) .bf16
          (concatenate S1024x4096 1 [⟨S1024x1024, (m ((c : Thread nD τ).loc main_arg6))⟩, ⟨S1024x1024, (m ((c : Thread nD τ).loc main_arg10))⟩,
              ⟨S1024x1024, (m ((c : Thread nD τ).loc main_arg14))⟩, ⟨S1024x1024, (m ((c : Thread nD τ).loc main_arg18))⟩]
            concatenates_S1024x1024_S1024x1024_S1024x1024_S1024x1024_S1024x4096_d1) bitsLt_bf16_f32 := by
  after_results <;> rfl

/-- The four input-bias vectors end to end, viewed as one row. -/
theorem v14_eq :
    (StableHlo.after (hostOps0 (F := Ideal)) (fun b => m (c, b) : Valuation τ sig (Elt Ideal)) (Proc.devRef .tc main_v14)
        : S1x4096.Idx → EReal)
      = shapeCast S1x4096
          (concatenate S4096 0 [⟨S1024, (m ((c : Thread nD τ).loc main_arg5))⟩, ⟨S1024, (m ((c : Thread nD τ).loc main_arg9))⟩,
              ⟨S1024, (m ((c : Thread nD τ).loc main_arg13))⟩, ⟨S1024, (m ((c : Thread nD τ).loc main_arg17))⟩]
            concatenates_S1024_S1024_S1024_S1024_S4096_d0) shapeCasts_S4096_S1x4096 := by
  after_results <;> rfl

/-- The four recurrent-bias vectors end to end, viewed as one row. -/
theorem v16_eq :
    (StableHlo.after (hostOps0 (F := Ideal)) (fun b => m (c, b) : Valuation τ sig (Elt Ideal)) (Proc.devRef .tc main_v16)
        : S1x4096.Idx → EReal)
      = shapeCast S1x4096
          (concatenate S4096 0 [⟨S1024, (m ((c : Thread nD τ).loc main_arg7))⟩, ⟨S1024, (m ((c : Thread nD τ).loc main_arg11))⟩,
              ⟨S1024, (m ((c : Thread nD τ).loc main_arg15))⟩, ⟨S1024, (m ((c : Thread nD τ).loc main_arg19))⟩]
            concatenates_S1024_S1024_S1024_S1024_S4096_d0) shapeCasts_S4096_S1x4096 := by
  after_results <;> rfl

/-- The cell state is not written. -/
theorem arg2_eq :
    (StableHlo.after (hostOps0 (F := Ideal)) (fun b => m (c, b) : Valuation τ sig (Elt Ideal)) (Proc.devRef .tc main_arg2)
        : S4096x1024.Idx → EReal)
      = (m ((c : Thread nD τ).loc main_arg2)) := by
  after_results <;> rfl

end Stretch0

section Stretch1

variable (W : Valuation τ sig (Elt Ideal))

/-- The output matrix, narrowed. -/
theorem v18_eq :
    (StableHlo.after (hostOps1 (F := Ideal)) W (Proc.devRef .tc main_v18) : S1024x50257.Idx → EReal)
      = truncf (F := Ideal) .bf16 (W (Proc.devRef .tc main_arg20)) bitsLt_bf16_f32 := by
  after_results <;> rfl

/-- The output bias, viewed as a row. -/
theorem v19_eq :
    (StableHlo.after (hostOps1 (F := Ideal)) W (Proc.devRef .tc main_v19) : S1x50257.Idx → EReal)
      = shapeCast S1x50257 (W (Proc.devRef .tc main_arg21)) shapeCasts_S50257_S1x50257 := by
  after_results <;> rfl

/-- The new hidden state is not written by the second stretch. -/
theorem v17_eq :
    (StableHlo.after (hostOps1 (F := Ideal)) W (Proc.devRef .tc main_v17) : S4096x1024.Idx → EReal)
      = W (Proc.devRef .tc main_v17) := by
  after_results <;> rfl

end Stretch1

end Cert.KernelIdeal.HostReads

end
-- ==== Proof.RefImports.lean ====
/- The reference's generated run and its read-at-an-index lemmas, gathered in one import. -/
import proofs.«156406_j52596169507493_2_alg».proof.Proof.Gen.ReferenceIdeal.Run
import proofs.«156406_j52596169507493_2_alg».proof.Proof.Gen.ReferenceIdeal.Read
-- ==== Proof.RefSpec.lean ====
/- The reference program's result, stage by stage, is the specification's logits of the argument buffers and
   the gathered embedding rows. Each gate is the same chain of nine operations (two contractions, two bias rows
   spread over the batch, three additions); the logistic function is spelled as 1 / (1 + exp (-x)) with the
   constant one broadcast; the last stage is a contraction with the output matrix plus its bias row. -/
import proofs.«156406_j52596169507493_2_alg».proof.Proof.RefImports
import proofs.«156406_j52596169507493_2_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.ReferenceIdeal.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.LstmSpec

/-! ## Index bookkeeping: the contraction's and the bias rows' index functions at an index given by coordinates -/

theorem lidx7 (p : Fin 4096) (k : Fin 1024) (j : Fin 300) : lidx_main_v7 (ix2 p k) j = ix2 p j := by
  funext a; match a with | ⟨0, _⟩ => rfl | ⟨1, _⟩ => rfl
theorem ridx7 (p : Fin 4096) (k : Fin 1024) (j : Fin 300) : ridx_main_v7 (ix2 p k) j = ix2 j k := by
  funext a; match a with | ⟨0, _⟩ => rfl | ⟨1, _⟩ => rfl
theorem lidx11 (p : Fin 4096) (k : Fin 1024) (j : Fin 1024) : lidx_main_v11 (ix2 p k) j = ix2 p j := by
  funext a; match a with | ⟨0, _⟩ => rfl | ⟨1, _⟩ => rfl
theorem ridx11 (p : Fin 4096) (k : Fin 1024) (j : Fin 1024) : ridx_main_v11 (ix2 p k) j = ix2 j k := by
  funext a; match a with | ⟨0, _⟩ => rfl | ⟨1, _⟩ => rfl
theorem bidx9 (p : Fin 4096) (k : Fin 1024) : idx_main_v8 (idx_main_v9 (ix2 p k)) = ix1 k := by
  funext a; match a with | ⟨0, _⟩ => rfl
theorem bidx14 (p : Fin 4096) (k : Fin 1024) : idx_main_v13 (idx_main_v14 (ix2 p k)) = ix1 k := by
  funext a; match a with | ⟨0, _⟩ => rfl
theorem lidx67 (p : Fin 4096) (v : Fin 50257) (k : Fin 1024) : lidx_main_v67 (ix2 p v) k = ix2 p k := by
  funext a; match a with | ⟨0, _⟩ => rfl | ⟨1, _⟩ => rfl
theorem ridx67 (p : Fin 4096) (v : Fin 50257) (k : Fin 1024) : ridx_main_v67 (ix2 p v) k = ix2 k v := by
  funext a; match a with | ⟨0, _⟩ => rfl | ⟨1, _⟩ => rfl
theorem bidx69 (p : Fin 4096) (v : Fin 50257) : idx_main_v68 (idx_main_v69 (ix2 p v)) = ix1 v := by
  funext a; match a with | ⟨0, _⟩ => rfl

/-! ## The gathered embedding rows -/

/-- One embedding row per index, a negative index first wrapped by adding the table's height: the explicit
    composition of the seven operations that build the gather's operand, for any gather record and any evidence
    of the two broadcasts' shape relations. -/
def embedWith (g : GatherDims S50257x300 S4096x1 S4096x300)
    (b0 : S_.BroadcastsInDim S4096 (![] : Fin 0 → Fin S4096.rank))
    (b1 : S4096.BroadcastsInDim S4096x1 (![0] : Fin 1 → Fin S4096x1.rank))
    (idx : (⟨S4096, .i32⟩ : BufTy).Contents (Elt Ideal)) (tbl : (⟨S50257x300, .f32⟩ : BufTy).Contents (Elt Ideal)) : (⟨S4096x300, .f32⟩ : BufTy).Contents (Elt Ideal) :=
  Host.gather g tbl (broadcastInDim S4096x1 ![0] b1
    (select (cmpi .slt idx (broadcastInDim S4096 ![] b0 (constantI S_ 32 0#32)))
      (addi idx (broadcastInDim S4096 ![] b0 (constantI S_ 32 50257#32))) idx))

/-- The gathered rows with the reference's own gather record. -/
def embed (idx : (⟨S4096, .i32⟩ : BufTy).Contents (Elt Ideal)) (tbl : (⟨S50257x300, .f32⟩ : BufTy).Contents (Elt Ideal)) : (⟨S4096x300, .f32⟩ : BufTy).Contents (Elt Ideal) :=
  embedWith gather_S50257x300_S4096x1_S4096x300_1_0_n_n_0_1_1300 bcast_S_S4096 bcast_S4096_S4096x1_0 idx tbl

/-- The reference's gather stage is `embed` of the index and table arguments. -/
theorem v6_eq_embed (x0 : (⟨S4096, .i32⟩ : BufTy).Contents (Elt Ideal)) (x3 : (⟨S50257x300, .f32⟩ : BufTy).Contents (Elt Ideal)) : val_main_v6 (F := Ideal) x0 x3 = embed x0 x3 := rfl

/-- `embed` spelled with explicit operations. -/
theorem embed_eq (x0 : (⟨S4096, .i32⟩ : BufTy).Contents (Elt Ideal)) (x3 : (⟨S50257x300, .f32⟩ : BufTy).Contents (Elt Ideal)) :
    embed x0 x3 = Host.gather gather_S50257x300_S4096x1_S4096x300_1_0_n_n_0_1_1300 x3
      (broadcastInDim S4096x1 ![0] bcast_S4096_S4096x1_0
        (select (cmpi .slt x0 (broadcastInDim S4096 ![] bcast_S_S4096 (constantI S_ 32 0#32)))
          (addi x0 (broadcastInDim S4096 ![] bcast_S_S4096 (constantI S_ 32 50257#32))) x0)) := rfl

/-! ## One gate -/

/-- A gate's pre-activation stage at coordinates `p`, `k` is the specification's, with the gathered rows as input. -/
theorem gate_pre (x0 : (⟨S4096, .i32⟩ : BufTy).Contents (Elt Ideal)) (x3 : (⟨S50257x300, .f32⟩ : BufTy).Contents (Elt Ideal))
    (H : (⟨S4096x1024, .f32⟩ : BufTy).Contents (Elt Ideal)) (wx : (⟨S300x1024, .f32⟩ : BufTy).Contents (Elt Ideal))
    (bx : (⟨S1024, .f32⟩ : BufTy).Contents (Elt Ideal)) (wh : (⟨S1024x1024, .f32⟩ : BufTy).Contents (Elt Ideal))
    (bh : (⟨S1024, .f32⟩ : BufTy).Contents (Elt Ideal)) (p : Fin 4096) (k : Fin 1024) :
    val_main_v15 (F := Ideal) x0 H x3 wx bx wh bh (ix2 p k)
      = pre (embed x0 x3) H wx bx wh bh p k := by
  rw [val_main_v15_apply, val_main_v12_apply, val_main_v10_apply, val_main_v7_apply, val_main_v9_apply, val_main_v8_apply,
    val_main_v11_apply, val_main_v14_apply, val_main_v13_apply, bidx9, bidx14]
  simp only [Ideal.addf_def, lidx7, ridx7, lidx11, ridx11]
  rfl
/-! ## The logistic function as the reference spells it -/

/-- The word 0x3F800000 is the number one. -/
theorem one_bits : Ideal.ofBits .f32 0x3F800000#32 = (1 : EReal) := by
  simp [Ideal.ofBits, Ideal.ieee, -EReal.coe_mul]; norm_num

/-- The eight operations after a gate's pre-activation — negate, exponential, one plus, one over — are the logistic
    function of it. -/
theorem gate_logistic (x0 : (⟨S4096, .i32⟩ : BufTy).Contents (Elt Ideal)) (x3 : (⟨S50257x300, .f32⟩ : BufTy).Contents (Elt Ideal)) (H : (⟨S4096x1024, .f32⟩ : BufTy).Contents (Elt Ideal)) (wx : (⟨S300x1024, .f32⟩ : BufTy).Contents (Elt Ideal)) (bx : (⟨S1024, .f32⟩ : BufTy).Contents (Elt Ideal)) (wh : (⟨S1024x1024, .f32⟩ : BufTy).Contents (Elt Ideal)) (bh : (⟨S1024, .f32⟩ : BufTy).Contents (Elt Ideal)) (i : S4096x1024.Idx) :
    val_main_v21 (F := Ideal) x0 H x3 wx bx wh bh i = Ideal.logistic (val_main_v15 (F := Ideal) x0 H x3 wx bx wh bh i) := by
  rw [val_main_v21_apply, val_main_v20_apply, val_main_cst_1_apply, val_main_v19_apply, val_main_v18_apply, val_main_cst_apply,
    val_main_v17_apply, val_main_v16_apply]
  simp only [Ideal.hostDivf_def, Ideal.addf_def, Ideal.hostUnary_exp_def, Ideal.hostNegf_def, Ideal.negf_def, Ideal.ofBits_def,
    one_bits]
  rfl

/-! ## The four gates: the same chain on four groups of arguments -/

/-- The forget gate. -/
theorem sig_f (x0 : (⟨S4096, .i32⟩ : BufTy).Contents (Elt Ideal)) (x3 : (⟨S50257x300, .f32⟩ : BufTy).Contents (Elt Ideal)) (H : (⟨S4096x1024, .f32⟩ : BufTy).Contents (Elt Ideal)) (wx : (⟨S300x1024, .f32⟩ : BufTy).Contents (Elt Ideal)) (bx : (⟨S1024, .f32⟩ : BufTy).Contents (Elt Ideal)) (wh : (⟨S1024x1024, .f32⟩ : BufTy).Contents (Elt Ideal)) (bh : (⟨S1024, .f32⟩ : BufTy).Contents (Elt Ideal)) (p : Fin 4096) (k : Fin 1024) :
    val_main_v21 (F := Ideal) x0 H x3 wx bx wh bh (ix2 p k) = Ideal.logistic (pre (embed x0 x3) H wx bx wh bh p k) := by
  rw [gate_logistic, gate_pre]
/-- The input gate: its stages are the forget gate's on other arguments. -/
theorem sig_i (x0 : (⟨S4096, .i32⟩ : BufTy).Contents (Elt Ideal)) (x3 : (⟨S50257x300, .f32⟩ : BufTy).Contents (Elt Ideal)) (H : (⟨S4096x1024, .f32⟩ : BufTy).Contents (Elt Ideal)) (wx : (⟨S300x1024, .f32⟩ : BufTy).Contents (Elt Ideal)) (bx : (⟨S1024, .f32⟩ : BufTy).Contents (Elt Ideal)) (wh : (⟨S1024x1024, .f32⟩ : BufTy).Contents (Elt Ideal)) (bh : (⟨S1024, .f32⟩ : BufTy).Contents (Elt Ideal)) (p : Fin 4096) (k : Fin 1024) :
    val_main_v36 (F := Ideal) x0 H x3 wx bx wh bh (ix2 p k) = Ideal.logistic (pre (embed x0 x3) H wx bx wh bh p k) :=
  sig_f x0 x3 H wx bx wh bh p k
/-- The output gate. -/
theorem sig_o (x0 : (⟨S4096, .i32⟩ : BufTy).Contents (Elt Ideal)) (x3 : (⟨S50257x300, .f32⟩ : BufTy).Contents (Elt Ideal)) (H : (⟨S4096x1024, .f32⟩ : BufTy).Contents (Elt Ideal)) (wx : (⟨S300x1024, .f32⟩ : BufTy).Contents (Elt Ideal)) (bx : (⟨S1024, .f32⟩ : BufTy).Contents (Elt Ideal)) (wh : (⟨S1024x1024, .f32⟩ : BufTy).Contents (Elt Ideal)) (bh : (⟨S1024, .f32⟩ : BufTy).Contents (Elt Ideal)) (p : Fin 4096) (k : Fin 1024) :
    val_main_v61 (F := Ideal) x0 H x3 wx bx wh bh (ix2 p k) = Ideal.logistic (pre (embed x0 x3) H wx bx wh bh p k) :=
  sig_f x0 x3 H wx bx wh bh p k
/-- The candidate: the hyperbolic tangent of the same chain. -/
theorem tanh_g (x0 : (⟨S4096, .i32⟩ : BufTy).Contents (Elt Ideal)) (x3 : (⟨S50257x300, .f32⟩ : BufTy).Contents (Elt Ideal)) (H : (⟨S4096x1024, .f32⟩ : BufTy).Contents (Elt Ideal)) (wx : (⟨S300x1024, .f32⟩ : BufTy).Contents (Elt Ideal)) (bx : (⟨S1024, .f32⟩ : BufTy).Contents (Elt Ideal)) (wh : (⟨S1024x1024, .f32⟩ : BufTy).Contents (Elt Ideal)) (bh : (⟨S1024, .f32⟩ : BufTy).Contents (Elt Ideal)) (p : Fin 4096) (k : Fin 1024) :
    val_main_v46 (F := Ideal) x0 H x3 wx bx wh bh (ix2 p k) = Ideal.tanh (pre (embed x0 x3) H wx bx wh bh p k) := by
  rw [val_main_v46_apply, Ideal.hostUnary_tanh_def]
  exact congrArg Ideal.tanh (gate_pre x0 x3 H wx bx wh bh p k)

/-! ## The new hidden state and the logits -/

theorem hnew_stage (x0 : (⟨S4096, .i32⟩ : BufTy).Contents (Elt Ideal)) (x1 x2 : (⟨S4096x1024, .f32⟩ : BufTy).Contents (Elt Ideal)) (x3 : (⟨S50257x300, .f32⟩ : BufTy).Contents (Elt Ideal))
    (x4 : (⟨S300x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (x8 : (⟨S300x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal))
    (x12 : (⟨S300x1024, .f32⟩ : BufTy).Contents (Elt Ideal)) (x13 : (⟨S1024, .f32⟩ : BufTy).Contents (Elt Ideal)) (x14 : (⟨S1024x1024, .f32⟩ : BufTy).Contents (Elt Ideal)) (x15 : (⟨S1024, .f32⟩ : BufTy).Contents (Elt Ideal))
    (x16 : (⟨S300x1024, .f32⟩ : BufTy).Contents (Elt Ideal)) (x17 : (⟨S1024, .f32⟩ : BufTy).Contents (Elt Ideal)) (x18 : (⟨S1024x1024, .f32⟩ : BufTy).Contents (Elt Ideal)) (x19 : (⟨S1024, .f32⟩ : BufTy).Contents (Elt Ideal)) (p : Fin 4096) (k : Fin 1024) :
    val_main_v66 (F := Ideal) x0 x1 x2 x3 x4 x5 x6 x7 x8 x9 x10 x11 x12 x13 x14 x15 x16 x17 x18 x19 (ix2 p k)
      = hnew (embed x0 x3) x1 x2 x4 x5 x6 x7 x8 x9 x10 x11 x12 x13 x14 x15 x16 x17 x18 x19 p k := by
  rw [val_main_v66_apply, val_main_v65_apply, val_main_v64_apply, val_main_v62_apply, val_main_v63_apply,
    sig_o, sig_f, sig_i, tanh_g]
  simp only [Ideal.mulf_def, Ideal.addf_def, Ideal.hostUnary_tanh_def]
  rfl

theorem ref_at (x0 : (⟨S4096, .i32⟩ : BufTy).Contents (Elt Ideal)) (x1 x2 : (⟨S4096x1024, .f32⟩ : BufTy).Contents (Elt Ideal)) (x3 : (⟨S50257x300, .f32⟩ : BufTy).Contents (Elt Ideal))
    (x4 : (⟨S300x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (x8 : (⟨S300x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal))
    (x12 : (⟨S300x1024, .f32⟩ : BufTy).Contents (Elt Ideal)) (x13 : (⟨S1024, .f32⟩ : BufTy).Contents (Elt Ideal)) (x14 : (⟨S1024x1024, .f32⟩ : BufTy).Contents (Elt Ideal)) (x15 : (⟨S1024, .f32⟩ : BufTy).Contents (Elt Ideal))
    (x16 : (⟨S300x1024, .f32⟩ : BufTy).Contents (Elt Ideal)) (x17 : (⟨S1024, .f32⟩ : BufTy).Contents (Elt Ideal)) (x18 : (⟨S1024x1024, .f32⟩ : BufTy).Contents (Elt Ideal)) (x19 : (⟨S1024, .f32⟩ : BufTy).Contents (Elt Ideal))
    (x20 : (⟨S1024x50257, .f32⟩ : BufTy).Contents (Elt Ideal)) (x21 : (⟨S50257, .f32⟩ : BufTy).Contents (Elt Ideal)) (p : Fin 4096) (v : Fin 50257) :
    val_main_v70 (F := Ideal) x0 x1 x2 x3 x4 x5 x6 x7 x8 x9 x10 x11 x12 x13 x14 x15 x16 x17 x18 x19 x20 x21 (ix2 p v)
      = logits (embed x0 x3) x1 x2 x4 x5 x6 x7 x8 x9 x10 x11 x12 x13 x14 x15 x16 x17 x18 x19 x20 x21 (ix2 p v) := by
  rw [logits_ix2, val_main_v70_apply, val_main_v67_apply, val_main_v69_apply, val_main_v68_apply, bidx69]
  simp only [Ideal.addf_def, lidx67, ridx67, hnew_stage]

/-- The reference's last stage, as a function of @main's arguments, is the specification's logits. -/
theorem ref_fun (x0 : (⟨S4096, .i32⟩ : BufTy).Contents (Elt Ideal)) (x1 x2 : (⟨S4096x1024, .f32⟩ : BufTy).Contents (Elt Ideal)) (x3 : (⟨S50257x300, .f32⟩ : BufTy).Contents (Elt Ideal))
    (x4 : (⟨S300x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (x8 : (⟨S300x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal))
    (x12 : (⟨S300x1024, .f32⟩ : BufTy).Contents (Elt Ideal)) (x13 : (⟨S1024, .f32⟩ : BufTy).Contents (Elt Ideal)) (x14 : (⟨S1024x1024, .f32⟩ : BufTy).Contents (Elt Ideal)) (x15 : (⟨S1024, .f32⟩ : BufTy).Contents (Elt Ideal))
    (x16 : (⟨S300x1024, .f32⟩ : BufTy).Contents (Elt Ideal)) (x17 : (⟨S1024, .f32⟩ : BufTy).Contents (Elt Ideal)) (x18 : (⟨S1024x1024, .f32⟩ : BufTy).Contents (Elt Ideal)) (x19 : (⟨S1024, .f32⟩ : BufTy).Contents (Elt Ideal))
    (x20 : (⟨S1024x50257, .f32⟩ : BufTy).Contents (Elt Ideal)) (x21 : (⟨S50257, .f32⟩ : BufTy).Contents (Elt Ideal)) :
    val_main_v70 (F := Ideal) x0 x1 x2 x3 x4 x5 x6 x7 x8 x9 x10 x11 x12 x13 x14 x15 x16 x17 x18 x19 x20 x21
      = logits (embed x0 x3) x1 x2 x4 x5 x6 x7 x8 x9 x10 x11 x12 x13 x14 x15 x16 x17 x18 x19 x20 x21 := by
  funext i
  rw [eq_ix2 i]
  exact ref_at x0 x1 x2 x3 x4 x5 x6 x7 x8 x9 x10 x11 x12 x13 x14 x15 x16 x17 x18 x19 x20 x21 (i 0) (i 1)

/-- The term the reference's run states for its result buffer is the specification's logits of the argument buffers,
    the input rows being the gathered embedding rows. -/
theorem ref_is_spec (m : (ℓ : Loc nD τ sig) → Buf (Elt Ideal) ℓ) (c : Dev nD) :
    Cert.ReferenceIdeal.Value.res_main_v70 (F := Ideal) m c
      = logits (embed (m ((c.tc : Thread nD τ).loc main_arg0)) (m ((c.tc : Thread nD τ).loc main_arg3)))
          (m ((c.tc : Thread nD τ).loc main_arg1)) (m ((c.tc : Thread nD τ).loc main_arg2))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17))
          (m ((c.tc : Thread nD τ).loc main_arg18)) (m ((c.tc : Thread nD τ).loc main_arg19))
          (m ((c.tc : Thread nD τ).loc main_arg20)) (m ((c.tc : Thread nD τ).loc main_arg21)) := by
  rw [val_main_v70_eq]
  exact ref_fun _ _ _ _ _ _ _ _ _ _ _ _ _ _ _ _ _ _ _ _ _ _

end Cert.ReferenceIdeal.RefSpec

end
-- ==== Proof.KernelValue.lean ====
/-
  The kernel program's result array is the specification's logits of the arguments.

  The run ends with the result array at what the logits region's write-backs leave: the logits array of the region's
  operands. Of those, the hidden state is what the gate region's write-backs left (the second host stretch does not
  write it), which is the gate array of the first stretch's operands: the embedding rows, the hidden state and the
  joined weights narrowed, the joined biases as rows, and the cell state as launched. The operands the host prepares
  turn the gate array into the new hidden state and the logits array over it into the specification's logits; the
  embedding lookup is the reference's own.
-/
import proofs.«156406_j52596169507493_2_alg».proof.Proof.Run
import proofs.«156406_j52596169507493_2_alg».proof.Proof.GateValue
import proofs.«156406_j52596169507493_2_alg».proof.Proof.LogitsValue
import proofs.«156406_j52596169507493_2_alg».proof.Proof.LogitsLocal
import proofs.«156406_j52596169507493_2_alg».proof.Proof.KernelIsSpec
import proofs.«156406_j52596169507493_2_alg».proof.Proof.HostReads
import proofs.«156406_j52596169507493_2_alg».proof.Proof.RefSpec
import Idealize.ShloMosaic.Lib.StableHlo.Run

set_option maxRecDepth 16384

noncomputable section

namespace Cert.KernelIdeal.KernelValue

open Cert.KernelIdeal Cert.KernelIdeal.Frm Cert.KernelIdeal.Arr Cert.KernelIdeal.Bridge
open Idealize.ShloMosaic Idealize.ShloMosaic.TcCoe Idealize.ShloMosaic.ValueIdx Idealize.SL.Sem
open Cert.KernelIdeal.Facts₀

variable (m : (ℓ : Loc nD τ sig) → Buf (Elt Ideal) ℓ) (c : Dev nD)

/-- The kernel program's embedding lookup is the reference's: the two programs' records of the lookup have the same
    fields, and the wrapped index is computed by the same operations. -/
theorem embed_eq :
    (Host.gather gather_S50257x300_S4096x1_S4096x300_1_0_n_n_0_1_1300 (m ((c.tc : Thread nD τ).loc main_arg3)) (broadcastInDim S4096x1 ![0] bcast_S4096_S4096x1_0 (select (cmpi .slt (m ((c.tc : Thread nD τ).loc main_arg0)) (broadcastInDim S4096 ![] bcast_S_S4096 (constantI S_ 32 0#32))) (addi (m ((c.tc : Thread nD τ).loc main_arg0)) (broadcastInDim S4096 ![] bcast_S_S4096 (constantI S_ 32 50257#32))) (m ((c.tc : Thread nD τ).loc main_arg0)))))
      = Cert.ReferenceIdeal.RefSpec.embed (m ((c.tc : Thread nD τ).loc main_arg0)) (m ((c.tc : Thread nD τ).loc main_arg3)) := rfl

/-- An argument the first stretch does not write and the gate region does not stage is, at the second stretch's entry,
    as launched. -/
theorem keep20 : U2 m c (Proc.devRef .tc main_arg20) = (m ((c.tc : Thread nD τ).loc main_arg20)) :=
  (U2_of_ne m c main_arg20 (by decide)).trans
    ((StableHlo.after_of_writes_sub Gen.hostOps0 _ Gen.hostOps0_writes (by decide)).trans rfl)
theorem keep21 : U2 m c (Proc.devRef .tc main_arg21) = (m ((c.tc : Thread nD τ).loc main_arg21)) :=
  (U2_of_ne m c main_arg21 (by decide)).trans
    ((StableHlo.after_of_writes_sub Gen.hostOps0 _ Gen.hostOps0_writes (by decide)).trans rfl)

/-- The gate region leaves its output array at the new hidden state of the arguments. -/
theorem gate_value :
    (U2 m c (Proc.devRef .tc main_v17) : S4096x1024.Idx → EReal)
      = fun i => Cert.LstmSpec.hnew (Cert.ReferenceIdeal.RefSpec.embed (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (i 0) (i 1) := by
  refine (U2_arr m c 7).trans ((GateValue.final0 (E1 m) c).trans ?_)
  rw [show (E1 m c main_v7 : S4096x300.Idx → EReal) = _ from HostReads.v7_eq m c,
    show (E1 m c main_v8 : S4096x1024.Idx → EReal) = _ from HostReads.v8_eq m c,
    show (E1 m c main_arg2 : S4096x1024.Idx → EReal) = _ from HostReads.arg2_eq m c,
    show (E1 m c main_v10 : S300x4096.Idx → EReal) = _ from HostReads.v10_eq m c,
    show (E1 m c main_v14 : S1x4096.Idx → EReal) = _ from HostReads.v14_eq m c,
    show (E1 m c main_v12 : S1024x4096.Idx → EReal) = _ from HostReads.v12_eq m c,
    show (E1 m c main_v16 : S1x4096.Idx → EReal) = _ from HostReads.v16_eq m c]
  exact gate_is_hnew (Cert.ReferenceIdeal.RefSpec.embed (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

/-- THE KERNEL PROGRAM'S RESULT: the logits region leaves the result array at the specification's logits of the
    arguments. -/
theorem kernel_value :
    (U4 (F := Ideal) m c (Proc.devRef .tc main_v20) : S4096x50257.Idx → EReal)
      = Cert.LstmSpec.logits (Cert.ReferenceIdeal.RefSpec.embed (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  refine (U4_arr m c 3).trans ((LogitsValue.final1 (E3 m) c).trans ?_)
  rw [show (E3 m c main_v17 : S4096x1024.Idx → EReal) = _ from (HostReads.v17_eq (U2 m c)).trans (gate_value m c),
    show (E3 m c main_v18 : S1024x50257.Idx → EReal) = _ from (HostReads.v18_eq (U2 m c)).trans (by rw [keep20]),
    show (E3 m c main_v19 : S1x50257.Idx → EReal) = _ from (HostReads.v19_eq (U2 m c)).trans (by rw [keep21])]
  exact logits_is_spec (Cert.ReferenceIdeal.RefSpec.embed (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))

end Cert.KernelIdeal.KernelValue

end
-- ==== Proof.Claims.lean ====
/-
  The claims. The idealized kernel program runs and leaves its arguments as launched; so does the idealized
  reference; and from memories that agree on the arguments both end with the same result array, the specification's
  logits of the arguments.
-/
import proofs.«156406_j52596169507493_2_alg».proof.Defs
import proofs.«156406_j52596169507493_2_alg».proof.Proof.Run
import proofs.«156406_j52596169507493_2_alg».proof.Proof.LogitsLocal
import proofs.«156406_j52596169507493_2_alg».proof.Proof.KernelValue
import proofs.«156406_j52596169507493_2_alg».proof.Proof.RefSpec
import proofs.«156406_j52596169507493_2_alg».proof.Proof.Gen.ReferenceIdeal.Run
import proofs.«156406_j52596169507493_2_alg».proof.Proof.Gen.Pre_finite_inputs

set_option maxRecDepth 16384

noncomputable section

namespace Cert.Proof.Parts

open Idealize.ShloMosaic Idealize.ShloMosaic.TcCoe Idealize.SL.Sem
open Cert.KernelIdeal Cert.KernelIdeal.Gen Cert.KernelIdeal.Frm

/-- The idealized kernel program runs, and every argument ends as launched: no host operation writes an argument and
    no region writes one back. -/
theorem frame_ki : @Cert.frame_KernelIdeal Cert.KernelIdeal.Gen.facts Cert.Pre_finite_inputs.Gen.facts := fun m ρ _ =>
  (θ_run Cert.KernelIdeal.defs _ _).mono (fun r h c =>
    ⟨(h c _ (mem_uc main_arg0 (by decide))).trans (U4_keep m c main_arg0 (by decide) (by decide) (by decide) (by decide)),
      (h c _ (mem_uc main_arg1 (by decide))).trans (U4_keep m c main_arg1 (by decide) (by decide) (by decide) (by decide)),
      (h c _ (mem_uc main_arg2 (by decide))).trans (U4_main_arg2 m c),
      (h c _ (mem_uc main_arg3 (by decide))).trans (U4_keep m c main_arg3 (by decide) (by decide) (by decide) (by decide)),
      (h c _ (mem_uc main_arg4 (by decide))).trans (U4_keep m c main_arg4 (by decide) (by decide) (by decide) (by decide)),
      (h c _ (mem_uc main_arg5 (by decide))).trans (U4_keep m c main_arg5 (by decide) (by decide) (by decide) (by decide)),
      (h c _ (mem_uc main_arg6 (by decide))).trans (U4_keep m c main_arg6 (by decide) (by decide) (by decide) (by decide)),
      (h c _ (mem_uc main_arg7 (by decide))).trans (U4_keep m c main_arg7 (by decide) (by decide) (by decide) (by decide)),
      (h c _ (mem_uc main_arg8 (by decide))).trans (U4_keep m c main_arg8 (by decide) (by decide) (by decide) (by decide)),
      (h c _ (mem_uc main_arg9 (by decide))).trans (U4_keep m c main_arg9 (by decide) (by decide) (by decide) (by decide)),
      (h c _ (mem_uc main_arg10 (by decide))).trans (U4_keep m c main_arg10 (by decide) (by decide) (by decide) (by decide)),
      (h c _ (mem_uc main_arg11 (by decide))).trans (U4_keep m c main_arg11 (by decide) (by decide) (by decide) (by decide)),
      (h c _ (mem_uc main_arg12 (by decide))).trans (U4_keep m c main_arg12 (by decide) (by decide) (by decide) (by decide)),
      (h c _ (mem_uc main_arg13 (by decide))).trans (U4_keep m c main_arg13 (by decide) (by decide) (by decide) (by decide)),
      (h c _ (mem_uc main_arg14 (by decide))).trans (U4_keep m c main_arg14 (by decide) (by decide) (by decide) (by decide)),
      (h c _ (mem_uc main_arg15 (by decide))).trans (U4_keep m c main_arg15 (by decide) (by decide) (by decide) (by decide)),
      (h c _ (mem_uc main_arg16 (by decide))).trans (U4_keep m c main_arg16 (by decide) (by decide) (by decide) (by decide)),
      (h c _ (mem_uc main_arg17 (by decide))).trans (U4_keep m c main_arg17 (by decide) (by decide) (by decide) (by decide)),
      (h c _ (mem_uc main_arg18 (by decide))).trans (U4_keep m c main_arg18 (by decide) (by decide) (by decide) (by decide)),
      (h c _ (mem_uc main_arg19 (by decide))).trans (U4_keep m c main_arg19 (by decide) (by decide) (by decide) (by decide)),
      (h c _ (mem_uc main_arg20 (by decide))).trans (U4_keep m c main_arg20 (by decide) (by decide) (by decide) (by decide)),
      (h c _ (mem_uc main_arg21 (by decide))).trans (U4_keep m c main_arg21 (by decide) (by decide) (by decide) (by decide))⟩)
    (run_all col_local m ρ)

/-- The idealized reference runs, and every argument ends as launched. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The reference's result is the specification's logits of any values its arguments are equal to. -/
theorem ref_value (m' : (ℓ : Loc Cert.ReferenceIdeal.nD Cert.ReferenceIdeal.τ Cert.ReferenceIdeal.sig) → Buf (Elt Ideal) ℓ) (c : Dev Cert.ReferenceIdeal.nD)
    (x0 : (⟨Cert.ReferenceIdeal.S4096, .i32⟩ : BufTy).Contents (Elt Ideal)) (x1 : Cert.LstmSpec.Mat 4096 1024) (x2 : Cert.LstmSpec.Mat 4096 1024) (x3 : (⟨Cert.ReferenceIdeal.S50257x300, .f32⟩ : BufTy).Contents (Elt Ideal)) (x4 : Cert.LstmSpec.Mat 300 1024) (x5 : Cert.LstmSpec.Vec 1024) (x6 : Cert.LstmSpec.Mat 1024 1024) (x7 : Cert.LstmSpec.Vec 1024) (x8 : Cert.LstmSpec.Mat 300 1024) (x9 : Cert.LstmSpec.Vec 1024) (x10 : Cert.LstmSpec.Mat 1024 1024) (x11 : Cert.LstmSpec.Vec 1024) (x12 : Cert.LstmSpec.Mat 300 1024) (x13 : Cert.LstmSpec.Vec 1024) (x14 : Cert.LstmSpec.Mat 1024 1024) (x15 : Cert.LstmSpec.Vec 1024) (x16 : Cert.LstmSpec.Mat 300 1024) (x17 : Cert.LstmSpec.Vec 1024) (x18 : Cert.LstmSpec.Mat 1024 1024) (x19 : Cert.LstmSpec.Vec 1024) (x20 : Cert.LstmSpec.Mat 1024 50257) (x21 : Cert.LstmSpec.Vec 50257)
    (h0 : m' ((c.tc : Thread Cert.ReferenceIdeal.nD Cert.ReferenceIdeal.τ).loc Cert.ReferenceIdeal.main_arg0) = x0)
    (h1 : m' ((c.tc : Thread Cert.ReferenceIdeal.nD Cert.ReferenceIdeal.τ).loc Cert.ReferenceIdeal.main_arg1) = x1)
    (h2 : m' ((c.tc : Thread Cert.ReferenceIdeal.nD Cert.ReferenceIdeal.τ).loc Cert.ReferenceIdeal.main_arg2) = x2)
    (h3 : m' ((c.tc : Thread Cert.ReferenceIdeal.nD Cert.ReferenceIdeal.τ).loc Cert.ReferenceIdeal.main_arg3) = x3)
    (h4 : m' ((c.tc : Thread Cert.ReferenceIdeal.nD Cert.ReferenceIdeal.τ).loc Cert.ReferenceIdeal.main_arg4) = x4)
    (h5 : m' ((c.tc : Thread Cert.ReferenceIdeal.nD Cert.ReferenceIdeal.τ).loc Cert.ReferenceIdeal.main_arg5) = x5)
    (h6 : m' ((c.tc : Thread Cert.ReferenceIdeal.nD Cert.ReferenceIdeal.τ).loc Cert.ReferenceIdeal.main_arg6) = x6)
    (h7 : m' ((c.tc : Thread Cert.ReferenceIdeal.nD Cert.ReferenceIdeal.τ).loc Cert.ReferenceIdeal.main_arg7) = x7)
    (h8 : m' ((c.tc : Thread Cert.ReferenceIdeal.nD Cert.ReferenceIdeal.τ).loc Cert.ReferenceIdeal.main_arg8) = x8)
    (h9 : m' ((c.tc : Thread Cert.ReferenceIdeal.nD Cert.ReferenceIdeal.τ).loc Cert.ReferenceIdeal.main_arg9) = x9)
    (h10 : m' ((c.tc : Thread Cert.ReferenceIdeal.nD Cert.ReferenceIdeal.τ).loc Cert.ReferenceIdeal.main_arg10) = x10)
    (h11 : m' ((c.tc : Thread Cert.ReferenceIdeal.nD Cert.ReferenceIdeal.τ).loc Cert.ReferenceIdeal.main_arg11) = x11)
    (h12 : m' ((c.tc : Thread Cert.ReferenceIdeal.nD Cert.ReferenceIdeal.τ).loc Cert.ReferenceIdeal.main_arg12) = x12)
    (h13 : m' ((c.tc : Thread Cert.ReferenceIdeal.nD Cert.ReferenceIdeal.τ).loc Cert.ReferenceIdeal.main_arg13) = x13)
    (h14 : m' ((c.tc : Thread Cert.ReferenceIdeal.nD Cert.ReferenceIdeal.τ).loc Cert.ReferenceIdeal.main_arg14) = x14)
    (h15 : m' ((c.tc : Thread Cert.ReferenceIdeal.nD Cert.ReferenceIdeal.τ).loc Cert.ReferenceIdeal.main_arg15) = x15)
    (h16 : m' ((c.tc : Thread Cert.ReferenceIdeal.nD Cert.ReferenceIdeal.τ).loc Cert.ReferenceIdeal.main_arg16) = x16)
    (h17 : m' ((c.tc : Thread Cert.ReferenceIdeal.nD Cert.ReferenceIdeal.τ).loc Cert.ReferenceIdeal.main_arg17) = x17)
    (h18 : m' ((c.tc : Thread Cert.ReferenceIdeal.nD Cert.ReferenceIdeal.τ).loc Cert.ReferenceIdeal.main_arg18) = x18)
    (h19 : m' ((c.tc : Thread Cert.ReferenceIdeal.nD Cert.ReferenceIdeal.τ).loc Cert.ReferenceIdeal.main_arg19) = x19)
    (h20 : m' ((c.tc : Thread Cert.ReferenceIdeal.nD Cert.ReferenceIdeal.τ).loc Cert.ReferenceIdeal.main_arg20) = x20)
    (h21 : m' ((c.tc : Thread Cert.ReferenceIdeal.nD Cert.ReferenceIdeal.τ).loc Cert.ReferenceIdeal.main_arg21) = x21) :
    Cert.ReferenceIdeal.Value.res_main_v70 (F := Ideal) m' c
      = Cert.LstmSpec.logits (Cert.ReferenceIdeal.RefSpec.embed x0 x3) x1 x2 x4 x5 x6 x7 x8 x9 x10 x11 x12 x13 x14 x15 x16 x17 x18 x19 x20 x21 := by
  subst h0 h1 h2 h3 h4 h5 h6 h7 h8 h9 h10 h11 h12 h13 h14 h15 h16 h17 h18 h19 h20 h21
  exact Cert.ReferenceIdeal.RefSpec.ref_is_spec m' c

/-- From memories that agree on the arguments both programs run, each leaves its arguments as launched, and both
    result arrays are the specification's logits of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.LstmSpec.logits (Cert.ReferenceIdeal.RefSpec.embed (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono (fun r h c =>
      ⟨(h c _ (mem_uc main_v20 (by decide))).trans (Cert.KernelIdeal.KernelValue.kernel_value m c),
      (h c _ (mem_uc main_arg0 (by decide))).trans (U4_keep m c main_arg0 (by decide) (by decide) (by decide) (by decide)),
      (h c _ (mem_uc main_arg1 (by decide))).trans (U4_keep m c main_arg1 (by decide) (by decide) (by decide) (by decide)),
      (h c _ (mem_uc main_arg2 (by decide))).trans (U4_main_arg2 m c),
      (h c _ (mem_uc main_arg3 (by decide))).trans (U4_keep m c main_arg3 (by decide) (by decide) (by decide) (by decide)),
      (h c _ (mem_uc main_arg4 (by decide))).trans (U4_keep m c main_arg4 (by decide) (by decide) (by decide) (by decide)),
      (h c _ (mem_uc main_arg5 (by decide))).trans (U4_keep m c main_arg5 (by decide) (by decide) (by decide) (by decide)),
      (h c _ (mem_uc main_arg6 (by decide))).trans (U4_keep m c main_arg6 (by decide) (by decide) (by decide) (by decide)),
      (h c _ (mem_uc main_arg7 (by decide))).trans (U4_keep m c main_arg7 (by decide) (by decide) (by decide) (by decide)),
      (h c _ (mem_uc main_arg8 (by decide))).trans (U4_keep m c main_arg8 (by decide) (by decide) (by decide) (by decide)),
      (h c _ (mem_uc main_arg9 (by decide))).trans (U4_keep m c main_arg9 (by decide) (by decide) (by decide) (by decide)),
      (h c _ (mem_uc main_arg10 (by decide))).trans (U4_keep m c main_arg10 (by decide) (by decide) (by decide) (by decide)),
      (h c _ (mem_uc main_arg11 (by decide))).trans (U4_keep m c main_arg11 (by decide) (by decide) (by decide) (by decide)),
      (h c _ (mem_uc main_arg12 (by decide))).trans (U4_keep m c main_arg12 (by decide) (by decide) (by decide) (by decide)),
      (h c _ (mem_uc main_arg13 (by decide))).trans (U4_keep m c main_arg13 (by decide) (by decide) (by decide) (by decide)),
      (h c _ (mem_uc main_arg14 (by decide))).trans (U4_keep m c main_arg14 (by decide) (by decide) (by decide) (by decide)),
      (h c _ (mem_uc main_arg15 (by decide))).trans (U4_keep m c main_arg15 (by decide) (by decide) (by decide) (by decide)),
      (h c _ (mem_uc main_arg16 (by decide))).trans (U4_keep m c main_arg16 (by decide) (by decide) (by decide) (by decide)),
      (h c _ (mem_uc main_arg17 (by decide))).trans (U4_keep m c main_arg17 (by decide) (by decide) (by decide) (by decide)),
      (h c _ (mem_uc main_arg18 (by decide))).trans (U4_keep m c main_arg18 (by decide) (by decide) (by decide) (by decide)),
      (h c _ (mem_uc main_arg19 (by decide))).trans (U4_keep m c main_arg19 (by decide) (by decide) (by decide) (by decide)),
      (h c _ (mem_uc main_arg20 (by decide))).trans (U4_keep m c main_arg20 (by decide) (by decide) (by decide) (by decide)),
      (h c _ (mem_uc main_arg21 (by decide))).trans (U4_keep m c main_arg21 (by decide) (by decide) (by decide) (by decide))⟩)
      (run_all col_local m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20, a21⟩ := hagree c
    exact ref_value m' c _ _ _ _ _ _ _ _ _ _ _ _ _ _ _ _ _ _ _ _ _ _ a0 a1 a2 a3 a4 a5 a6 a7 a8 a9 a10 a11 a12 a13 a14 a15 a16 a17 a18 a19 a20 a21

end Cert.Proof.Parts

end
-- ==== Proof.lean ====
/-
  The five claims about the two-step LSTM cell with logits: a gate kernel (four gates from two wide products over the
  joined weights, then the cell and hidden updates) followed by a logits kernel (one product and a bias, its last
  column block overhanging the 50257-wide arrays), against the plain reference.
  The three frames: the program as printed and its idealization run to the end and leave every argument as launched
  (the run of the host stretches and the two pipelined regions); the reference's is its run with the result dropped.
  The idealization rewrote nothing, so its soundness conjunct is trivial. On the extended reals both programs end
  with the same logits: at row p and column v, the sum over the hidden units k of o·tanh(f·c + i·tanh g) at (p, k)
  times the projection entry (k, v), plus the bias at v, the gates' pre-activations associated as
  ((x·Wx + bx) + h·Wh) + bh on both sides.
-/
import proofs.«156406_j52596169507493_2_alg».proof.Defs
import proofs.«156406_j52596169507493_2_alg».proof.Proof.Gen.Kernel
import proofs.«156406_j52596169507493_2_alg».proof.Proof.Gen.KernelIdeal
import proofs.«156406_j52596169507493_2_alg».proof.Proof.Gen.ReferenceIdeal
import proofs.«156406_j52596169507493_2_alg».proof.Proof.Gen.Pre_finite_inputs
import proofs.«156406_j52596169507493_2_alg».proof.Proof.ClaimsW
import proofs.«156406_j52596169507493_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, trivial, Parts.algebraic⟩

end Cert.Proof

end
